-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S2048x1024 : Shape := ⟨2, ![2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_arg5 : FVec F S2048x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S8x2048x1024 .f32) (main_arg1 : FVec F S8x2048x1024 .f32) (main_arg2 : FVec F S8x2048x1024 .f32) (main_arg3 : FVec F S2048x1024 .f32) (main_arg4 : FVec F S2048x1024 .f32) (main_arg5 : FVec F S2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_v13 main_v16
-- ==== Kernel.lean ====
abbrev S8x2048x1024 : Shape := ⟨3, ![8, 2048, 1024]⟩
abbrev S2048x1024 : Shape := ⟨2, ![2048, 1024]⟩
abbrev S16384x1024 : Shape := ⟨2, ![16384, 1024]⟩
abbrev S16384x2048 : Shape := ⟨2, ![16384, 2048]⟩
abbrev S1024x1024 : Shape := ⟨2, ![1024, 1024]⟩
abbrev S1024x2048 : Shape := ⟨2, ![1024, 2048]⟩
abbrev S8x2048x2048 : Shape := ⟨3, ![8, 2048, 2048]⟩
abbrev S1x512x2048 : Shape := ⟨3, ![1, 512, 2048]⟩
abbrev S512x1 : Shape := ⟨2, ![512, 1]⟩
abbrev S512x2048 : Shape := ⟨2, ![512, 2048]⟩
abbrev S512x512 : Shape := ⟨2, ![512, 512]⟩
abbrev S512 : Shape := ⟨1, ![512]⟩

abbrev nBuf : Space → Nat
  | .hbm => 19
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S16384x1024, .f32⟩
  | .hbm, ⟨10, _⟩ => ⟨S16384x2048, .bf16⟩
  | .hbm, ⟨11, _⟩ => ⟨S8x2048x2048, .bf16⟩
  | .hbm, ⟨12, _⟩ => ⟨S16384x1024, .f32⟩
  | .hbm, ⟨13, _⟩ => ⟨S16384x2048, .bf16⟩
  | .hbm, ⟨14, _⟩ => ⟨S8x2048x2048, .bf16⟩
  | .hbm, ⟨15, _⟩ => ⟨S16384x1024, .f32⟩
  | .hbm, ⟨16, _⟩ => ⟨S16384x2048, .bf16⟩
  | .hbm, ⟨17, _⟩ => ⟨S8x2048x2048, .bf16⟩
  | .hbm, ⟨18, _⟩ => ⟨S8x2048x2048, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1024x1024, .f32⟩
  | .local _ .vmem, ⟨6, _⟩ => ⟨S1024x1024, .f32⟩
  | .local _ .vmem, ⟨7, _⟩ => ⟨S2048x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | .local _ .vmem, ⟨13, _⟩ => ⟨S1024x2048, .bf16⟩
  | .local _ .vmem, ⟨14, _⟩ => ⟨S1024x2048, .bf16⟩
  | .local _ .vmem, ⟨15, _⟩ => ⟨S1x512x2048, .bf16⟩
  | .local _ .vmem, ⟨16, _⟩ => ⟨S1x512x2048, .bf16⟩
  | .local _ .vmem, ⟨17, _⟩ => ⟨S1x512x2048, .bf16⟩
  | .local _ .vmem, ⟨18, _⟩ => ⟨S1x512x2048, .bf16⟩
  | .local _ .vmem, ⟨19, _⟩ => ⟨S1x512x2048, .bf16⟩
  | .local _ .vmem, ⟨20, _⟩ => ⟨S1x512x2048, .bf16⟩
  | .local _ .vmem, ⟨21, _⟩ => ⟨S1x512x2048, .f32⟩
  | .local _ .vmem, ⟨22, _⟩ => ⟨S1x512x2048, .f32⟩
  | .local _ .vmem, ⟨23, _⟩ => ⟨S512x1, .f32⟩
  | .local _ .vmem, ⟨24, _⟩ => ⟨S512x1, .f32⟩
  | .local _ .vmem, ⟨25, _⟩ => ⟨S512x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_scratch0 : Ref sig .tc := ⟨.vmem, 23, rfl⟩
abbrev cc3_scratch1 : Ref sig .tc := ⟨.vmem, 24, rfl⟩
abbrev cc3_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![8, 4, 4], ![false, false, false]⟩

def k3_cond3 (i : grid3.Coords) : BitVec 1 :=
  let arg2 : BitVec 32 := BitVec.ofNat 32 (i 2).val
  let c3_i32 : BitVec 32 := 3#32
  let v7 : BitVec 1 := Scalar.cmpi .eq arg2 c3_i32
  let v8 : BitVec 32 := Scalar.extui v7
  let c0_i32_2 : BitVec 32 := 0#32
  let v9 : BitVec 1 := Scalar.cmpi .ne v8 c0_i32_2
  v9

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let v1 : BitVec 32 := Scalar.minsi arg2 v0
  let c0_i32 : BitVec 32 := 0#32
  let c0_i32_0 : BitVec 32 := 0#32
  ![arg0.toNat, v1.toNat, c0_i32.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let v1 : BitVec 32 := Scalar.minsi arg2 v0
  let c0_i32 : BitVec 32 := 0#32
  let c0_i32_0 : BitVec 32 := 0#32
  ![arg0.toNat, v1.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  bitsLt_bf16_f32 : FTy.bits .bf16 < FTy.bits .f32
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  packedbf16_S1024x2048_S1024x2048_0_0 : (Rect.unit (s := S1024x2048) ![0, 0] S1024x2048.size inb_S1024x2048_S1024x2048_0_0).PackedRows (EltTy.packing .bf16)
  shapeCasts_S16384x2048_S8x2048x2048 : S16384x2048.ShapeCasts S8x2048x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x2048 : S512x1.Broadcasts S512x2048
  shapeCasts_S512x2048_S1x512x2048 : S512x2048.ShapeCasts S1x512x2048
  dot_S1024x1024_S2048x1024_S1024x2048_1_1_0_0_n_n_wf : DotDims.WF S1024x1024 S2048x1024 S1024x2048 [1] [1] [0] [0] [] []
  dot_S512x2048_S512x2048_S512x512_1_1_0_0_n_n_wf : DotDims.WF S512x2048 S512x2048 S512x512 [1] [1] [0] [0] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S16384x2048.size a
  hwx0_2 : ∀ i : grid0.Coords, EltTy.bits .bf16 = 32 ∨ (Rect.block (s := S16384x2048) S1024x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x1024.size a
  hwx1_1 : ∀ i : grid1.Coords, EltTy.bits .bf16 = 32 ∨ (Rect.block (s := S2048x1024) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S16384x2048.size a
  hwx1_2 : ∀ i : grid1.Coords, EltTy.bits .bf16 = 32 ∨ (Rect.block (s := S16384x2048) S1024x2048.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .f32 = 32 ∨ (Rect.block (s := S16384x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S2048x1024.size a
  hwx2_1 : ∀ i : grid2.Coords, EltTy.bits .bf16 = 32 ∨ (Rect.block (s := S2048x1024) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S16384x2048.size a
  hwx2_2 : ∀ i : grid2.Coords, EltTy.bits .bf16 = 32 ∨ (Rect.block (s := S16384x2048) S1024x2048.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x512x2048.size a ≤ S8x2048x2048.size a
  hwx3_0 : ∀ i : grid3.Coords, EltTy.bits .bf16 = 32 ∨ (Rect.block (s := S8x2048x2048) S1x512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x2048.size a ≤ S8x2048x2048.size a
  hwx3_1 : ∀ i : grid3.Coords, EltTy.bits .bf16 = 32 ∨ (Rect.block (s := S8x2048x2048) S1x512x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x2048.size a ≤ S8x2048x2048.size a
  hwx3_2 : ∀ i : grid3.Coords, EltTy.bits .bf16 = 32 ∨ (Rect.block (s := S8x2048x2048) S1x512x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512x2048.size a ≤ S8x2048x2048.size a
  hwx3_3 : ∀ i : grid3.Coords, EltTy.bits .f32 = 32 ∨ (Rect.block (s := S8x2048x2048) S1x512x2048.size (cc3_transform_3 i) (hinb3_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S2048x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1024x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v8) S1x512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S1x512x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S1x512x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12) S1x512x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S2048x1024 : Shape := ⟨2, ![2048, 1024]⟩
abbrev S8x2048x2048 : Shape := ⟨3, ![8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S_, .i32⟩
  | .hbm, ⟨18, _⟩ => ⟨S2048x1, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S1x2048x2048, .i1⟩
  | .hbm, ⟨24, _⟩ => ⟨S_, .f32⟩
  | .hbm, ⟨25, _⟩ => ⟨S_, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S_, .f32⟩
  | .hbm, ⟨32, _⟩ => ⟨S8x2048, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S_S2048x1 : S_.BroadcastsInDim S2048x1 (![] : Fin 0 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S2048x1024_S8x2048x2048_2_1_01_0_n_n_wf : DotDims.WF S8x2048x1024 S2048x1024 S8x2048x2048 [2] [1] [0, 1] [0] [] []
  dot_S8x2048x2048_S8x2048x2048_S8x2048x2048_2_2_1_1_0_0_wf : DotDims.WF S8x2048x2048 S8x2048x2048 S8x2048x2048 [2] [2] [1] [1] [0] [0]
  dot_S8x2048x2048_S8x2048x2048_S8x2048x2048_2_1_1_2_0_0_wf : DotDims.WF S8x2048x2048 S8x2048x2048 S8x2048x2048 [2] [1] [1] [2] [0] [0]

variable [Facts₀]

def dot_S8x2048x1024_S2048x1024_S8x2048x2048_2_1_01_0_n_n : DotDims S8x2048x1024 S2048x1024 S8x2048x2048 where
  lhsContracting := [2]
  rhsContracting := [1]
  lhsNonContracting := [0, 1]
  rhsNonContracting := [0]
  lhsBatch := []
  rhsBatch := []
  wf := dot_S8x2048x1024_S2048x1024_S8x2048x2048_2_1_01_0_n_n_wf
def dot_S8x2048x2048_S8x2048x2048_S8x2048x2048_2_2_1_1_0_0 : DotDims S8x2048x2048 S8x2048x2048 S8x2048x2048 where
  lhsContracting := [2]
  rhsContracting := [2]
  lhsNonContracting := [1]
  rhsNonContracting := [1]
  lhsBatch := [0]
  rhsBatch := [0]
  wf := dot_S8x2048x2048_S8x2048x2048_S8x2048x2048_2_2_1_1_0_0_wf
def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf

class Facts : Prop extends Facts₀ where

variable [Facts]
-- ==== Proof.K.Base.lean ====
/-
  Shared definitions for the four launches of the word-level kernel (floats are machine words, every operation
  rounds), at a parameter `V` (what a launch finds in the TensorCore's buffers when it is entered).

  * `iblkK V c w t`: launch K's window `w` read at grid point `t` — the block of the window's array that the point works on.
  * The attention launch keeps three scratch arrays between grid points: the running row maximum, the running row
    denominator, and the running weighted sum of value rows.  `St` is that triple; `stStep` is one grid point's
    effect on it (reset at the first key tile of a query block, one online-softmax update on a tile that the
    causal band meets, nothing on a tile above the band); `stAt V c n` is the triple after the first `n` grid
    points; `stOut` is the quotient (weighted sum over denominator) written out at a query block's last key tile.
-/
import proofs.«171499_j10831907521163_2_alg».proof.Proof.Gen.Kernel.Launch
import proofs.«171499_j10831907521163_2_alg».proof.Proof.Gen.Kernel.Skeleton
import proofs.«171499_j10831907521163_2_alg».proof.Proof.Gen.Kernel.Points
import Idealize.ShloMosaic.Lib.Pipeline.FrameBody

noncomputable section

namespace Cert.Kernel.Hand

open Idealize.ShloMosaic Idealize.ShloMosaic.TcCoe
open Idealize.SL.Sem
open Cert.Kernel Cert.Kernel.Gen
open Idealize.ShloMosaic.Pipeline (Dat Cfg Window)

variable {F : FTy → Type} [FloatOps F]

variable (V : (c : Dev nD) → (b : Ref sig .tc) → Buf (Elt F) ((c : Thread nD τ).loc b))

/-- Launch 0 (the key projection): window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Launch 1 (the query projection, scaled): window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- Launch 2 (the value projection): window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
/-- Launch 3 (attention): window `w`'s block at point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The attention launch's carried scratch: (running row maximum, running row denominator, running weighted sum). -/
abbrev St (F : FTy → Type) : Type := Vec F S512x1 .f32 × Vec F S512x1 .f32 × Vec F S512x2048 .f32

/-- The scratch as the first key tile of a query block resets it: maximum at the large negative f32 literal −1.0e30,
    denominator 0, sum 0. -/
def stInit : St F := (k3_pay1 (F := F), k3_pay2 (F := F), k3_pay3 (F := F))

/-- One online-softmax update: from the query block `q`, key tile `k`, value tile `v` (query-block number `a1`, key-tile
    number `a2`, which place the causal band) and the scratch `s`, the new maximum, denominator and weighted sum. -/
def stReal (a1 a2 : BitVec 32) (q k v : Vec F S1x512x2048 .bf16) (s : St F) : St F :=
  (k3_pay5 (k3_pay9 a1 a2 q k s.1),
   k3_pay12 a1 a2 q k s.1 s.2.1,
   k3_pay4 (k3_pay7 v) (k3_pay10 a1 a2 q k s.1) (k3_pay11 a1 a2 q k s.1) s.2.2)

/-- One grid point (batch `i 0`, query block `i 1`, key tile `i 2`): reset on key tile 0, update when the tile meets the
    band (key tile ≤ query block + 1), otherwise leave the scratch alone. -/
def stStep (i : grid3.Coords) (q k v : Vec F S1x512x2048 .bf16) (s : St F) : St F :=
  let s1 : St F := if (i 2).val = 0 then stInit else s
  if (i 2).val ≤ (i 1).val + 1 then
    stReal (BitVec.ofNat 32 (i 1).val) (BitVec.ofNat 32 (i 2).val) q k v s1
  else s1

/-- What the last key tile of a query block writes to the output block: weighted sum / denominator, row by row. -/
def stOut (s : St F) : Vec F S1x512x2048 .f32 := k3_pay6 s.2.2 s.2.1

/-- The scratch after the first `n` grid points of the attention launch (its value before the first point is never read:
    point 0 is a key tile 0 and resets it). -/
def stAt (c : Dev nD) : (n : ℕ) → n ≤ cfg3.N → St F
  | 0, _ => stInit
  | n + 1, h =>
    stStep (grid3.coords ⟨n, h⟩) (iblk3 V c 0 ⟨n, h⟩) (iblk3 V c 1 ⟨n, h⟩) (iblk3 V c 2 ⟨n, h⟩) (stAt c n (Nat.le_of_succ_le h))

theorem stAt_zero (c : Dev nD) (h : 0 ≤ cfg3.N) : stAt V c 0 h = stInit := rfl

theorem stAt_succ (c : Dev nD) (n : ℕ) (h : n + 1 ≤ cfg3.N) :
    stAt V c (n + 1) h =
      stStep (grid3.coords ⟨n, h⟩) (iblk3 V c 0 ⟨n, h⟩) (iblk3 V c 1 ⟨n, h⟩) (iblk3 V c 2 ⟨n, h⟩) (stAt V c n (Nat.le_of_succ_le h)) := rfl

end Cert.Kernel.Hand

end
-- ==== Proof.K.Proj.lean ====
/-
  The three projection launches of the word-level kernel (key, query with the 1/32 scale, value), each at a parameter
  `V`: what each grid point leaves in its output block — the product of the point's 1024 input rows with the transposed
  weight, rounded — the proof data of the launch, and the body's obligation at every point.
-/
import proofs.«171499_j10831907521163_2_alg».proof.Proof.K.Base
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The block offset of every access of the three bodies: both coordinates zero. -/
theorem off_zero2 : (![0, 0] : Fin 2 → ℕ) = fun _ => 0 := by
  funext a; match a with | ⟨0, _⟩ => rfl | ⟨1, _⟩ => rfl

/-! ## Launch 0: the key projection -/

abbrev r0_in0 : Rect S1024x1024 := Rect.unit (s := S1024x1024) ![0, 0] S1024x1024.size inb_S1024x1024_S1024x1024_0_0
abbrev r0_in1 : Rect S2048x1024 := Rect.unit (s := S2048x1024) ![0, 0] S2048x1024.size inb_S2048x1024_S2048x1024_0_0
abbrev r0_out : Rect S1024x2048 := Rect.unit (s := S1024x2048) ![0, 0] S1024x2048.size inb_S1024x2048_S1024x2048_0_0

/-- What the body leaves in the output window's staging buffer, from the two input blocks: its one whole-block store. -/
def out0_2 (x0 : Vec F S1024x1024 .f32) (x1 : Vec F S2048x1024 .bf16) : Vec F S1024x2048 .bf16 :=
  View.canon [⟨r0_out, k0_pay1 (View.ld x0 r0_in0) (View.ld x1 r0_in1)⟩]

/-- The one store is of the whole block, so the buffer holds the payload of the two blocks read whole. -/
theorem out0_2_eq (x0 : Vec F S1024x1024 .f32) (x1 : Vec F S2048x1024 .bf16) : out0_2 x0 x1 = k0_pay1 x0 x1 := by
  unfold out0_2
  rw [View.canon_unit_zero (S := S1024x2048) off_zero2 inb_S1024x2048_S1024x2048_0_0,
    View.ld_unit_zero (S := S1024x1024) off_zero2 inb_S1024x1024_S1024x1024_0_0,
    View.ld_unit_zero (S := S2048x1024) off_zero2 inb_S2048x1024_S2048x1024_0_0]

/-- The one store of the body is of the whole output block, so it covers it. -/
theorem cover0_2 (p0 : Vec F S1024x2048 .bf16) (y : S1024x2048.Idx) :
    ∃ pc ∈ ([⟨r0_out, p0⟩] : List (View.Piece (Elt F) S1024x2048 .bf16)), y ∈ pc.1.set :=
  ⟨_, List.mem_singleton_self _, View.mem_set_unit_zero (S := S1024x2048) off_zero2 inb_S1024x2048_S1024x2048_0_0 y⟩

/-- Input window 0's current staging buffer holds its block of 1024 rows at every point (it is fetched at every point),
    for any proof data whose array is `V`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the whole weight at every point: it is fetched at the first point, its block
    is the same at every point, and the body leaves it in place, so it is still there at the later ones. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole staging memrefs — the two inputs' at contents `x0`, `x1`, the output's at anything — runs to the
    continuation holding the inputs' as they were and the output's at `out0_2 x0 x1`: two whole-block loads, a load of
    the output block whose value is dropped, and one whole-block store. -/
theorem sound_kernel0 (c : Dev nD) (E : Set ℕ) (i : grid0.Coords)
    (arg1 : Memref sig .tc .vmem S1024x1024 .f32) (harg1 : arg1.IsWhole)
    (arg2 : Memref sig .tc .vmem S2048x1024 .bf16) (harg2 : arg2.IsWhole)
    (arg3 : Memref sig .tc .vmem S1024x2048 .bf16) (harg3 : arg3.IsWhole)
    (x0 : Vec F S1024x1024 .f32) (x1 : Vec F S2048x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of launch 0 on core `c`: arrays as the launch finds them; after the body at point `t` each input's
    buffer at its block and the output's at `out0_2` of the two input blocks. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`: the invariant, what is owed, and the three windows' staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for launch 0, at every point. -/
theorem body_obligation0 (c : Dev nD) : BodyObligation (dat0 (F := F) V c) (defs₀ (F := F)) Variants.none () Set.univ := fun t => by
  rw [bigSep_W0, bigSep_W0]
  exact sound_body0 V c t

/-! ## Launch 1: the query projection, scaled by 1/32 -/

abbrev r1_in0 : Rect S1024x1024 := Rect.unit (s := S1024x1024) ![0, 0] S1024x1024.size inb_S1024x1024_S1024x1024_0_0
abbrev r1_in1 : Rect S2048x1024 := Rect.unit (s := S2048x1024) ![0, 0] S2048x1024.size inb_S2048x1024_S2048x1024_0_0
abbrev r1_out : Rect S1024x2048 := Rect.unit (s := S1024x2048) ![0, 0] S1024x2048.size inb_S1024x2048_S1024x2048_0_0

/-- What the body leaves in the output window's staging buffer, from the two input blocks: its one whole-block store. -/
def out1_2 (x0 : Vec F S1024x1024 .f32) (x1 : Vec F S2048x1024 .bf16) : Vec F S1024x2048 .bf16 :=
  View.canon [⟨r1_out, k1_pay1 (View.ld x0 r1_in0) (View.ld x1 r1_in1)⟩]

/-- The one store is of the whole block, so the buffer holds the payload of the two blocks read whole. -/
theorem out1_2_eq (x0 : Vec F S1024x1024 .f32) (x1 : Vec F S2048x1024 .bf16) : out1_2 x0 x1 = k1_pay1 x0 x1 := by
  unfold out1_2
  rw [View.canon_unit_zero (S := S1024x2048) off_zero2 inb_S1024x2048_S1024x2048_0_0,
    View.ld_unit_zero (S := S1024x1024) off_zero2 inb_S1024x1024_S1024x1024_0_0,
    View.ld_unit_zero (S := S2048x1024) off_zero2 inb_S2048x1024_S2048x1024_0_0]

/-- The one store of the body is of the whole output block, so it covers it. -/
theorem cover1_2 (p0 : Vec F S1024x2048 .bf16) (y : S1024x2048.Idx) :
    ∃ pc ∈ ([⟨r1_out, p0⟩] : List (View.Piece (Elt F) S1024x2048 .bf16)), y ∈ pc.1.set :=
  ⟨_, List.mem_singleton_self _, View.mem_set_unit_zero (S := S1024x2048) off_zero2 inb_S1024x2048_S1024x2048_0_0 y⟩

/-- Input window 0's current staging buffer holds its block of 1024 rows at every point (it is fetched at every point),
    for any proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the whole weight at every point: it is fetched at the first point, its block
    is the same at every point, and the body leaves it in place, so it is still there at the later ones. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole staging memrefs — the two inputs' at contents `x0`, `x1`, the output's at anything — runs to the
    continuation holding the inputs' as they were and the output's at `out1_2 x0 x1`: two whole-block loads, a load of
    the output block whose value is dropped, and one whole-block store. -/
theorem sound_kernel1 (c : Dev nD) (E : Set ℕ) (i : grid1.Coords)
    (arg1 : Memref sig .tc .vmem S1024x1024 .f32) (harg1 : arg1.IsWhole)
    (arg2 : Memref sig .tc .vmem S2048x1024 .bf16) (harg2 : arg2.IsWhole)
    (arg3 : Memref sig .tc .vmem S1024x2048 .bf16) (harg3 : arg3.IsWhole)
    (x0 : Vec F S1024x1024 .f32) (x1 : Vec F S2048x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of launch 1 on core `c`: arrays as the launch finds them; after the body at point `t` each input's
    buffer at its block and the output's at `out1_2` of the two input blocks. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`: the invariant, what is owed, and the three windows' staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and what is
    owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for launch 1, at every point. -/
theorem body_obligation1 (c : Dev nD) : BodyObligation (dat1 (F := F) V c) (defs₀ (F := F)) Variants.none () Set.univ := fun t => by
  rw [bigSep_W1, bigSep_W1]
  exact sound_body1 V c t

/-! ## Launch 2: the value projection -/

abbrev r2_in0 : Rect S1024x1024 := Rect.unit (s := S1024x1024) ![0, 0] S1024x1024.size inb_S1024x1024_S1024x1024_0_0
abbrev r2_in1 : Rect S2048x1024 := Rect.unit (s := S2048x1024) ![0, 0] S2048x1024.size inb_S2048x1024_S2048x1024_0_0
abbrev r2_out : Rect S1024x2048 := Rect.unit (s := S1024x2048) ![0, 0] S1024x2048.size inb_S1024x2048_S1024x2048_0_0

/-- What the body leaves in the output window's staging buffer, from the two input blocks: its one whole-block store. -/
def out2_2 (x0 : Vec F S1024x1024 .f32) (x1 : Vec F S2048x1024 .bf16) : Vec F S1024x2048 .bf16 :=
  View.canon [⟨r2_out, k2_pay1 (View.ld x0 r2_in0) (View.ld x1 r2_in1)⟩]

/-- The one store is of the whole block, so the buffer holds the payload of the two blocks read whole. -/
theorem out2_2_eq (x0 : Vec F S1024x1024 .f32) (x1 : Vec F S2048x1024 .bf16) : out2_2 x0 x1 = k2_pay1 x0 x1 := by
  unfold out2_2
  rw [View.canon_unit_zero (S := S1024x2048) off_zero2 inb_S1024x2048_S1024x2048_0_0,
    View.ld_unit_zero (S := S1024x1024) off_zero2 inb_S1024x1024_S1024x1024_0_0,
    View.ld_unit_zero (S := S2048x1024) off_zero2 inb_S2048x1024_S2048x1024_0_0]

/-- The one store of the body is of the whole output block, so it covers it. -/
theorem cover2_2 (p0 : Vec F S1024x2048 .bf16) (y : S1024x2048.Idx) :
    ∃ pc ∈ ([⟨r2_out, p0⟩] : List (View.Piece (Elt F) S1024x2048 .bf16)), y ∈ pc.1.set :=
  ⟨_, List.mem_singleton_self _, View.mem_set_unit_zero (S := S1024x2048) off_zero2 inb_S1024x2048_S1024x2048_0_0 y⟩

/-- Input window 0's current staging buffer holds its block of 1024 rows at every point (it is fetched at every point),
    for any proof data whose array is `V`'s and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the whole weight at every point: it is fetched at the first point, its block
    is the same at every point, and the body leaves it in place, so it is still there at the later ones. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
/-- The body on whole staging memrefs — the two inputs' at contents `x0`, `x1`, the output's at anything — runs to the
    continuation holding the inputs' as they were and the output's at `out2_2 x0 x1`: two whole-block loads, a load of
    the output block whose value is dropped, and one whole-block store. -/
theorem sound_kernel2 (c : Dev nD) (E : Set ℕ) (i : grid2.Coords)
    (arg1 : Memref sig .tc .vmem S1024x1024 .f32) (harg1 : arg1.IsWhole)
    (arg2 : Memref sig .tc .vmem S2048x1024 .bf16) (harg2 : arg2.IsWhole)
    (arg3 : Memref sig .tc .vmem S1024x2048 .bf16) (harg3 : arg3.IsWhole)
    (x0 : Vec F S1024x1024 .f32) (x1 : Vec F S2048x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of launch 2 on core `c`: arrays as the launch finds them; after the body at point `t` each input's
    buffer at its block and the output's at `out2_2` of the two input blocks. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`: the invariant, what is owed, and the three windows' staging buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and what is
    owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for launch 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.FlashPre.lean ====
/-
  The word-level kernel's attention launch, preliminaries for its body: its three conditionals' conditions as the body computes them from the grid
  coordinates, with their closed forms (key tile = 0; key tile ≤ query block + 1; key tile = 3); the coordinates of a
  grid point from its position; and two facts about whole-buffer accesses (a load of the whole buffer reads its
  contents, a last store of the whole buffer leaves its payload).
-/
import proofs.«171499_j10831907521163_2_alg».proof.Proof.K.Base
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The first conditional's condition (key tile = 0), as the body computes it from the coordinates. -/
abbrev cond3_0 (i : grid3.Coords) : Prop := (Scalar.cmpi .ne (Scalar.extui (Scalar.cmpi .eq (BitVec.ofNat 32 (i 2).val) 0#32)) 0#32) = 1#1
/-- The second conditional's condition (key tile ≤ query block + 1: the tile meets the causal band). -/
abbrev cond3_1 (i : grid3.Coords) : Prop := (Scalar.cmpi .ne (Scalar.extui (Scalar.cmpi .sle (BitVec.ofNat 32 (i 2).val) (Scalar.addi (BitVec.ofNat 32 (i 1).val) 1#32))) 0#32) = 1#1
/-- The third conditional's condition (key tile = 3: the query block's last). -/
abbrev cond3_2 (i : grid3.Coords) : Prop := k3_cond3 i = 1#1

/-- Key tile = 0, in closed form: the key-tile coordinate ranges over four values. -/
theorem hcond3_0 (i : grid3.Coords) : cond3_0 i ↔ (i 2).val = 0 := by
  have h : ∀ b : Fin 4, (Scalar.cmpi .ne (Scalar.extui (Scalar.cmpi .eq (BitVec.ofNat 32 b.val) 0#32)) 0#32) = 1#1 ↔ b.val = 0 := by decide
  exact h (i 2)

/-- The band condition in closed form: both coordinates range over four values, so the 32-bit signed comparison is the
    comparison of naturals. -/
theorem hcond3_1 (i : grid3.Coords) : cond3_1 i ↔ (i 2).val ≤ (i 1).val + 1 := by
  have h : ∀ a b : Fin 4, (Scalar.cmpi .ne (Scalar.extui (Scalar.cmpi .sle (BitVec.ofNat 32 b.val) (Scalar.addi (BitVec.ofNat 32 a.val) 1#32))) 0#32) = 1#1 ↔ b.val ≤ a.val + 1 := by decide
  exact h (i 1) (i 2)

/-- Key tile = 3, in closed form. -/
theorem hcond3_2 (i : grid3.Coords) : cond3_2 i ↔ (i 2).val = 3 := by
  have h : ∀ b : Fin 4, (Scalar.cmpi .ne (Scalar.extui (Scalar.cmpi .eq (BitVec.ofNat 32 b.val) 3#32)) 0#32) = 1#1 ↔ b.val = 3 := by decide
  exact h (i 2)

/-- The key tile of the point at position `t` (the grid is 8 × 4 × 4, the last axis fastest). -/
theorem coords3_2 : ∀ t : Fin cfg3.N, (grid3.coords t 2).val = t.val % 4 :=
  (by decide +kernel : ∀ t : Fin grid3.N, (grid3.coords t 2).val = t.val % 4)
/-- The query block of the point at position `t`. -/
theorem coords3_1 : ∀ t : Fin cfg3.N, (grid3.coords t 1).val = t.val / 4 % 4 :=
  (by decide +kernel : ∀ t : Fin grid3.N, (grid3.coords t 1).val = t.val / 4 % 4)

/-- The zero offsets of a rank-2 and of a rank-3 rectangle, as functions. -/
theorem zeros2 : (![0, 0] : Fin 2 → Nat) = fun _ => 0 := by funext a; fin_cases a <;> rfl
theorem zeros3 : (![0, 0, 0] : Fin 3 → Nat) = fun _ => 0 := by funext a; fin_cases a <;> rfl

/-- After a last store of the whole buffer (the unit rectangle at offset zero of the full size) the buffer reads as that
    store's payload, whatever was stored before. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load of the whole buffer reads its contents. -/
theorem readAt_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  subst h; funext x; show v.read Val f ((Rect.whole S).emb x) = v.read Val f x; rw [Rect.emb_whole_apply]

end Cert.Kernel.Hand

end
-- ==== Proof.K.FlashRunA.lean ====
/-
  The body of the word-level kernel's attention launch on the first key tile of a query block: the three scratch arrays are reset (whatever they
  held) and then updated once (key tile 0 always meets the causal band); the output block is untouched.
-/
import proofs.«171499_j10831907521163_2_alg».proof.Proof.K.FlashPre
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- Key tile = 0: from the three input blocks and the scratch at anything, the body leaves the inputs and the output
    buffer as found and the scratch at one update of the reset state. -/
theorem run3_A (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (hc0 : cond3_0 i) (hc1 : cond3_1 i) (hc2 : ¬cond3_2 i)
    (q k v : Vec F S1x512x2048 .bf16) (o : Vec F S1x512x2048 .f32) (s0 s1 : Vec F S512x1 .f32) (s2 : Vec F S512x2048 .f32)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s0 ∗ owns (c : Thread nD τ) arg8 fullShare s1 ∗ owns (c : Thread nD τ) arg9 fullShare s2
        ∗ (iprop(owns (c : Thread nD τ) arg3 fullShare q ∗ owns (c : Thread nD τ) arg4 fullShare k ∗ owns (c : Thread nD τ) arg5 fullShare v
            ∗ owns (c : Thread nD τ) arg6 fullShare o
            ∗ owns (c : Thread nD τ) arg7 fullShare (stReal (BitVec.ofNat 32 (i 1).val) (BitVec.ofNat 32 (i 2).val) q k v (stInit (F := F))).1
            ∗ owns (c : Thread nD τ) arg8 fullShare (stReal (BitVec.ofNat 32 (i 1).val) (BitVec.ofNat 32 (i 2).val) q k v (stInit (F := F))).2.1
            ∗ owns (c : Thread nD τ) arg9 fullShare (stReal (BitVec.ofNat 32 (i 1).val) (BitVec.ofNat 32 (i 2).val) q k v (stInit (F := F))).2.2) -∗ K ⟨⟩))
      ⊢ wp frame (wpE (defs₀ (F := F)) Variants.none c none) E (cc3__flash_kernel i arg3 harg3 arg4 harg4 arg5 harg5 arg6 harg6 arg7 harg7 arg8 harg8 arg9 harg9) K := by
  simp only [cc3__flash_kernel_eq_skeleton]; unfold cc3__flash_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  isplitl [H8]
  · iexists _; isplitr
    swap; · iexact H8
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  · iexists _; isplitr
    swap; · iexact H9
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl

end Cert.Kernel.Hand

end
-- ==== Proof.K.FlashRunU.lean ====
/-
  The body of the word-level kernel's attention launch on a key tile after the first that meets the causal band and is not the last: one
  online-softmax update of the three scratch arrays, the output block untouched.
-/
import proofs.«171499_j10831907521163_2_alg».proof.Proof.K.FlashPre
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- Key tile ≠ 0, in the band, ≠ 3: from the three input blocks and the scratch at `(s0, s1, s2)`, the body leaves the inputs
    and the output buffer as found and the scratch at one update's result. -/
theorem run3_U (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (hc0 : ¬cond3_0 i) (hc1 : cond3_1 i) (hc2 : ¬cond3_2 i)
    (q k v : Vec F S1x512x2048 .bf16) (o : Vec F S1x512x2048 .f32) (s0 s1 : Vec F S512x1 .f32) (s2 : Vec F S512x2048 .f32)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s0 ∗ owns (c : Thread nD τ) arg8 fullShare s1 ∗ owns (c : Thread nD τ) arg9 fullShare s2
        ∗ (iprop(owns (c : Thread nD τ) arg3 fullShare q ∗ owns (c : Thread nD τ) arg4 fullShare k ∗ owns (c : Thread nD τ) arg5 fullShare v
            ∗ owns (c : Thread nD τ) arg6 fullShare o
            ∗ owns (c : Thread nD τ) arg7 fullShare (stReal (BitVec.ofNat 32 (i 1).val) (BitVec.ofNat 32 (i 2).val) q k v (s0, s1, s2)).1
            ∗ owns (c : Thread nD τ) arg8 fullShare (stReal (BitVec.ofNat 32 (i 1).val) (BitVec.ofNat 32 (i 2).val) q k v (s0, s1, s2)).2.1
            ∗ owns (c : Thread nD τ) arg9 fullShare (stReal (BitVec.ofNat 32 (i 1).val) (BitVec.ofNat 32 (i 2).val) q k v (s0, s1, s2)).2.2) -∗ K ⟨⟩))
      ⊢ wp frame (wpE (defs₀ (F := F)) Variants.none c none) E (cc3__flash_kernel i arg3 harg3 arg4 harg4 arg5 harg5 arg6 harg6 arg7 harg7 arg8 harg8 arg9 harg9) K := by
  simp only [cc3__flash_kernel_eq_skeleton]; unfold cc3__flash_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  isplitl [H8]
  · iexists _; isplitr
    swap; · iexact H8
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  · iexists _; isplitr
    swap; · iexact H9
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl

end Cert.Kernel.Hand

end
-- ==== Proof.K.FlashRunW.lean ====
/-
  The body of the word-level kernel's attention launch on the last key tile of a query block when that tile meets the causal band: one
  online-softmax update of the scratch, then the quotient (weighted sum over denominator) written to the output block.
-/
import proofs.«171499_j10831907521163_2_alg».proof.Proof.K.FlashPre
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- Key tile = 3, in the band: the body leaves the inputs as found, the scratch at one update's result and the output
    buffer at the quotient of the updated scratch. -/
theorem run3_W (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (hc0 : ¬cond3_0 i) (hc1 : cond3_1 i) (hc2 : cond3_2 i)
    (q k v : Vec F S1x512x2048 .bf16) (o : Vec F S1x512x2048 .f32) (s0 s1 : Vec F S512x1 .f32) (s2 : Vec F S512x2048 .f32)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s0 ∗ owns (c : Thread nD τ) arg8 fullShare s1 ∗ owns (c : Thread nD τ) arg9 fullShare s2
        ∗ (iprop(owns (c : Thread nD τ) arg3 fullShare q ∗ owns (c : Thread nD τ) arg4 fullShare k ∗ owns (c : Thread nD τ) arg5 fullShare v
            ∗ owns (c : Thread nD τ) arg6 fullShare (stOut (stReal (BitVec.ofNat 32 (i 1).val) (BitVec.ofNat 32 (i 2).val) q k v (s0, s1, s2)))
            ∗ owns (c : Thread nD τ) arg7 fullShare (stReal (BitVec.ofNat 32 (i 1).val) (BitVec.ofNat 32 (i 2).val) q k v (s0, s1, s2)).1
            ∗ owns (c : Thread nD τ) arg8 fullShare (stReal (BitVec.ofNat 32 (i 1).val) (BitVec.ofNat 32 (i 2).val) q k v (s0, s1, s2)).2.1
            ∗ owns (c : Thread nD τ) arg9 fullShare (stReal (BitVec.ofNat 32 (i 1).val) (BitVec.ofNat 32 (i 2).val) q k v (s0, s1, s2)).2.2) -∗ K ⟨⟩))
      ⊢ wp frame (wpE (defs₀ (F := F)) Variants.none c none) E (cc3__flash_kernel i arg3 harg3 arg4 harg4 arg5 harg5 arg6 harg6 arg7 harg7 arg8 harg8 arg9 harg9) K := by
  simp only [cc3__flash_kernel_eq_skeleton]; unfold cc3__flash_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit_zero _ _ zeros3 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  isplitl [H7]
  · iexists _; isplitr
    swap; · iexact H7
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  isplitl [H8]
  · iexists _; isplitr
    swap; · iexact H8
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  · iexists _; isplitr
    swap; · iexact H9
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl

end Cert.Kernel.Hand

end
-- ==== Proof.K.FlashRunN.lean ====
/-
  The body of the word-level kernel's attention launch on a key tile above the causal band that is not the last: nothing is loaded or stored.
-/
import proofs.«171499_j10831907521163_2_alg».proof.Proof.K.FlashPre
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- Key tile ≠ 0, above the band, ≠ 3: the body leaves every buffer as found. -/
theorem run3_N (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (hc0 : ¬cond3_0 i) (hc1 : ¬cond3_1 i) (hc2 : ¬cond3_2 i)
    (q k v : Vec F S1x512x2048 .bf16) (o : Vec F S1x512x2048 .f32) (s0 s1 : Vec F S512x1 .f32) (s2 : Vec F S512x2048 .f32)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s0 ∗ owns (c : Thread nD τ) arg8 fullShare s1 ∗ owns (c : Thread nD τ) arg9 fullShare s2
        ∗ (iprop(owns (c : Thread nD τ) arg3 fullShare q ∗ owns (c : Thread nD τ) arg4 fullShare k ∗ owns (c : Thread nD τ) arg5 fullShare v
            ∗ owns (c : Thread nD τ) arg6 fullShare o
            ∗ owns (c : Thread nD τ) arg7 fullShare s0
            ∗ owns (c : Thread nD τ) arg8 fullShare s1
            ∗ owns (c : Thread nD τ) arg9 fullShare s2) -∗ K ⟨⟩))
      ⊢ wp frame (wpE (defs₀ (F := F)) Variants.none c none) E (cc3__flash_kernel i arg3 harg3 arg4 harg4 arg5 harg5 arg6 harg6 arg7 harg7 arg8 harg8 arg9 harg9) K := by
  simp only [cc3__flash_kernel_eq_skeleton]; unfold cc3__flash_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  · iexists _; isplitr; · ipureintro; exact harg9.read_unread _
    iexact H9

end Cert.Kernel.Hand

end
-- ==== Proof.K.FlashRunX.lean ====
/-
  The body of the word-level kernel's attention launch on the last key tile of a query block when that tile lies above the causal band: the scratch
  is left alone and its quotient (weighted sum over denominator) is written to the output block.
-/
import proofs.«171499_j10831907521163_2_alg».proof.Proof.K.FlashPre
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 1000000 in
/-- Key tile = 3, above the band: the body leaves the inputs and the scratch as found and the output buffer at the
    quotient of the scratch. -/
theorem run3_X (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (hc0 : ¬cond3_0 i) (hc1 : ¬cond3_1 i) (hc2 : cond3_2 i)
    (q k v : Vec F S1x512x2048 .bf16) (o : Vec F S1x512x2048 .f32) (s0 s1 : Vec F S512x1 .f32) (s2 : Vec F S512x2048 .f32)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s0 ∗ owns (c : Thread nD τ) arg8 fullShare s1 ∗ owns (c : Thread nD τ) arg9 fullShare s2
        ∗ (iprop(owns (c : Thread nD τ) arg3 fullShare q ∗ owns (c : Thread nD τ) arg4 fullShare k ∗ owns (c : Thread nD τ) arg5 fullShare v
            ∗ owns (c : Thread nD τ) arg6 fullShare (stOut (s0, s1, s2))
            ∗ owns (c : Thread nD τ) arg7 fullShare s0
            ∗ owns (c : Thread nD τ) arg8 fullShare s1
            ∗ owns (c : Thread nD τ) arg9 fullShare s2) -∗ K ⟨⟩))
      ⊢ wp frame (wpE (defs₀ (F := F)) Variants.none c none) E (cc3__flash_kernel i arg3 harg3 arg4 harg4 arg5 harg5 arg6 harg6 arg7 harg7 arg8 harg8 arg9 harg9) K := by
  simp only [cc3__flash_kernel_eq_skeleton]; unfold cc3__flash_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit_zero _ _ zeros3 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  isplitl [H7]
  · iexists _; isplitr; · ipureintro; exact harg7.read_unread _
    iexact H7
  isplitl [H8]
  · iexists _; isplitr; · ipureintro; exact harg8.read_unread _
    iexact H8
  · iexists _; isplitr; · ipureintro; exact harg9.read_unread _
    iexact H9

end Cert.Kernel.Hand

end
-- ==== Proof.K.Flash.lean ====
/-
  The word-level kernel's attention launch at a parameter `V`: the proof data (after the body at point `t` the three input windows hold
  their blocks and the output window, at a query block's last key tile, the quotient `stOut` of the scratch after
  that point), the invariant between points (before the first point any scratch contents; afterwards the three scratch
  arrays at `stAt`), and the body's obligation at every point.

  The body is run once per control path (five: the first key tile; a later tile in the causal band, the last or not; a
  tile above the band, the last or not) and the five runs are joined into one statement over any coordinates
  (`sound_kernel3`): the scratch goes from `s` to `stStep i q k v s` and the output buffer to the quotient of that on
  the last key tile, and stays as found elsewhere.
-/
import proofs.«171499_j10831907521163_2_alg».proof.Proof.K.FlashRunA
import proofs.«171499_j10831907521163_2_alg».proof.Proof.K.FlashRunU
import proofs.«171499_j10831907521163_2_alg».proof.Proof.K.FlashRunW
import proofs.«171499_j10831907521163_2_alg».proof.Proof.K.FlashRunN
import proofs.«171499_j10831907521163_2_alg».proof.Proof.K.FlashRunX
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The three scratch operands, whole. -/
abbrev scM3_0 : Memref sig .tc .vmem S512x1 .f32 := Memref.whole cc3_scratch0
abbrev scM3_1 : Memref sig .tc .vmem S512x1 .f32 := Memref.whole cc3_scratch1
abbrev scM3_2 : Memref sig .tc .vmem S512x2048 .f32 := Memref.whole cc3_scratch2

/-! ## The body on any whole memrefs, at any coordinates -/

/-- On the first key tile the scratch a point starts from does not matter: it is reset. -/
theorem stStep_eq_of_reset (i : grid3.Coords) (q k v : Vec F S1x512x2048 .bf16) (s s' : St F) (h : (i 2).val = 0) :
    stStep i q k v s = stStep i q k v s' := by
  unfold stStep; simp only [if_pos h]

/-- The body's triple at any coordinates, on whole memrefs: from the three input blocks `q k v`, the output buffer at `o`
    and the scratch at `s`, it leaves the inputs as found, the scratch at `stStep i q k v s`, and the output buffer at the
    quotient of that scratch on the last key tile and as found on every other. By cases on the three conditions. -/
theorem sound_kernel3 (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (q k v : Vec F S1x512x2048 .bf16) (o : Vec F S1x512x2048 .f32) (s : St F) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v
            ∗ owns (c : Thread nD τ) arg6 fullShare (if (i 2).val = 3 then stOut (stStep i q k v s) else o)
            ∗ owns (c : Thread nD τ) arg7 fullShare (stStep i q k v s).1
            ∗ owns (c : Thread nD τ) arg8 fullShare (stStep i q k v s).2.1
            ∗ owns (c : Thread nD τ) arg9 fullShare (stStep i q k v s).2.2) -∗ K ⟨⟩))
      ⊢ wp frame (wpE (defs₀ (F := F)) Variants.none c none) E (cc3__flash_kernel i arg3 harg3 arg4 harg4 arg5 harg5 arg6 harg6 arg7 harg7 arg8 harg8 arg9 harg9) K := by
  obtain ⟨s0, s1, s2⟩ := s
  by_cases h0 : (i 2).val = 0
  · have h1 : (i 2).val ≤ (i 1).val + 1 := by omega
    have h2 : ¬(i 2).val = 3 := by omega
    have e : stStep i q k v (s0, s1, s2) = stReal (BitVec.ofNat 32 (i 1).val) (BitVec.ofNat 32 (i 2).val) q k v (stInit (F := F)) := by
      unfold stStep; simp only [if_pos h0, if_pos h1]
    rw [e, if_neg h2]
    exact run3_A c E i arg3 harg3 arg4 harg4 arg5 harg5 arg6 harg6 arg7 harg7 arg8 harg8 arg9 harg9
      ((hcond3_0 i).mpr h0) ((hcond3_1 i).mpr h1) (fun h => h2 ((hcond3_2 i).mp h)) q k v o s0 s1 s2 K
  · by_cases h1 : (i 2).val ≤ (i 1).val + 1
    · have e : stStep i q k v (s0, s1, s2) = stReal (BitVec.ofNat 32 (i 1).val) (BitVec.ofNat 32 (i 2).val) q k v (s0, s1, s2) := by
        unfold stStep; simp only [if_neg h0, if_pos h1]
      by_cases h2 : (i 2).val = 3
      · rw [e, if_pos h2]
        exact run3_W c E i arg3 harg3 arg4 harg4 arg5 harg5 arg6 harg6 arg7 harg7 arg8 harg8 arg9 harg9
          (fun h => h0 ((hcond3_0 i).mp h)) ((hcond3_1 i).mpr h1) ((hcond3_2 i).mpr h2) q k v o s0 s1 s2 K
      · rw [e, if_neg h2]
        exact run3_U c E i arg3 harg3 arg4 harg4 arg5 harg5 arg6 harg6 arg7 harg7 arg8 harg8 arg9 harg9
          (fun h => h0 ((hcond3_0 i).mp h)) ((hcond3_1 i).mpr h1) (fun h => h2 ((hcond3_2 i).mp h)) q k v o s0 s1 s2 K
    · have e : stStep i q k v (s0, s1, s2) = (s0, s1, s2) := by
        unfold stStep; simp only [if_neg h0, if_neg h1]
      by_cases h2 : (i 2).val = 3
      · rw [e, if_pos h2]
        exact run3_X c E i arg3 harg3 arg4 harg4 arg5 harg5 arg6 harg6 arg7 harg7 arg8 harg8 arg9 harg9
          (fun h => h0 ((hcond3_0 i).mp h)) (fun h => h1 ((hcond3_1 i).mp h)) ((hcond3_2 i).mpr h2) q k v o s0 s1 s2 K
      · rw [e, if_neg h2]
        exact run3_N c E i arg3 harg3 arg4 harg4 arg5 harg5 arg6 harg6 arg7 harg7 arg8 harg8 arg9 harg9
          (fun h => h0 ((hcond3_0 i).mp h)) (fun h => h1 ((hcond3_1 i).mp h)) (fun h => h2 ((hcond3_2 i).mp h)) q k v o s0 s1 s2 K

/-! ## The invariant between points -/

/-- The scoped buffers of the core that this launch never touches (the three projection launches' staging buffers), each at
    anything, and the generator register at some state. -/
def Rest3 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

/-- The launch's own with the three scratch arrays at the triple `s`: every other scoped buffer that is no staging buffer of
    this launch at anything, the generator register at some state. -/
def Carried3 (c : Dev nD) (s : St F) : sProp 𝕄 :=
  iprop(Rest3 (F := F) c ∗ owns (c : Thread nD τ) scM3_0 fullShare s.1 ∗ owns (c : Thread nD τ) scM3_1 fullShare s.2.1 ∗ owns (c : Thread nD τ) scM3_2 fullShare s.2.2)

/-- The class's invariant, conjunct by conjunct, the scratch operands as memrefs owned at some contents. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ d, owns (c : Thread nD τ) scM3_0 fullShare d) ∗ (∃ d, owns (c : Thread nD τ) scM3_1 fullShare d) ∗ (∃ d, owns (c : Thread nD τ) scM3_2 fullShare d)) ∗ (∃ r, prngReg c r)) := by
  unfold Pipeline.ΦA; rw [scopedRest3_eq]; simp only [scM3_0, scM3_1, scM3_2, owns_whole]; try rfl

/-- The class's invariant holds the scratch at some triple; -/
theorem PhiA3_open (c : Dev nD) :
    (Pipeline.ΦA spec3 c : sProp 𝕄) ⊢ iprop(∃ d0 d1 d2, Carried3 (F := F) c (d0, d1, d2)) := by
  rw [PhiA3_eq]; unfold Carried3 Rest3
  iintro ⟨⟨R0, R1, R2, R3, R4, R5, R6, R7, R8, R9, R10, R11, R12, R13, R14, ⟨%d0, S0⟩, ⟨%d1, S1⟩, ⟨%d2, S2⟩⟩, Hg⟩
  iexists d0; iexists d1; iexists d2
  isplitl [R0 R1 R2 R3 R4 R5 R6 R7 R8 R9 R10 R11 R12 R13 R14 Hg]
  · isplitl [R0 R1 R2 R3 R4 R5 R6 R7 R8 R9 R10 R11 R12 R13 R14]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexact R14
    iexact Hg
  isplitl [S0]; · iexact S0
  isplitl [S1]; · iexact S1
  iexact S2

/-- and with the scratch at any triple it holds: the triple is forgotten. -/
theorem PhiA3_close (c : Dev nD) (s : St F) :
    Carried3 c s ⊢ (Pipeline.ΦA spec3 c : sProp 𝕄) := by
  rw [PhiA3_eq]; unfold Carried3 Rest3
  iintro ⟨⟨⟨R0, R1, R2, R3, R4, R5, R6, R7, R8, R9, R10, R11, R12, R13, R14⟩, Hg⟩, S0, S1, S2⟩
  isplitl [R0 R1 R2 R3 R4 R5 R6 R7 R8 R9 R10 R11 R12 R13 R14 S0 S1 S2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [S0]; · iexists _; iexact S0
    isplitl [S1]; · iexists _; iexact S1
    iexists _; iexact S2
  iexact Hg

/-- The invariant before position `n`: before the first point the launch's own (every scoped buffer that is no staging
    buffer of this launch at anything, the generator register at some state); afterwards the same with the three scratch
    arrays at what the points so far left in them (`stAt`). -/
def Phi3 (c : Dev nD) : (n : ℕ) → n ≤ cfg3.N → sProp 𝕄
  | 0, _ => Pipeline.ΦA spec3 c
  | n + 1, hn => Carried3 c (stAt V c (n + 1) hn)

theorem Phi3_zero (c : Dev nD) (n : ℕ) (h : n ≤ cfg3.N) (hz : n = 0) : Phi3 V c n h = Pipeline.ΦA spec3 c := by
  subst hz; rfl

theorem Phi3_pos (c : Dev nD) (n : ℕ) (h : n ≤ cfg3.N) (hz : n ≠ 0) : Phi3 V c n h = Carried3 c (stAt V c n h) := by
  cases n with
  | zero => exact absurd rfl hz
  | succ n => rfl

/-- The proof data of the attention launch on core `c`. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => stOut (stAt V c (t.val + 1) t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = stOut (stAt V c (t.val + 1) t.isLt) := by dsimp only [dat3]

/-- The scratch after point `t` is one step from the scratch before it. -/
theorem stAt_point (c : Dev nD) (t : Fin cfg3.N) :
    stAt V c (t.val + 1) t.isLt
      = stStep (grid3.coords t) (iblk3 V c 0 t) (iblk3 V c 1 t) (iblk3 V c 2 t) (stAt V c t.val (Nat.le_of_lt t.isLt)) :=
  stAt_succ V c t.val t.isLt

/-- The invariant at a point's start, restated at the point's position. -/
theorem Phi3_castSucc (c : Dev nD) (t : Fin cfg3.N) :
    (dat3 V c).Φ t.castSucc = Phi3 V c t.val (Nat.le_of_lt t.isLt) := by
  dsimp only [dat3]; simp only [Fin.coe_castSucc]

/-- What the invariant hands the body at point `t`: the scratch at a triple from which the point's step leads to `stAt`
    after the point — what the point before left, or (at the first point, a first key tile) anything. -/
theorem Phi3_open (c : Dev nD) (t : Fin cfg3.N) :
    (dat3 V c).Φ t.castSucc ⊢ iprop(∃ s : St F,
      ⌜stStep (grid3.coords t) (iblk3 V c 0 t) (iblk3 V c 1 t) (iblk3 V c 2 t) s = stAt V c (t.val + 1) t.isLt⌝ ∗ Carried3 c s) := by
  rw [Phi3_castSucc]
  by_cases hz : t.val = 0
  · rw [Phi3_zero V c _ _ hz]
    iintro H
    ihave H' := (PhiA3_open (F := F) c) $$ H
    icases H' with ⟨%d0, %d1, %d2, HC⟩
    iexists (d0, d1, d2); isplitr
    · ipureintro
      rw [stAt_point]
      exact stStep_eq_of_reset _ _ _ _ _ _ (by rw [coords3_2, hz])
    iexact HC
  · rw [Phi3_pos V c _ _ hz]
    iintro H; iexists _; isplitr
    · ipureintro; exact (stAt_point V c t).symm
    iexact H

/-! ## What the body finds in the windows' buffers, and what it must leave -/

/-- Each input's current staging buffer holds its block at every point, fetched there or not (an input not fetched at a
    point has the block index of the point before). -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

/-- The inputs are never idle: the body leaves each at its block. -/
theorem leaves3_0 (c : Dev nD) (t : Fin cfg3.N) : (dat3 V c).leavesExact 0 t = owns (c : Thread nD τ) (st3_0 t) fullShare (iblk3 V c 0 t) := by
  unfold Dat.leavesExact; rw [show cfg3.idle 0 (grid3.coords t) = false from rfl, after3_0]
theorem leaves3_1 (c : Dev nD) (t : Fin cfg3.N) : (dat3 V c).leavesExact 1 t = owns (c : Thread nD τ) (st3_1 t) fullShare (iblk3 V c 1 t) := by
  unfold Dat.leavesExact; rw [show cfg3.idle 1 (grid3.coords t) = false from rfl, after3_1]
theorem leaves3_2 (c : Dev nD) (t : Fin cfg3.N) : (dat3 V c).leavesExact 2 t = owns (c : Thread nD τ) (st3_2 t) fullShare (iblk3 V c 2 t) := by
  unfold Dat.leavesExact; rw [show cfg3.idle 2 (grid3.coords t) = false from rfl, after3_2]

/-- The output window is live exactly on the last key tile, -/
theorem live3_3 (i : grid3.Coords) (h : cond3_2 i) : cfg3.idle 3 i = false := by
  show (!(k3_cond3 i == 1#1)) = false
  rw [show k3_cond3 i = 1#1 from h]; rfl
theorem idle3_3 (i : grid3.Coords) (h : ¬cond3_2 i) : cfg3.idle 3 i = true := by
  show (!(k3_cond3 i == 1#1)) = true
  rw [show (k3_cond3 i == 1#1) = false from beq_eq_false_iff_ne.mpr h]; rfl
/-- and is not written back on any other. -/
theorem noflush3_3 (t : Fin cfg3.N) (h : ¬cond3_2 (grid3.coords t)) : (cfg3.win 3).flush t = false :=
  Bool.eq_false_iff.mpr fun hf => h ((hcond3_2 _).mpr (by rw [coords3_2]; exact (flush3_3 t).mp hf))

theorem leaves3_3_live (c : Dev nD) (t : Fin cfg3.N) (h : cond3_2 (grid3.coords t)) :
    (dat3 V c).leavesExact 3 t = owns (c : Thread nD τ) (st3_3 t) fullShare (stOut (stAt V c (t.val + 1) t.isLt)) := by
  unfold Dat.leavesExact; rw [live3_3 _ h, after3_3]

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 1600000 in
/-- The body at any point: the inputs' buffers hold their blocks; the invariant hands over the scratch at a triple from
    which this point's step leads to `stAt` after the point; the body's triple applies; on the last key tile the output
    buffer is left at the quotient of the new scratch, on every other it is handed back as found; the core owes nothing
    throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Carried3 c (stAt V c (t.val + 1) t.isLt) from rfl]
  rw [leaves3_0, leaves3_1, leaves3_2]
  by_cases h2 : (grid3.coords t 2).val = 3
  · rw [leaves3_3_live V c t ((hcond3_2 _).mpr h2)]
    iintro ⟨HΦ, Ho, ⟨%d0, H0⟩, ⟨%d1, H1⟩, ⟨%d2, H2⟩, ⟨%d3, H3⟩⟩
    ihave HC := (Phi3_open V c t) $$ HΦ
    icases HC with ⟨%s, %hs, HC⟩
    unfold Carried3
    icases HC with ⟨HR, S0, S1, S2⟩
    iapply (sound_kernel3 c Set.univ (grid3.coords t) _ _ _ _ _ _ _ _ _ _ _ _ _ _ (iblk3 V c 0 t) (iblk3 V c 1 t) (iblk3 V c 2 t) _ s _)
    isplitl [H0]; · iexact H0
    isplitl [H1]; · iexact H1
    isplitl [H2]; · iexact H2
    isplitl [H3]; · iexact H3
    isplitl [S0]; · iexact S0
    isplitl [S1]; · iexact S1
    isplitl [S2]; · iexact S2
    rw [if_pos h2, hs]
    iintro ⟨H0, H1, H2, H3, S0, S1, S2⟩
    isplitl [HR S0 S1 S2]
    · isplitl [HR]; · iexact HR
      isplitl [S0]; · iexact S0
      isplitl [S1]; · iexact S1
      iexact S2
    isplitl [Ho]; · iexact Ho
    isplitl [H0]; · iexact H0
    isplitl [H1]; · iexact H1
    isplitl [H2]; · iexact H2
    iexact H3
  · have hc2 : ¬cond3_2 (grid3.coords t) := fun h => h2 ((hcond3_2 _).mp h)
    rw [Dat.leavesExact_idle (dat3 V c) 3 t (idle3_3 _ hc2) (noflush3_3 t hc2)]
    iintro ⟨HΦ, Ho, ⟨%d0, H0⟩, ⟨%d1, H1⟩, ⟨%d2, H2⟩, ⟨%d3, H3⟩⟩
    ihave HC := (Phi3_open V c t) $$ HΦ
    icases HC with ⟨%s, %hs, HC⟩
    unfold Carried3
    icases HC with ⟨HR, S0, S1, S2⟩
    iapply (sound_kernel3 c Set.univ (grid3.coords t) _ _ _ _ _ _ _ _ _ _ _ _ _ _ (iblk3 V c 0 t) (iblk3 V c 1 t) (iblk3 V c 2 t) _ s _)
    isplitl [H0]; · iexact H0
    isplitl [H1]; · iexact H1
    isplitl [H2]; · iexact H2
    isplitl [H3]; · iexact H3
    isplitl [S0]; · iexact S0
    isplitl [S1]; · iexact S1
    isplitl [S2]; · iexact S2
    rw [if_neg h2, hs]
    iintro ⟨H0, H1, H2, H3, S0, S1, S2⟩
    isplitl [HR S0 S1 S2]
    · isplitl [HR]; · iexact HR
      isplitl [S0]; · iexact S0
      isplitl [S1]; · iexact S1
      iexact S2
    isplitl [Ho]; · iexact Ho
    isplitl [H0]; · iexact H0
    isplitl [H1]; · iexact H1
    isplitl [H2]; · iexact H2
    iexists _; iexact H3

/-- The library's body obligation for the attention launch, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point the invariant gives the launch's own back: the scratch's named contents are forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 128 := N_3; omega)]
  exact PhiA3_close c _

end Cert.Kernel.Hand

end
-- ==== Proof.K.Fold.lean ====
/-
  The word-level program (floats are bit patterns, every operation the machine's rounding one): the buffer contents at
  every boundary of its @main, as a fold from the launch memory: a host stretch applies its operations
  (`StableHlo.after`), a launch leaves its windows' arrays at what its write-backs fold to and every other
  buffer alone.  Then what the fold holds where it is read: every argument array ends as launched, and each launch's
  input arrays are the converts and reshapes of the arguments and of the earlier launches' outputs.
-/
import proofs.«171499_j10831907521163_2_alg».proof.Proof.K.Proj
import proofs.«171499_j10831907521163_2_alg».proof.Proof.K.Flash
import proofs.«171499_j10831907521163_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After the host stretch `hostOps0`: what launch 0 is entered from. -/
abbrev W1 : Dev nD → Valuation τ sig (Elt F) := fun c => StableHlo.after hostOps0 (W0 m ρ c)
/-- The same read at the TensorCore's references (what launch 0's proof data take). -/
abbrev V1 : (c : Dev nD) → (b : Ref sig .tc) → Buf (Elt F) ((c : Thread nD τ).loc b) := fun c b => W1 m ρ c b
/-- A reference the stretch `hostOps0` does not write keeps its contents. -/
theorem W1_of_ne (c : Dev nD) (r : Ref sig .tc) (h : r ∉ hostOps0_W) :
    W1 m ρ c (Proc.devRef .tc r) = W0 m ρ c (Proc.devRef .tc r) :=
  StableHlo.after_of_writes_sub hostOps0 _ hostOps0_writes h

/-- At launch 0's exit: its windows' arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (launch 0's exit contents). -/
abbrev V2 : (c : Dev nD) → (b : Ref sig .tc) → Buf (Elt F) ((c : Thread nD τ).loc b) := fun c b => W2 m ρ c b
/-- At launch 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what launch 1 is entered from. -/
abbrev W3 : Dev nD → Valuation τ sig (Elt F) := fun c => StableHlo.after hostOps1 (W2 m ρ c)
/-- The same read at the TensorCore's references (what launch 1's proof data take). -/
abbrev V3 : (c : Dev nD) → (b : Ref sig .tc) → Buf (Elt F) ((c : Thread nD τ).loc b) := fun c b => W3 m ρ c b
/-- A reference the stretch `hostOps1` does not write keeps its contents. -/
theorem W3_of_ne (c : Dev nD) (r : Ref sig .tc) (h : r ∉ hostOps1_W) :
    W3 m ρ c (Proc.devRef .tc r) = W2 m ρ c (Proc.devRef .tc r) :=
  StableHlo.after_of_writes_sub hostOps1 _ hostOps1_writes h

/-- At launch 1's exit: its windows' arrays at what the pipeline leaves (the inputs as entered, the output's
    write-backs folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (launch 1's exit contents). -/
abbrev V4 : (c : Dev nD) → (b : Ref sig .tc) → Buf (Elt F) ((c : Thread nD τ).loc b) := fun c b => W4 m ρ c b
/-- At launch 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what launch 2 is entered from. -/
abbrev W5 : Dev nD → Valuation τ sig (Elt F) := fun c => StableHlo.after hostOps2 (W4 m ρ c)
/-- The same read at the TensorCore's references (what launch 2's proof data take). -/
abbrev V5 : (c : Dev nD) → (b : Ref sig .tc) → Buf (Elt F) ((c : Thread nD τ).loc b) := fun c b => W5 m ρ c b
/-- A reference the stretch `hostOps2` does not write keeps its contents. -/
theorem W5_of_ne (c : Dev nD) (r : Ref sig .tc) (h : r ∉ hostOps2_W) :
    W5 m ρ c (Proc.devRef .tc r) = W4 m ρ c (Proc.devRef .tc r) :=
  StableHlo.after_of_writes_sub hostOps2 _ hostOps2_writes h

/-- At launch 2's exit: its windows' arrays at what the pipeline leaves (the inputs as entered, the output's
    write-backs folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (launch 2's exit contents). -/
abbrev V6 : (c : Dev nD) → (b : Ref sig .tc) → Buf (Elt F) ((c : Thread nD τ).loc b) := fun c b => W6 m ρ c b
/-- At launch 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what launch 3 is entered from. -/
abbrev W7 : Dev nD → Valuation τ sig (Elt F) := fun c => StableHlo.after hostOps3 (W6 m ρ c)
/-- The same read at the TensorCore's references (what launch 3's proof data take). -/
abbrev V7 : (c : Dev nD) → (b : Ref sig .tc) → Buf (Elt F) ((c : Thread nD τ).loc b) := fun c b => W7 m ρ c b
/-- A reference the stretch `hostOps3` does not write keeps its contents. -/
theorem W7_of_ne (c : Dev nD) (r : Ref sig .tc) (h : r ∉ hostOps3_W) :
    W7 m ρ c (Proc.devRef .tc r) = W6 m ρ c (Proc.devRef .tc r) :=
  StableHlo.after_of_writes_sub hostOps3 _ hostOps3_writes h

/-- At launch 3's exit: its windows' arrays at what the pipeline leaves (the inputs as entered, the output's
    write-backs folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (launch 3's exit contents). -/
abbrev V8 : (c : Dev nD) → (b : Ref sig .tc) → Buf (Elt F) ((c : Thread nD τ).loc b) := fun c b => W8 m ρ c b
/-- At launch 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched

No host stretch writes an argument and no launch has one among its windows' arrays, so the fold at an argument's buffer
walks back to the launch memory. -/

theorem W8_main_arg0 (c : Dev nD) : W8 m ρ c (Proc.devRef .tc main_arg0) = m ((c : Thread nD τ).loc main_arg0) :=
  (W8_of_ne m ρ c main_arg0 (by decide)).trans <| (W7_of_ne m ρ c main_arg0 (by decide)).trans <| (W6_of_ne m ρ c main_arg0 (by decide)).trans <| (W5_of_ne m ρ c main_arg0 (by decide)).trans <| (W4_of_ne m ρ c main_arg0 (by decide)).trans <| (W3_of_ne m ρ c main_arg0 (by decide)).trans <| (W2_of_ne m ρ c main_arg0 (by decide)).trans <| (W1_of_ne m ρ c main_arg0 (by decide)).trans rfl
theorem W8_main_arg1 (c : Dev nD) : W8 m ρ c (Proc.devRef .tc main_arg1) = m ((c : Thread nD τ).loc main_arg1) :=
  (W8_of_ne m ρ c main_arg1 (by decide)).trans <| (W7_of_ne m ρ c main_arg1 (by decide)).trans <| (W6_of_ne m ρ c main_arg1 (by decide)).trans <| (W5_of_ne m ρ c main_arg1 (by decide)).trans <| (W4_of_ne m ρ c main_arg1 (by decide)).trans <| (W3_of_ne m ρ c main_arg1 (by decide)).trans <| (W2_of_ne m ρ c main_arg1 (by decide)).trans <| (W1_of_ne m ρ c main_arg1 (by decide)).trans rfl
theorem W8_main_arg2 (c : Dev nD) : W8 m ρ c (Proc.devRef .tc main_arg2) = m ((c : Thread nD τ).loc main_arg2) :=
  (W8_of_ne m ρ c main_arg2 (by decide)).trans <| (W7_of_ne m ρ c main_arg2 (by decide)).trans <| (W6_of_ne m ρ c main_arg2 (by decide)).trans <| (W5_of_ne m ρ c main_arg2 (by decide)).trans <| (W4_of_ne m ρ c main_arg2 (by decide)).trans <| (W3_of_ne m ρ c main_arg2 (by decide)).trans <| (W2_of_ne m ρ c main_arg2 (by decide)).trans <| (W1_of_ne m ρ c main_arg2 (by decide)).trans rfl
theorem W8_main_arg3 (c : Dev nD) : W8 m ρ c (Proc.devRef .tc main_arg3) = m ((c : Thread nD τ).loc main_arg3) :=
  (W8_of_ne m ρ c main_arg3 (by decide)).trans <| (W7_of_ne m ρ c main_arg3 (by decide)).trans <| (W6_of_ne m ρ c main_arg3 (by decide)).trans <| (W5_of_ne m ρ c main_arg3 (by decide)).trans <| (W4_of_ne m ρ c main_arg3 (by decide)).trans <| (W3_of_ne m ρ c main_arg3 (by decide)).trans <| (W2_of_ne m ρ c main_arg3 (by decide)).trans <| (W1_of_ne m ρ c main_arg3 (by decide)).trans rfl
theorem W8_main_arg4 (c : Dev nD) : W8 m ρ c (Proc.devRef .tc main_arg4) = m ((c : Thread nD τ).loc main_arg4) :=
  (W8_of_ne m ρ c main_arg4 (by decide)).trans <| (W7_of_ne m ρ c main_arg4 (by decide)).trans <| (W6_of_ne m ρ c main_arg4 (by decide)).trans <| (W5_of_ne m ρ c main_arg4 (by decide)).trans <| (W4_of_ne m ρ c main_arg4 (by decide)).trans <| (W3_of_ne m ρ c main_arg4 (by decide)).trans <| (W2_of_ne m ρ c main_arg4 (by decide)).trans <| (W1_of_ne m ρ c main_arg4 (by decide)).trans rfl
theorem W8_main_arg5 (c : Dev nD) : W8 m ρ c (Proc.devRef .tc main_arg5) = m ((c : Thread nD τ).loc main_arg5) :=
  (W8_of_ne m ρ c main_arg5 (by decide)).trans <| (W7_of_ne m ρ c main_arg5 (by decide)).trans <| (W6_of_ne m ρ c main_arg5 (by decide)).trans <| (W5_of_ne m ρ c main_arg5 (by decide)).trans <| (W4_of_ne m ρ c main_arg5 (by decide)).trans <| (W3_of_ne m ρ c main_arg5 (by decide)).trans <| (W2_of_ne m ρ c main_arg5 (by decide)).trans <| (W1_of_ne m ρ c main_arg5 (by decide)).trans rfl

/-! ## What each launch finds in its input arrays

A converted weight or a reshaped argument is written by the first host stretch (or the stretch just before its launch)
and by nothing afterwards; a reshaped projection is the reshape of what its launch left in its output array. -/

/-- The first host stretch's results, read where it wrote them. -/
theorem W1_main_v0 (c : Dev nD) : W1 m ρ c (Proc.devRef .tc main_v0) = truncf .bf16 (m ((c : Thread nD τ).loc main_arg3)) bitsLt_bf16_f32 := by
  show StableHlo.after hostOps0 _ (Proc.devRef .tc main_v0) = _; after_results <;> rfl
theorem W1_main_v1 (c : Dev nD) : W1 m ρ c (Proc.devRef .tc main_v1) = truncf .bf16 (m ((c : Thread nD τ).loc main_arg4)) bitsLt_bf16_f32 := by
  show StableHlo.after hostOps0 _ (Proc.devRef .tc main_v1) = _; after_results <;> rfl
theorem W1_main_v2 (c : Dev nD) : W1 m ρ c (Proc.devRef .tc main_v2) = truncf .bf16 (m ((c : Thread nD τ).loc main_arg5)) bitsLt_bf16_f32 := by
  show StableHlo.after hostOps0 _ (Proc.devRef .tc main_v2) = _; after_results <;> rfl
theorem W1_main_v3 (c : Dev nD) : W1 m ρ c (Proc.devRef .tc main_v3) = shapeCast S16384x1024 (m ((c : Thread nD τ).loc main_arg0)) shapeCasts_S8x2048x1024_S16384x1024 := by
  show StableHlo.after hostOps0 _ (Proc.devRef .tc main_v3) = _; after_results <;> rfl

/-- Launch 0 (the key projection) reads the reshaped first argument and the converted fourth. -/
theorem V1_main_v3 (c : Dev nD) : V1 m ρ c main_v3 = shapeCast S16384x1024 (m ((c : Thread nD τ).loc main_arg0)) shapeCasts_S8x2048x1024_S16384x1024 :=
  W1_main_v3 m ρ c
theorem V1_main_v0 (c : Dev nD) : V1 m ρ c main_v0 = truncf .bf16 (m ((c : Thread nD τ).loc main_arg3)) bitsLt_bf16_f32 :=
  W1_main_v0 m ρ c

/-- The second host stretch's results. -/
theorem W3_main_v5 (c : Dev nD) : W3 m ρ c (Proc.devRef .tc main_v5) = shapeCast S8x2048x2048 ((dat0 (V1 m ρ) c).arrAt 2 cfg0.N) shapeCasts_S16384x2048_S8x2048x2048 := by
  have e : W3 m ρ c (Proc.devRef .tc main_v5) = shapeCast S8x2048x2048 (W2 m ρ c (Proc.devRef .tc main_v4)) shapeCasts_S16384x2048_S8x2048x2048 := by
    show StableHlo.after hostOps1 _ (Proc.devRef .tc main_v5) = _; after_results <;> rfl
  rw [e]; exact congrArg (fun x => shapeCast S8x2048x2048 x shapeCasts_S16384x2048_S8x2048x2048) (W2_arr m ρ c 2)
theorem W3_main_v6 (c : Dev nD) : W3 m ρ c (Proc.devRef .tc main_v6) = shapeCast S16384x1024 (m ((c : Thread nD τ).loc main_arg1)) shapeCasts_S8x2048x1024_S16384x1024 := by
  have e : W3 m ρ c (Proc.devRef .tc main_v6) = shapeCast S16384x1024 (W2 m ρ c (Proc.devRef .tc main_arg1)) shapeCasts_S8x2048x1024_S16384x1024 := by
    show StableHlo.after hostOps1 _ (Proc.devRef .tc main_v6) = _; after_results <;> rfl
  rw [e]; exact congrArg (fun x => shapeCast S16384x1024 x shapeCasts_S8x2048x1024_S16384x1024) ((W2_of_ne m ρ c main_arg1 (by decide)).trans <| (W1_of_ne m ρ c main_arg1 (by decide)).trans <| rfl)

/-- Launch 1 (the query projection) reads the reshaped second argument and the converted fifth. -/
theorem V3_main_v6 (c : Dev nD) : V3 m ρ c main_v6 = shapeCast S16384x1024 (m ((c : Thread nD τ).loc main_arg1)) shapeCasts_S8x2048x1024_S16384x1024 :=
  W3_main_v6 m ρ c
theorem V3_main_v1 (c : Dev nD) : V3 m ρ c main_v1 = truncf .bf16 (m ((c : Thread nD τ).loc main_arg4)) bitsLt_bf16_f32 :=
  (W3_of_ne m ρ c main_v1 (by decide)).trans <| (W2_of_ne m ρ c main_v1 (by decide)).trans <| W1_main_v1 m ρ c

/-- The third host stretch's results. -/
theorem W5_main_v8 (c : Dev nD) : W5 m ρ c (Proc.devRef .tc main_v8) = shapeCast S8x2048x2048 ((dat1 (V3 m ρ) c).arrAt 2 cfg1.N) shapeCasts_S16384x2048_S8x2048x2048 := by
  have e : W5 m ρ c (Proc.devRef .tc main_v8) = shapeCast S8x2048x2048 (W4 m ρ c (Proc.devRef .tc main_v7)) shapeCasts_S16384x2048_S8x2048x2048 := by
    show StableHlo.after hostOps2 _ (Proc.devRef .tc main_v8) = _; after_results <;> rfl
  rw [e]; exact congrArg (fun x => shapeCast S8x2048x2048 x shapeCasts_S16384x2048_S8x2048x2048) (W4_arr m ρ c 2)
theorem W5_main_v9 (c : Dev nD) : W5 m ρ c (Proc.devRef .tc main_v9) = shapeCast S16384x1024 (m ((c : Thread nD τ).loc main_arg2)) shapeCasts_S8x2048x1024_S16384x1024 := by
  have e : W5 m ρ c (Proc.devRef .tc main_v9) = shapeCast S16384x1024 (W4 m ρ c (Proc.devRef .tc main_arg2)) shapeCasts_S8x2048x1024_S16384x1024 := by
    show StableHlo.after hostOps2 _ (Proc.devRef .tc main_v9) = _; after_results <;> rfl
  rw [e]; exact congrArg (fun x => shapeCast S16384x1024 x shapeCasts_S8x2048x1024_S16384x1024) ((W4_of_ne m ρ c main_arg2 (by decide)).trans <| (W3_of_ne m ρ c main_arg2 (by decide)).trans <| (W2_of_ne m ρ c main_arg2 (by decide)).trans <| (W1_of_ne m ρ c main_arg2 (by decide)).trans <| rfl)

/-- Launch 2 (the value projection) reads the reshaped third argument and the converted sixth. -/
theorem V5_main_v9 (c : Dev nD) : V5 m ρ c main_v9 = shapeCast S16384x1024 (m ((c : Thread nD τ).loc main_arg2)) shapeCasts_S8x2048x1024_S16384x1024 :=
  W5_main_v9 m ρ c
theorem V5_main_v2 (c : Dev nD) : V5 m ρ c main_v2 = truncf .bf16 (m ((c : Thread nD τ).loc main_arg5)) bitsLt_bf16_f32 :=
  (W5_of_ne m ρ c main_v2 (by decide)).trans <| (W4_of_ne m ρ c main_v2 (by decide)).trans <| (W3_of_ne m ρ c main_v2 (by decide)).trans <| (W2_of_ne m ρ c main_v2 (by decide)).trans <| W1_main_v2 m ρ c

/-- The attention launch reads the three projections, each reshaped to batches: the query from launch 1's output,
    the key from launch 0's, the value from launch 2's. -/
theorem V7_main_v8 (c : Dev nD) : V7 m ρ c main_v8 = shapeCast S8x2048x2048 ((dat1 (V3 m ρ) c).arrAt 2 cfg1.N) shapeCasts_S16384x2048_S8x2048x2048 :=
  (W7_of_ne m ρ c main_v8 (by decide)).trans <| (W6_of_ne m ρ c main_v8 (by decide)).trans <| W5_main_v8 m ρ c
theorem V7_main_v5 (c : Dev nD) : V7 m ρ c main_v5 = shapeCast S8x2048x2048 ((dat0 (V1 m ρ) c).arrAt 2 cfg0.N) shapeCasts_S16384x2048_S8x2048x2048 :=
  (W7_of_ne m ρ c main_v5 (by decide)).trans <| (W6_of_ne m ρ c main_v5 (by decide)).trans <| (W5_of_ne m ρ c main_v5 (by decide)).trans <| (W4_of_ne m ρ c main_v5 (by decide)).trans <| W3_main_v5 m ρ c
theorem V7_main_v11 (c : Dev nD) : V7 m ρ c main_v11 = shapeCast S8x2048x2048 ((dat2 (V5 m ρ) c).arrAt 2 cfg2.N) shapeCasts_S16384x2048_S8x2048x2048 := by
  have e : W7 m ρ c (Proc.devRef .tc main_v11) = shapeCast S8x2048x2048 (W6 m ρ c (Proc.devRef .tc main_v10)) shapeCasts_S16384x2048_S8x2048x2048 := by
    show StableHlo.after hostOps3 _ (Proc.devRef .tc main_v11) = _; after_results <;> rfl
  show W7 m ρ c (Proc.devRef .tc main_v11) = _
  rw [e]; exact congrArg (fun x => shapeCast S8x2048x2048 x shapeCasts_S16384x2048_S8x2048x2048) (W6_arr m ρ c 2)

end Cert.Kernel.Hand

end
-- ==== Proof.K.Run.lean ====
/-
  The word-level program's @main as a run of eight segments — a host stretch, then a launch, four times — over the
  thread state "every unscoped buffer at the boundary's contents, the generator register at some state, nothing owed",
  and what that run gives at the end: the attention launch's output array at what its write-backs fold to, and every
  argument array as launched.
-/
import proofs.«171499_j10831907521163_2_alg».proof.Proof.K.Fold
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- The prefetched tables' admissible contents: no launch has a table. -/
abbrev adm : (p : Fin 4) → (pcfgs (F := F) p).Adm := fun p => (cfgs p).toPCfg_adm
/-- Every launch's proof data, each at the contents its launch is entered from — a literal `match`, so that the pinned
    configuration at a numeral reduces to the printed one. -/
def pdats : (p : Fin 4) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a launch's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it is left with
    those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the generator
    register at some state. -/
abbrev Tₙ (c : Dev nD) : sProp 𝕄 := iprop(StableHlo.held (c : Thread nD τ) (Pipeline.ucRefs τ sig) (W8 m ρ c) ∗ ∃ r, prngReg c r)

/-! ## The launches as segments -/

-- a library lemma stated over the pinned configuration unifies with the printed one only when unification may unfold
-- plain definitions in a metavariable's type
set_option backward.isDefEq.respectTransparency.types false in
/-- Launch 0 over the thread state: entered from every unscoped buffer at `W1`, left at `W2`.  Its windows' arrays
    are split out of the unscoped buffers and put back at the exit contents; the generator register goes into the
    launch's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Launch 1 over the thread state: entered from every unscoped buffer at `W3`, left at `W4`.  Its windows' arrays
    are split out of the unscoped buffers and put back at the exit contents; the generator register goes into the
    launch's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Launch 2 over the thread state: entered from every unscoped buffer at `W5`, left at `W6`.  Its windows' arrays
    are split out of the unscoped buffers and put back at the exit contents; the generator register goes into the
    launch's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The attention launch over the thread state: entered from every unscoped buffer at `W7`, left at `W8` (what the end
    of @main reads).  As the projections, except that its invariant carries the scratch between points: before the first
    point it is the launch's own (`hin3`), after the last it gives the launch's own back (`hout3`). -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's eight segments in order: a host segment per stretch from its boundary's contents, a region per launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments: it is the chain of its items, and the segments' run is that chain. -/
theorem main_run (c : Dev nD) : main (F := F) c = Pipeline.Seg.run (segs m ρ) := (main_chain c).trans (by chain_rfl)

-- the run theorem's implicit arguments are found by unifying its conclusion with this one, which takes unfolding plain
-- definitions in a metavariable's type
set_option backward.isDefEq.respectTransparency.types false in
/-- From any memory with zero counters, every weakly fair execution of @main on the TensorCores terminates, nothing
    faulting, and in every final state the attention launch's output array holds what its write-backs fold to
    (`arrAt` of its output window after the last grid point, the launch entered from `V7`) and every argument array
    holds what it was launched with. -/
theorem run_named : θ_run defs (onTc (τ := τ) (main (F := F))) ⟨m, fun _ => 0, ρ⟩ (fun r => ∀ c : Dev nD,
      r.2.mem ((c.tc : Thread nD τ).loc main_v12) = (dat3 (V7 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v12 (by decide))).trans (W8_arr m ρ c 3),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_named m ρ)

end Cert.Kernel.Hand

end
-- ==== Proof.KI.Base.lean ====
/-
  Shared definitions for the idealized kernel's four launches, at a parameter `V` (what a launch finds in the
  TensorCore's buffers when it is entered).

  * `iblkK V c w t`: launch K's window `w` read at grid point `t` — the block of the window's array that the point works on.
  * The attention launch keeps three scratch arrays between grid points: the running row maximum, the running row
    denominator, and the running weighted sum of value rows.  `St` is that triple; `stStep` is one grid point's
    effect on it (reset at the first key tile of a query block, one online-softmax update on a tile that the
    causal band meets, nothing on a tile above the band); `stAt V c n` is the triple after the first `n` grid
    points; `stOut` is the quotient (weighted sum over denominator) written out at a query block's last key tile.
-/
import proofs.«171499_j10831907521163_2_alg».proof.Proof.Gen.KernelIdeal.Launch
import proofs.«171499_j10831907521163_2_alg».proof.Proof.Gen.KernelIdeal.Skeleton
import proofs.«171499_j10831907521163_2_alg».proof.Proof.Gen.KernelIdeal.Points
import Idealize.ShloMosaic.Lib.Pipeline.FrameBody

noncomputable section

namespace Cert.KernelIdeal.Hand

open Idealize.ShloMosaic Idealize.ShloMosaic.TcCoe
open Idealize.SL.Sem
open Cert.KernelIdeal Cert.KernelIdeal.Gen
open Idealize.ShloMosaic.Pipeline (Dat Cfg Window)

variable {F : FTy → Type} [FloatOps F] [Named F]

variable (V : (c : Dev nD) → (b : Ref sig .tc) → Buf (Elt F) ((c : Thread nD τ).loc b))

/-- Launch 0 (the key projection): window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- Launch 1 (the query projection, scaled): window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- Launch 2 (the value projection): window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
/-- Launch 3 (attention): window `w`'s block at point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The attention launch's carried scratch: (running row maximum, running row denominator, running weighted sum). -/
abbrev St (F : FTy → Type) : Type := Vec F S512x1 .f32 × Vec F S512x1 .f32 × Vec F S512x2048 .f32

/-- The scratch as the first key tile of a query block resets it: maximum −∞ (the named constant), denominator 0, sum 0. -/
def stInit : St F := (k3_pay1 (F := F), k3_pay2 (F := F), k3_pay3 (F := F))

/-- One online-softmax update: from the query block `q`, key tile `k`, value tile `v` (query-block number `a1`, key-tile
    number `a2`, which place the causal band) and the scratch `s`, the new maximum, denominator and weighted sum. -/
def stReal (a1 a2 : BitVec 32) (q k v : Vec F S1x512x2048 .bf16) (s : St F) : St F :=
  (k3_pay5 (k3_pay9 a1 a2 q k s.1),
   k3_pay12 a1 a2 q k s.1 s.2.1,
   k3_pay4 (k3_pay7 v) (k3_pay10 a1 a2 q k s.1) (k3_pay11 a1 a2 q k s.1) s.2.2)

/-- One grid point (batch `i 0`, query block `i 1`, key tile `i 2`): reset on key tile 0, update when the tile meets the
    band (key tile ≤ query block + 1), otherwise leave the scratch alone. -/
def stStep (i : grid3.Coords) (q k v : Vec F S1x512x2048 .bf16) (s : St F) : St F :=
  let s1 : St F := if (i 2).val = 0 then stInit else s
  if (i 2).val ≤ (i 1).val + 1 then
    stReal (BitVec.ofNat 32 (i 1).val) (BitVec.ofNat 32 (i 2).val) q k v s1
  else s1

/-- What the last key tile of a query block writes to the output block: weighted sum / denominator, row by row. -/
def stOut (s : St F) : Vec F S1x512x2048 .f32 := k3_pay6 s.2.2 s.2.1

/-- The scratch after the first `n` grid points of the attention launch (its value before the first point is never read:
    point 0 is a key tile 0 and resets it). -/
def stAt (c : Dev nD) : (n : ℕ) → n ≤ cfg3.N → St F
  | 0, _ => stInit
  | n + 1, h =>
    stStep (grid3.coords ⟨n, h⟩) (iblk3 V c 0 ⟨n, h⟩) (iblk3 V c 1 ⟨n, h⟩) (iblk3 V c 2 ⟨n, h⟩) (stAt c n (Nat.le_of_succ_le h))

theorem stAt_zero (c : Dev nD) (h : 0 ≤ cfg3.N) : stAt V c 0 h = stInit := rfl

theorem stAt_succ (c : Dev nD) (n : ℕ) (h : n + 1 ≤ cfg3.N) :
    stAt V c (n + 1) h =
      stStep (grid3.coords ⟨n, h⟩) (iblk3 V c 0 ⟨n, h⟩) (iblk3 V c 1 ⟨n, h⟩) (iblk3 V c 2 ⟨n, h⟩) (stAt V c n (Nat.le_of_succ_le h)) := rfl

end Cert.KernelIdeal.Hand

end
-- ==== Proof.KI.Proj.lean ====
/-
  The three projection launches (key, query with the 1/32 scale, value), each at a parameter `V`: what each grid point
  leaves in its output block — the product of the point's 1024 input rows with the transposed weight, rounded — the
  proof data of the launch, and the body's obligation at every point.
-/
import proofs.«171499_j10831907521163_2_alg».proof.Proof.KI.Base
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- The block offset of every access of the three bodies: both coordinates zero. -/
theorem off_zero2 : (![0, 0] : Fin 2 → ℕ) = fun _ => 0 := by
  funext a; match a with | ⟨0, _⟩ => rfl | ⟨1, _⟩ => rfl

/-! ## Launch 0: the key projection -/

abbrev r0_in0 : Rect S1024x1024 := Rect.unit (s := S1024x1024) ![0, 0] S1024x1024.size inb_S1024x1024_S1024x1024_0_0
abbrev r0_in1 : Rect S2048x1024 := Rect.unit (s := S2048x1024) ![0, 0] S2048x1024.size inb_S2048x1024_S2048x1024_0_0
abbrev r0_out : Rect S1024x2048 := Rect.unit (s := S1024x2048) ![0, 0] S1024x2048.size inb_S1024x2048_S1024x2048_0_0

/-- What the body leaves in the output window's staging buffer, from the two input blocks: its one whole-block store. -/
def out0_2 (x0 : Vec F S1024x1024 .f32) (x1 : Vec F S2048x1024 .bf16) : Vec F S1024x2048 .bf16 :=
  View.canon [⟨r0_out, k0_pay1 (View.ld x0 r0_in0) (View.ld x1 r0_in1)⟩]

/-- The one store is of the whole block, so the buffer holds the payload of the two blocks read whole. -/
theorem out0_2_eq (x0 : Vec F S1024x1024 .f32) (x1 : Vec F S2048x1024 .bf16) : out0_2 x0 x1 = k0_pay1 x0 x1 := by
  unfold out0_2
  rw [View.canon_unit_zero (S := S1024x2048) off_zero2 inb_S1024x2048_S1024x2048_0_0,
    View.ld_unit_zero (S := S1024x1024) off_zero2 inb_S1024x1024_S1024x1024_0_0,
    View.ld_unit_zero (S := S2048x1024) off_zero2 inb_S2048x1024_S2048x1024_0_0]

/-- The one store of the body is of the whole output block, so it covers it. -/
theorem cover0_2 (p0 : Vec F S1024x2048 .bf16) (y : S1024x2048.Idx) :
    ∃ pc ∈ ([⟨r0_out, p0⟩] : List (View.Piece (Elt F) S1024x2048 .bf16)), y ∈ pc.1.set :=
  ⟨_, List.mem_singleton_self _, View.mem_set_unit_zero (S := S1024x2048) off_zero2 inb_S1024x2048_S1024x2048_0_0 y⟩

/-- Input window 0's current staging buffer holds its block of 1024 rows at every point (it is fetched at every point),
    for any proof data whose array is `V`'s and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the whole weight at every point: it is fetched at the first point, its block
    is the same at every point, and the body leaves it in place, so it is still there at the later ones. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole staging memrefs — the two inputs' at contents `x0`, `x1`, the output's at anything — runs to the
    continuation holding the inputs' as they were and the output's at `out0_2 x0 x1`: two whole-block loads, a load of
    the output block whose value is dropped, and one whole-block store. -/
theorem sound_kernel0 (c : Dev nD) (E : Set ℕ) (i : grid0.Coords)
    (arg1 : Memref sig .tc .vmem S1024x1024 .f32) (harg1 : arg1.IsWhole)
    (arg2 : Memref sig .tc .vmem S2048x1024 .bf16) (harg2 : arg2.IsWhole)
    (arg3 : Memref sig .tc .vmem S1024x2048 .bf16) (harg3 : arg3.IsWhole)
    (x0 : Vec F S1024x1024 .f32) (x1 : Vec F S2048x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of launch 0 on core `c`: arrays as the launch finds them; after the body at point `t` each input's
    buffer at its block and the output's at `out0_2` of the two input blocks. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`: the invariant, what is owed, and the three windows' staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and what is
    owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for launch 0, at every point. -/
theorem body_obligation0 (c : Dev nD) : BodyObligation (dat0 (F := F) V c) (defs₀ (F := F)) Variants.none () Set.univ := fun t => by
  rw [bigSep_W0, bigSep_W0]
  exact sound_body0 V c t

/-! ## Launch 1: the query projection, scaled by 1/32 -/

abbrev r1_in0 : Rect S1024x1024 := Rect.unit (s := S1024x1024) ![0, 0] S1024x1024.size inb_S1024x1024_S1024x1024_0_0
abbrev r1_in1 : Rect S2048x1024 := Rect.unit (s := S2048x1024) ![0, 0] S2048x1024.size inb_S2048x1024_S2048x1024_0_0
abbrev r1_out : Rect S1024x2048 := Rect.unit (s := S1024x2048) ![0, 0] S1024x2048.size inb_S1024x2048_S1024x2048_0_0

/-- What the body leaves in the output window's staging buffer, from the two input blocks: its one whole-block store. -/
def out1_2 (x0 : Vec F S1024x1024 .f32) (x1 : Vec F S2048x1024 .bf16) : Vec F S1024x2048 .bf16 :=
  View.canon [⟨r1_out, k1_pay1 (View.ld x0 r1_in0) (View.ld x1 r1_in1)⟩]

/-- The one store is of the whole block, so the buffer holds the payload of the two blocks read whole. -/
theorem out1_2_eq (x0 : Vec F S1024x1024 .f32) (x1 : Vec F S2048x1024 .bf16) : out1_2 x0 x1 = k1_pay1 x0 x1 := by
  unfold out1_2
  rw [View.canon_unit_zero (S := S1024x2048) off_zero2 inb_S1024x2048_S1024x2048_0_0,
    View.ld_unit_zero (S := S1024x1024) off_zero2 inb_S1024x1024_S1024x1024_0_0,
    View.ld_unit_zero (S := S2048x1024) off_zero2 inb_S2048x1024_S2048x1024_0_0]

/-- The one store of the body is of the whole output block, so it covers it. -/
theorem cover1_2 (p0 : Vec F S1024x2048 .bf16) (y : S1024x2048.Idx) :
    ∃ pc ∈ ([⟨r1_out, p0⟩] : List (View.Piece (Elt F) S1024x2048 .bf16)), y ∈ pc.1.set :=
  ⟨_, List.mem_singleton_self _, View.mem_set_unit_zero (S := S1024x2048) off_zero2 inb_S1024x2048_S1024x2048_0_0 y⟩

/-- Input window 0's current staging buffer holds its block of 1024 rows at every point (it is fetched at every point),
    for any proof data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the whole weight at every point: it is fetched at the first point, its block
    is the same at every point, and the body leaves it in place, so it is still there at the later ones. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole staging memrefs — the two inputs' at contents `x0`, `x1`, the output's at anything — runs to the
    continuation holding the inputs' as they were and the output's at `out1_2 x0 x1`: two whole-block loads, a load of
    the output block whose value is dropped, and one whole-block store. -/
theorem sound_kernel1 (c : Dev nD) (E : Set ℕ) (i : grid1.Coords)
    (arg1 : Memref sig .tc .vmem S1024x1024 .f32) (harg1 : arg1.IsWhole)
    (arg2 : Memref sig .tc .vmem S2048x1024 .bf16) (harg2 : arg2.IsWhole)
    (arg3 : Memref sig .tc .vmem S1024x2048 .bf16) (harg3 : arg3.IsWhole)
    (x0 : Vec F S1024x1024 .f32) (x1 : Vec F S2048x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of launch 1 on core `c`: arrays as the launch finds them; after the body at point `t` each input's
    buffer at its block and the output's at `out1_2` of the two input blocks. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`: the invariant, what is owed, and the three windows' staging buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and what is
    owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for launch 1, at every point. -/
theorem body_obligation1 (c : Dev nD) : BodyObligation (dat1 (F := F) V c) (defs₀ (F := F)) Variants.none () Set.univ := fun t => by
  rw [bigSep_W1, bigSep_W1]
  exact sound_body1 V c t

/-! ## Launch 2: the value projection -/

abbrev r2_in0 : Rect S1024x1024 := Rect.unit (s := S1024x1024) ![0, 0] S1024x1024.size inb_S1024x1024_S1024x1024_0_0
abbrev r2_in1 : Rect S2048x1024 := Rect.unit (s := S2048x1024) ![0, 0] S2048x1024.size inb_S2048x1024_S2048x1024_0_0
abbrev r2_out : Rect S1024x2048 := Rect.unit (s := S1024x2048) ![0, 0] S1024x2048.size inb_S1024x2048_S1024x2048_0_0

/-- What the body leaves in the output window's staging buffer, from the two input blocks: its one whole-block store. -/
def out2_2 (x0 : Vec F S1024x1024 .f32) (x1 : Vec F S2048x1024 .bf16) : Vec F S1024x2048 .bf16 :=
  View.canon [⟨r2_out, k2_pay1 (View.ld x0 r2_in0) (View.ld x1 r2_in1)⟩]

/-- The one store is of the whole block, so the buffer holds the payload of the two blocks read whole. -/
theorem out2_2_eq (x0 : Vec F S1024x1024 .f32) (x1 : Vec F S2048x1024 .bf16) : out2_2 x0 x1 = k2_pay1 x0 x1 := by
  unfold out2_2
  rw [View.canon_unit_zero (S := S1024x2048) off_zero2 inb_S1024x2048_S1024x2048_0_0,
    View.ld_unit_zero (S := S1024x1024) off_zero2 inb_S1024x1024_S1024x1024_0_0,
    View.ld_unit_zero (S := S2048x1024) off_zero2 inb_S2048x1024_S2048x1024_0_0]

/-- The one store of the body is of the whole output block, so it covers it. -/
theorem cover2_2 (p0 : Vec F S1024x2048 .bf16) (y : S1024x2048.Idx) :
    ∃ pc ∈ ([⟨r2_out, p0⟩] : List (View.Piece (Elt F) S1024x2048 .bf16)), y ∈ pc.1.set :=
  ⟨_, List.mem_singleton_self _, View.mem_set_unit_zero (S := S1024x2048) off_zero2 inb_S1024x2048_S1024x2048_0_0 y⟩

/-- Input window 0's current staging buffer holds its block of 1024 rows at every point (it is fetched at every point),
    for any proof data whose array is `V`'s and whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the whole weight at every point: it is fetched at the first point, its block
    is the same at every point, and the body leaves it in place, so it is still there at the later ones. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
/-- The body on whole staging memrefs — the two inputs' at contents `x0`, `x1`, the output's at anything — runs to the
    continuation holding the inputs' as they were and the output's at `out2_2 x0 x1`: two whole-block loads, a load of
    the output block whose value is dropped, and one whole-block store. -/
theorem sound_kernel2 (c : Dev nD) (E : Set ℕ) (i : grid2.Coords)
    (arg1 : Memref sig .tc .vmem S1024x1024 .f32) (harg1 : arg1.IsWhole)
    (arg2 : Memref sig .tc .vmem S2048x1024 .bf16) (harg2 : arg2.IsWhole)
    (arg3 : Memref sig .tc .vmem S1024x2048 .bf16) (harg3 : arg3.IsWhole)
    (x0 : Vec F S1024x1024 .f32) (x1 : Vec F S2048x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of launch 2 on core `c`: arrays as the launch finds them; after the body at point `t` each input's
    buffer at its block and the output's at `out2_2` of the two input blocks. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`: the invariant, what is owed, and the three windows' staging buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and what is
    owed pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for launch 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.FlashPre.lean ====
/-
  The attention launch's body, preliminaries: its three conditionals' conditions as the body computes them from the grid
  coordinates, with their closed forms (key tile = 0; key tile ≤ query block + 1; key tile = 3); the coordinates of a
  grid point from its position; and two facts about whole-buffer accesses (a load of the whole buffer reads its
  contents, a last store of the whole buffer leaves its payload).
-/
import proofs.«171499_j10831907521163_2_alg».proof.Proof.KI.Base
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

/-- The first conditional's condition (key tile = 0), as the body computes it from the coordinates. -/
abbrev cond3_0 (i : grid3.Coords) : Prop := (Scalar.cmpi .ne (Scalar.extui (Scalar.cmpi .eq (BitVec.ofNat 32 (i 2).val) 0#32)) 0#32) = 1#1
/-- The second conditional's condition (key tile ≤ query block + 1: the tile meets the causal band). -/
abbrev cond3_1 (i : grid3.Coords) : Prop := (Scalar.cmpi .ne (Scalar.extui (Scalar.cmpi .sle (BitVec.ofNat 32 (i 2).val) (Scalar.addi (BitVec.ofNat 32 (i 1).val) 1#32))) 0#32) = 1#1
/-- The third conditional's condition (key tile = 3: the query block's last). -/
abbrev cond3_2 (i : grid3.Coords) : Prop := k3_cond3 i = 1#1

/-- Key tile = 0, in closed form: the key-tile coordinate ranges over four values. -/
theorem hcond3_0 (i : grid3.Coords) : cond3_0 i ↔ (i 2).val = 0 := by
  have h : ∀ b : Fin 4, (Scalar.cmpi .ne (Scalar.extui (Scalar.cmpi .eq (BitVec.ofNat 32 b.val) 0#32)) 0#32) = 1#1 ↔ b.val = 0 := by decide
  exact h (i 2)

/-- The band condition in closed form: both coordinates range over four values, so the 32-bit signed comparison is the
    comparison of naturals. -/
theorem hcond3_1 (i : grid3.Coords) : cond3_1 i ↔ (i 2).val ≤ (i 1).val + 1 := by
  have h : ∀ a b : Fin 4, (Scalar.cmpi .ne (Scalar.extui (Scalar.cmpi .sle (BitVec.ofNat 32 b.val) (Scalar.addi (BitVec.ofNat 32 a.val) 1#32))) 0#32) = 1#1 ↔ b.val ≤ a.val + 1 := by decide
  exact h (i 1) (i 2)

/-- Key tile = 3, in closed form. -/
theorem hcond3_2 (i : grid3.Coords) : cond3_2 i ↔ (i 2).val = 3 := by
  have h : ∀ b : Fin 4, (Scalar.cmpi .ne (Scalar.extui (Scalar.cmpi .eq (BitVec.ofNat 32 b.val) 3#32)) 0#32) = 1#1 ↔ b.val = 3 := by decide
  exact h (i 2)

/-- The key tile of the point at position `t` (the grid is 8 × 4 × 4, the last axis fastest). -/
theorem coords3_2 : ∀ t : Fin cfg3.N, (grid3.coords t 2).val = t.val % 4 :=
  (by decide +kernel : ∀ t : Fin grid3.N, (grid3.coords t 2).val = t.val % 4)
/-- The query block of the point at position `t`. -/
theorem coords3_1 : ∀ t : Fin cfg3.N, (grid3.coords t 1).val = t.val / 4 % 4 :=
  (by decide +kernel : ∀ t : Fin grid3.N, (grid3.coords t 1).val = t.val / 4 % 4)

/-- The zero offsets of a rank-2 and of a rank-3 rectangle, as functions. -/
theorem zeros2 : (![0, 0] : Fin 2 → Nat) = fun _ => 0 := by funext a; fin_cases a <;> rfl
theorem zeros3 : (![0, 0, 0] : Fin 3 → Nat) = fun _ => 0 := by funext a; fin_cases a <;> rfl

/-- After a last store of the whole buffer (the unit rectangle at offset zero of the full size) the buffer reads as that
    store's payload, whatever was stored before. -/
theorem read_writes_unit_zero {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load of the whole buffer reads its contents. -/
theorem readAt_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f := by
  subst h; funext x; show v.read Val f ((Rect.whole S).emb x) = v.read Val f x; rw [Rect.emb_whole_apply]

end Cert.KernelIdeal.Hand

end
-- ==== Proof.KI.FlashRunA.lean ====
/-
  The attention launch's body on the first key tile of a query block: the three scratch arrays are reset (whatever they
  held) and then updated once (key tile 0 always meets the causal band); the output block is untouched.
-/
import proofs.«171499_j10831907521163_2_alg».proof.Proof.KI.FlashPre
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 1000000 in
/-- Key tile = 0: from the three input blocks and the scratch at anything, the body leaves the inputs and the output
    buffer as found and the scratch at one update of the reset state. -/
theorem run3_A (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (hc0 : cond3_0 i) (hc1 : cond3_1 i) (hc2 : ¬cond3_2 i)
    (q k v : Vec F S1x512x2048 .bf16) (o : Vec F S1x512x2048 .f32) (s0 s1 : Vec F S512x1 .f32) (s2 : Vec F S512x2048 .f32)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s0 ∗ owns (c : Thread nD τ) arg8 fullShare s1 ∗ owns (c : Thread nD τ) arg9 fullShare s2
        ∗ (iprop(owns (c : Thread nD τ) arg3 fullShare q ∗ owns (c : Thread nD τ) arg4 fullShare k ∗ owns (c : Thread nD τ) arg5 fullShare v
            ∗ owns (c : Thread nD τ) arg6 fullShare o
            ∗ owns (c : Thread nD τ) arg7 fullShare (stReal (BitVec.ofNat 32 (i 1).val) (BitVec.ofNat 32 (i 2).val) q k v (stInit (F := F))).1
            ∗ owns (c : Thread nD τ) arg8 fullShare (stReal (BitVec.ofNat 32 (i 1).val) (BitVec.ofNat 32 (i 2).val) q k v (stInit (F := F))).2.1
            ∗ owns (c : Thread nD τ) arg9 fullShare (stReal (BitVec.ofNat 32 (i 1).val) (BitVec.ofNat 32 (i 2).val) q k v (stInit (F := F))).2.2) -∗ K ⟨⟩))
      ⊢ wp frame (wpE (defs₀ (F := F)) Variants.none c none) E (cc3__flash_kernel i arg3 harg3 arg4 harg4 arg5 harg5 arg6 harg6 arg7 harg7 arg8 harg8 arg9 harg9) K := by
  simp only [cc3__flash_kernel_eq_skeleton]; unfold cc3__flash_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  isplitl [H8]
  · iexists _; isplitr
    swap; · iexact H8
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  · iexists _; isplitr
    swap; · iexact H9
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl

end Cert.KernelIdeal.Hand

end
-- ==== Proof.KI.FlashRunU.lean ====
/-
  The attention launch's body on a key tile after the first that meets the causal band and is not the last: one
  online-softmax update of the three scratch arrays, the output block untouched.
-/
import proofs.«171499_j10831907521163_2_alg».proof.Proof.KI.FlashPre
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 1000000 in
/-- Key tile ≠ 0, in the band, ≠ 3: from the three input blocks and the scratch at `(s0, s1, s2)`, the body leaves the inputs
    and the output buffer as found and the scratch at one update's result. -/
theorem run3_U (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (hc0 : ¬cond3_0 i) (hc1 : cond3_1 i) (hc2 : ¬cond3_2 i)
    (q k v : Vec F S1x512x2048 .bf16) (o : Vec F S1x512x2048 .f32) (s0 s1 : Vec F S512x1 .f32) (s2 : Vec F S512x2048 .f32)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s0 ∗ owns (c : Thread nD τ) arg8 fullShare s1 ∗ owns (c : Thread nD τ) arg9 fullShare s2
        ∗ (iprop(owns (c : Thread nD τ) arg3 fullShare q ∗ owns (c : Thread nD τ) arg4 fullShare k ∗ owns (c : Thread nD τ) arg5 fullShare v
            ∗ owns (c : Thread nD τ) arg6 fullShare o
            ∗ owns (c : Thread nD τ) arg7 fullShare (stReal (BitVec.ofNat 32 (i 1).val) (BitVec.ofNat 32 (i 2).val) q k v (s0, s1, s2)).1
            ∗ owns (c : Thread nD τ) arg8 fullShare (stReal (BitVec.ofNat 32 (i 1).val) (BitVec.ofNat 32 (i 2).val) q k v (s0, s1, s2)).2.1
            ∗ owns (c : Thread nD τ) arg9 fullShare (stReal (BitVec.ofNat 32 (i 1).val) (BitVec.ofNat 32 (i 2).val) q k v (s0, s1, s2)).2.2) -∗ K ⟨⟩))
      ⊢ wp frame (wpE (defs₀ (F := F)) Variants.none c none) E (cc3__flash_kernel i arg3 harg3 arg4 harg4 arg5 harg5 arg6 harg6 arg7 harg7 arg8 harg8 arg9 harg9) K := by
  simp only [cc3__flash_kernel_eq_skeleton]; unfold cc3__flash_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  isplitl [H8]
  · iexists _; isplitr
    swap; · iexact H8
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  · iexists _; isplitr
    swap; · iexact H9
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl

end Cert.KernelIdeal.Hand

end
-- ==== Proof.KI.FlashRunW.lean ====
/-
  The attention launch's body on the last key tile of a query block when that tile meets the causal band: one
  online-softmax update of the scratch, then the quotient (weighted sum over denominator) written to the output block.
-/
import proofs.«171499_j10831907521163_2_alg».proof.Proof.KI.FlashPre
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 1000000 in
/-- Key tile = 3, in the band: the body leaves the inputs as found, the scratch at one update's result and the output
    buffer at the quotient of the updated scratch. -/
theorem run3_W (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (hc0 : ¬cond3_0 i) (hc1 : cond3_1 i) (hc2 : cond3_2 i)
    (q k v : Vec F S1x512x2048 .bf16) (o : Vec F S1x512x2048 .f32) (s0 s1 : Vec F S512x1 .f32) (s2 : Vec F S512x2048 .f32)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s0 ∗ owns (c : Thread nD τ) arg8 fullShare s1 ∗ owns (c : Thread nD τ) arg9 fullShare s2
        ∗ (iprop(owns (c : Thread nD τ) arg3 fullShare q ∗ owns (c : Thread nD τ) arg4 fullShare k ∗ owns (c : Thread nD τ) arg5 fullShare v
            ∗ owns (c : Thread nD τ) arg6 fullShare (stOut (stReal (BitVec.ofNat 32 (i 1).val) (BitVec.ofNat 32 (i 2).val) q k v (s0, s1, s2)))
            ∗ owns (c : Thread nD τ) arg7 fullShare (stReal (BitVec.ofNat 32 (i 1).val) (BitVec.ofNat 32 (i 2).val) q k v (s0, s1, s2)).1
            ∗ owns (c : Thread nD τ) arg8 fullShare (stReal (BitVec.ofNat 32 (i 1).val) (BitVec.ofNat 32 (i 2).val) q k v (s0, s1, s2)).2.1
            ∗ owns (c : Thread nD τ) arg9 fullShare (stReal (BitVec.ofNat 32 (i 1).val) (BitVec.ofNat 32 (i 2).val) q k v (s0, s1, s2)).2.2) -∗ K ⟨⟩))
      ⊢ wp frame (wpE (defs₀ (F := F)) Variants.none c none) E (cc3__flash_kernel i arg3 harg3 arg4 harg4 arg5 harg5 arg6 harg6 arg7 harg7 arg8 harg8 arg9 harg9) K := by
  simp only [cc3__flash_kernel_eq_skeleton]; unfold cc3__flash_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit_zero _ _ zeros3 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  isplitl [H7]
  · iexists _; isplitr
    swap; · iexact H7
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  isplitl [H8]
  · iexists _; isplitr
    swap; · iexact H8
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  · iexists _; isplitr
    swap; · iexact H9
    ipureintro
    refine (read_writes_unit_zero _ _ zeros2 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl

end Cert.KernelIdeal.Hand

end
-- ==== Proof.KI.FlashRunN.lean ====
/-
  The attention launch's body on a key tile above the causal band that is not the last: nothing is loaded or stored.
-/
import proofs.«171499_j10831907521163_2_alg».proof.Proof.KI.FlashPre
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 1000000 in
/-- Key tile ≠ 0, above the band, ≠ 3: the body leaves every buffer as found. -/
theorem run3_N (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (hc0 : ¬cond3_0 i) (hc1 : ¬cond3_1 i) (hc2 : ¬cond3_2 i)
    (q k v : Vec F S1x512x2048 .bf16) (o : Vec F S1x512x2048 .f32) (s0 s1 : Vec F S512x1 .f32) (s2 : Vec F S512x2048 .f32)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s0 ∗ owns (c : Thread nD τ) arg8 fullShare s1 ∗ owns (c : Thread nD τ) arg9 fullShare s2
        ∗ (iprop(owns (c : Thread nD τ) arg3 fullShare q ∗ owns (c : Thread nD τ) arg4 fullShare k ∗ owns (c : Thread nD τ) arg5 fullShare v
            ∗ owns (c : Thread nD τ) arg6 fullShare o
            ∗ owns (c : Thread nD τ) arg7 fullShare s0
            ∗ owns (c : Thread nD τ) arg8 fullShare s1
            ∗ owns (c : Thread nD τ) arg9 fullShare s2) -∗ K ⟨⟩))
      ⊢ wp frame (wpE (defs₀ (F := F)) Variants.none c none) E (cc3__flash_kernel i arg3 harg3 arg4 harg4 arg5 harg5 arg6 harg6 arg7 harg7 arg8 harg8 arg9 harg9) K := by
  simp only [cc3__flash_kernel_eq_skeleton]; unfold cc3__flash_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  · iexists _; isplitr; · ipureintro; exact harg9.read_unread _
    iexact H9

end Cert.KernelIdeal.Hand

end
-- ==== Proof.KI.FlashRunX.lean ====
/-
  The attention launch's body on the last key tile of a query block when that tile lies above the causal band: the scratch
  is left alone and its quotient (weighted sum over denominator) is written to the output block.
-/
import proofs.«171499_j10831907521163_2_alg».proof.Proof.KI.FlashPre
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

set_option maxHeartbeats 1000000 in
/-- Key tile = 3, above the band: the body leaves the inputs and the scratch as found and the output buffer at the
    quotient of the scratch. -/
theorem run3_X (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (hc0 : ¬cond3_0 i) (hc1 : ¬cond3_1 i) (hc2 : cond3_2 i)
    (q k v : Vec F S1x512x2048 .bf16) (o : Vec F S1x512x2048 .f32) (s0 s1 : Vec F S512x1 .f32) (s2 : Vec F S512x2048 .f32)
    (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s0 ∗ owns (c : Thread nD τ) arg8 fullShare s1 ∗ owns (c : Thread nD τ) arg9 fullShare s2
        ∗ (iprop(owns (c : Thread nD τ) arg3 fullShare q ∗ owns (c : Thread nD τ) arg4 fullShare k ∗ owns (c : Thread nD τ) arg5 fullShare v
            ∗ owns (c : Thread nD τ) arg6 fullShare (stOut (s0, s1, s2))
            ∗ owns (c : Thread nD τ) arg7 fullShare s0
            ∗ owns (c : Thread nD τ) arg8 fullShare s1
            ∗ owns (c : Thread nD τ) arg9 fullShare s2) -∗ K ⟨⟩))
      ⊢ wp frame (wpE (defs₀ (F := F)) Variants.none c none) E (cc3__flash_kernel i arg3 harg3 arg4 harg4 arg5 harg5 arg6 harg6 arg7 harg7 arg8 harg8 arg9 harg9) K := by
  simp only [cc3__flash_kernel_eq_skeleton]; unfold cc3__flash_kernel_skel
  simp only [k3_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9
  sl_exec (disch := first | exact hc0 | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_unit_zero _ _ zeros3 _ _ _).trans ?_
    try sl_unfold_run_names
    try simp only [readAt_unit_zero (S := S512x1) _ _ zeros2, readAt_unit_zero (S := S512x2048) _ _ zeros2, readAt_unit_zero (S := S1x512x2048) _ _ zeros3, read_writes_unit_zero (S := S512x1) _ _ zeros2, read_writes_unit_zero (S := S512x2048) _ _ zeros2, read_writes_unit_zero (S := S1x512x2048) _ _ zeros3, View.readCov_cons_toLoadRect, Memref.IsWhole.read_unread]
    rfl
  isplitl [H7]
  · iexists _; isplitr; · ipureintro; exact harg7.read_unread _
    iexact H7
  isplitl [H8]
  · iexists _; isplitr; · ipureintro; exact harg8.read_unread _
    iexact H8
  · iexists _; isplitr; · ipureintro; exact harg9.read_unread _
    iexact H9

end Cert.KernelIdeal.Hand

end
-- ==== Proof.KI.Flash.lean ====
/-
  The attention launch at a parameter `V`: the proof data (after the body at point `t` the three input windows hold
  their blocks and the output window, at a query block's last key tile, the quotient `stOut` of the scratch after
  that point), the invariant between points (before the first point any scratch contents; afterwards the three scratch
  arrays at `stAt`), and the body's obligation at every point.

  The body is run once per control path (five: the first key tile; a later tile in the causal band, the last or not; a
  tile above the band, the last or not) and the five runs are joined into one statement over any coordinates
  (`sound_kernel3`): the scratch goes from `s` to `stStep i q k v s` and the output buffer to the quotient of that on
  the last key tile, and stays as found elsewhere.
-/
import proofs.«171499_j10831907521163_2_alg».proof.Proof.KI.FlashRunA
import proofs.«171499_j10831907521163_2_alg».proof.Proof.KI.FlashRunU
import proofs.«171499_j10831907521163_2_alg».proof.Proof.KI.FlashRunW
import proofs.«171499_j10831907521163_2_alg».proof.Proof.KI.FlashRunN
import proofs.«171499_j10831907521163_2_alg».proof.Proof.KI.FlashRunX
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- The three scratch operands, whole. -/
abbrev scM3_0 : Memref sig .tc .vmem S512x1 .f32 := Memref.whole cc3_scratch0
abbrev scM3_1 : Memref sig .tc .vmem S512x1 .f32 := Memref.whole cc3_scratch1
abbrev scM3_2 : Memref sig .tc .vmem S512x2048 .f32 := Memref.whole cc3_scratch2

/-! ## The body on any whole memrefs, at any coordinates -/

/-- On the first key tile the scratch a point starts from does not matter: it is reset. -/
theorem stStep_eq_of_reset (i : grid3.Coords) (q k v : Vec F S1x512x2048 .bf16) (s s' : St F) (h : (i 2).val = 0) :
    stStep i q k v s = stStep i q k v s' := by
  unfold stStep; simp only [if_pos h]

/-- The body's triple at any coordinates, on whole memrefs: from the three input blocks `q k v`, the output buffer at `o`
    and the scratch at `s`, it leaves the inputs as found, the scratch at `stStep i q k v s`, and the output buffer at the
    quotient of that scratch on the last key tile and as found on every other. By cases on the three conditions. -/
theorem sound_kernel3 (c : Dev nD) (E : Set ℕ) (i : grid3.Coords) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x512x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x2048 .f32) (harg9 : arg9.IsWhole)
    (q k v : Vec F S1x512x2048 .bf16) (o : Vec F S1x512x2048 .f32) (s : St F) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare o
        ∗ owns (c : Thread nD τ) arg7 fullShare s.1 ∗ owns (c : Thread nD τ) arg8 fullShare s.2.1 ∗ owns (c : Thread nD τ) arg9 fullShare s.2.2
        ∗ (iprop(owns (c : Thread nD τ) arg3 fullShare q ∗ owns (c : Thread nD τ) arg4 fullShare k ∗ owns (c : Thread nD τ) arg5 fullShare v
            ∗ owns (c : Thread nD τ) arg6 fullShare (if (i 2).val = 3 then stOut (stStep i q k v s) else o)
            ∗ owns (c : Thread nD τ) arg7 fullShare (stStep i q k v s).1
            ∗ owns (c : Thread nD τ) arg8 fullShare (stStep i q k v s).2.1
            ∗ owns (c : Thread nD τ) arg9 fullShare (stStep i q k v s).2.2) -∗ K ⟨⟩))
      ⊢ wp frame (wpE (defs₀ (F := F)) Variants.none c none) E (cc3__flash_kernel i arg3 harg3 arg4 harg4 arg5 harg5 arg6 harg6 arg7 harg7 arg8 harg8 arg9 harg9) K := by
  obtain ⟨s0, s1, s2⟩ := s
  by_cases h0 : (i 2).val = 0
  · have h1 : (i 2).val ≤ (i 1).val + 1 := by omega
    have h2 : ¬(i 2).val = 3 := by omega
    have e : stStep i q k v (s0, s1, s2) = stReal (BitVec.ofNat 32 (i 1).val) (BitVec.ofNat 32 (i 2).val) q k v (stInit (F := F)) := by
      unfold stStep; simp only [if_pos h0, if_pos h1]
    rw [e, if_neg h2]
    exact run3_A c E i arg3 harg3 arg4 harg4 arg5 harg5 arg6 harg6 arg7 harg7 arg8 harg8 arg9 harg9
      ((hcond3_0 i).mpr h0) ((hcond3_1 i).mpr h1) (fun h => h2 ((hcond3_2 i).mp h)) q k v o s0 s1 s2 K
  · by_cases h1 : (i 2).val ≤ (i 1).val + 1
    · have e : stStep i q k v (s0, s1, s2) = stReal (BitVec.ofNat 32 (i 1).val) (BitVec.ofNat 32 (i 2).val) q k v (s0, s1, s2) := by
        unfold stStep; simp only [if_neg h0, if_pos h1]
      by_cases h2 : (i 2).val = 3
      · rw [e, if_pos h2]
        exact run3_W c E i arg3 harg3 arg4 harg4 arg5 harg5 arg6 harg6 arg7 harg7 arg8 harg8 arg9 harg9
          (fun h => h0 ((hcond3_0 i).mp h)) ((hcond3_1 i).mpr h1) ((hcond3_2 i).mpr h2) q k v o s0 s1 s2 K
      · rw [e, if_neg h2]
        exact run3_U c E i arg3 harg3 arg4 harg4 arg5 harg5 arg6 harg6 arg7 harg7 arg8 harg8 arg9 harg9
          (fun h => h0 ((hcond3_0 i).mp h)) ((hcond3_1 i).mpr h1) (fun h => h2 ((hcond3_2 i).mp h)) q k v o s0 s1 s2 K
    · have e : stStep i q k v (s0, s1, s2) = (s0, s1, s2) := by
        unfold stStep; simp only [if_neg h0, if_neg h1]
      by_cases h2 : (i 2).val = 3
      · rw [e, if_pos h2]
        exact run3_X c E i arg3 harg3 arg4 harg4 arg5 harg5 arg6 harg6 arg7 harg7 arg8 harg8 arg9 harg9
          (fun h => h0 ((hcond3_0 i).mp h)) (fun h => h1 ((hcond3_1 i).mp h)) ((hcond3_2 i).mpr h2) q k v o s0 s1 s2 K
      · rw [e, if_neg h2]
        exact run3_N c E i arg3 harg3 arg4 harg4 arg5 harg5 arg6 harg6 arg7 harg7 arg8 harg8 arg9 harg9
          (fun h => h0 ((hcond3_0 i).mp h)) (fun h => h1 ((hcond3_1 i).mp h)) (fun h => h2 ((hcond3_2 i).mp h)) q k v o s0 s1 s2 K

/-! ## The invariant between points -/

/-- The scoped buffers of the core that this launch never touches (the three projection launches' staging buffers), each at
    anything, and the generator register at some state. -/
def Rest3 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f)) ∗ (∃ r, prngReg c r))

/-- The launch's own with the three scratch arrays at the triple `s`: every other scoped buffer that is no staging buffer of
    this launch at anything, the generator register at some state. -/
def Carried3 (c : Dev nD) (s : St F) : sProp 𝕄 :=
  iprop(Rest3 (F := F) c ∗ owns (c : Thread nD τ) scM3_0 fullShare s.1 ∗ owns (c : Thread nD τ) scM3_1 fullShare s.2.1 ∗ owns (c : Thread nD τ) scM3_2 fullShare s.2.2)

/-- The class's invariant, conjunct by conjunct, the scratch operands as memrefs owned at some contents. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ d, owns (c : Thread nD τ) scM3_0 fullShare d) ∗ (∃ d, owns (c : Thread nD τ) scM3_1 fullShare d) ∗ (∃ d, owns (c : Thread nD τ) scM3_2 fullShare d)) ∗ (∃ r, prngReg c r)) := by
  unfold Pipeline.ΦA; rw [scopedRest3_eq]; simp only [scM3_0, scM3_1, scM3_2, owns_whole]; try rfl

/-- The class's invariant holds the scratch at some triple; -/
theorem PhiA3_open (c : Dev nD) :
    (Pipeline.ΦA spec3 c : sProp 𝕄) ⊢ iprop(∃ d0 d1 d2, Carried3 (F := F) c (d0, d1, d2)) := by
  rw [PhiA3_eq]; unfold Carried3 Rest3
  iintro ⟨⟨R0, R1, R2, R3, R4, R5, R6, R7, R8, R9, R10, R11, R12, R13, R14, ⟨%d0, S0⟩, ⟨%d1, S1⟩, ⟨%d2, S2⟩⟩, Hg⟩
  iexists d0; iexists d1; iexists d2
  isplitl [R0 R1 R2 R3 R4 R5 R6 R7 R8 R9 R10 R11 R12 R13 R14 Hg]
  · isplitl [R0 R1 R2 R3 R4 R5 R6 R7 R8 R9 R10 R11 R12 R13 R14]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      iexact R14
    iexact Hg
  isplitl [S0]; · iexact S0
  isplitl [S1]; · iexact S1
  iexact S2

/-- and with the scratch at any triple it holds: the triple is forgotten. -/
theorem PhiA3_close (c : Dev nD) (s : St F) :
    Carried3 c s ⊢ (Pipeline.ΦA spec3 c : sProp 𝕄) := by
  rw [PhiA3_eq]; unfold Carried3 Rest3
  iintro ⟨⟨⟨R0, R1, R2, R3, R4, R5, R6, R7, R8, R9, R10, R11, R12, R13, R14⟩, Hg⟩, S0, S1, S2⟩
  isplitl [R0 R1 R2 R3 R4 R5 R6 R7 R8 R9 R10 R11 R12 R13 R14 S0 S1 S2]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [S0]; · iexists _; iexact S0
    isplitl [S1]; · iexists _; iexact S1
    iexists _; iexact S2
  iexact Hg

/-- The invariant before position `n`: before the first point the launch's own (every scoped buffer that is no staging
    buffer of this launch at anything, the generator register at some state); afterwards the same with the three scratch
    arrays at what the points so far left in them (`stAt`). -/
def Phi3 (c : Dev nD) : (n : ℕ) → n ≤ cfg3.N → sProp 𝕄
  | 0, _ => Pipeline.ΦA spec3 c
  | n + 1, hn => Carried3 c (stAt V c (n + 1) hn)

theorem Phi3_zero (c : Dev nD) (n : ℕ) (h : n ≤ cfg3.N) (hz : n = 0) : Phi3 V c n h = Pipeline.ΦA spec3 c := by
  subst hz; rfl

theorem Phi3_pos (c : Dev nD) (n : ℕ) (h : n ≤ cfg3.N) (hz : n ≠ 0) : Phi3 V c n h = Carried3 c (stAt V c n h) := by
  cases n with
  | zero => exact absurd rfl hz
  | succ n => rfl

/-- The proof data of the attention launch on core `c`. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => stOut (stAt V c (t.val + 1) t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = stOut (stAt V c (t.val + 1) t.isLt) := by dsimp only [dat3]

/-- The scratch after point `t` is one step from the scratch before it. -/
theorem stAt_point (c : Dev nD) (t : Fin cfg3.N) :
    stAt V c (t.val + 1) t.isLt
      = stStep (grid3.coords t) (iblk3 V c 0 t) (iblk3 V c 1 t) (iblk3 V c 2 t) (stAt V c t.val (Nat.le_of_lt t.isLt)) :=
  stAt_succ V c t.val t.isLt

/-- The invariant at a point's start, restated at the point's position. -/
theorem Phi3_castSucc (c : Dev nD) (t : Fin cfg3.N) :
    (dat3 V c).Φ t.castSucc = Phi3 V c t.val (Nat.le_of_lt t.isLt) := by
  dsimp only [dat3]; simp only [Fin.coe_castSucc]

/-- What the invariant hands the body at point `t`: the scratch at a triple from which the point's step leads to `stAt`
    after the point — what the point before left, or (at the first point, a first key tile) anything. -/
theorem Phi3_open (c : Dev nD) (t : Fin cfg3.N) :
    (dat3 V c).Φ t.castSucc ⊢ iprop(∃ s : St F,
      ⌜stStep (grid3.coords t) (iblk3 V c 0 t) (iblk3 V c 1 t) (iblk3 V c 2 t) s = stAt V c (t.val + 1) t.isLt⌝ ∗ Carried3 c s) := by
  rw [Phi3_castSucc]
  by_cases hz : t.val = 0
  · rw [Phi3_zero V c _ _ hz]
    iintro H
    ihave H' := (PhiA3_open (F := F) c) $$ H
    icases H' with ⟨%d0, %d1, %d2, HC⟩
    iexists (d0, d1, d2); isplitr
    · ipureintro
      rw [stAt_point]
      exact stStep_eq_of_reset _ _ _ _ _ _ (by rw [coords3_2, hz])
    iexact HC
  · rw [Phi3_pos V c _ _ hz]
    iintro H; iexists _; isplitr
    · ipureintro; exact (stAt_point V c t).symm
    iexact H

/-! ## What the body finds in the windows' buffers, and what it must leave -/

/-- Each input's current staging buffer holds its block at every point, fetched there or not (an input not fetched at a
    point has the block index of the point before). -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

/-- The inputs are never idle: the body leaves each at its block. -/
theorem leaves3_0 (c : Dev nD) (t : Fin cfg3.N) : (dat3 V c).leavesExact 0 t = owns (c : Thread nD τ) (st3_0 t) fullShare (iblk3 V c 0 t) := by
  unfold Dat.leavesExact; rw [show cfg3.idle 0 (grid3.coords t) = false from rfl, after3_0]
theorem leaves3_1 (c : Dev nD) (t : Fin cfg3.N) : (dat3 V c).leavesExact 1 t = owns (c : Thread nD τ) (st3_1 t) fullShare (iblk3 V c 1 t) := by
  unfold Dat.leavesExact; rw [show cfg3.idle 1 (grid3.coords t) = false from rfl, after3_1]
theorem leaves3_2 (c : Dev nD) (t : Fin cfg3.N) : (dat3 V c).leavesExact 2 t = owns (c : Thread nD τ) (st3_2 t) fullShare (iblk3 V c 2 t) := by
  unfold Dat.leavesExact; rw [show cfg3.idle 2 (grid3.coords t) = false from rfl, after3_2]

/-- The output window is live exactly on the last key tile, -/
theorem live3_3 (i : grid3.Coords) (h : cond3_2 i) : cfg3.idle 3 i = false := by
  show (!(k3_cond3 i == 1#1)) = false
  rw [show k3_cond3 i = 1#1 from h]; rfl
theorem idle3_3 (i : grid3.Coords) (h : ¬cond3_2 i) : cfg3.idle 3 i = true := by
  show (!(k3_cond3 i == 1#1)) = true
  rw [show (k3_cond3 i == 1#1) = false from beq_eq_false_iff_ne.mpr h]; rfl
/-- and is not written back on any other. -/
theorem noflush3_3 (t : Fin cfg3.N) (h : ¬cond3_2 (grid3.coords t)) : (cfg3.win 3).flush t = false :=
  Bool.eq_false_iff.mpr fun hf => h ((hcond3_2 _).mpr (by rw [coords3_2]; exact (flush3_3 t).mp hf))

theorem leaves3_3_live (c : Dev nD) (t : Fin cfg3.N) (h : cond3_2 (grid3.coords t)) :
    (dat3 V c).leavesExact 3 t = owns (c : Thread nD τ) (st3_3 t) fullShare (stOut (stAt V c (t.val + 1) t.isLt)) := by
  unfold Dat.leavesExact; rw [live3_3 _ h, after3_3]

/-! ## The body obligation, at a generic point -/

/-- What the body is called with at point `t` (the obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 1600000 in
/-- The body at any point: the inputs' buffers hold their blocks; the invariant hands over the scratch at a triple from
    which this point's step leads to `stAt` after the point; the body's triple applies; on the last key tile the output
    buffer is left at the quotient of the new scratch, on every other it is handed back as found; the core owes nothing
    throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Carried3 c (stAt V c (t.val + 1) t.isLt) from rfl]
  rw [leaves3_0, leaves3_1, leaves3_2]
  by_cases h2 : (grid3.coords t 2).val = 3
  · rw [leaves3_3_live V c t ((hcond3_2 _).mpr h2)]
    iintro ⟨HΦ, Ho, ⟨%d0, H0⟩, ⟨%d1, H1⟩, ⟨%d2, H2⟩, ⟨%d3, H3⟩⟩
    ihave HC := (Phi3_open V c t) $$ HΦ
    icases HC with ⟨%s, %hs, HC⟩
    unfold Carried3
    icases HC with ⟨HR, S0, S1, S2⟩
    iapply (sound_kernel3 c Set.univ (grid3.coords t) _ _ _ _ _ _ _ _ _ _ _ _ _ _ (iblk3 V c 0 t) (iblk3 V c 1 t) (iblk3 V c 2 t) _ s _)
    isplitl [H0]; · iexact H0
    isplitl [H1]; · iexact H1
    isplitl [H2]; · iexact H2
    isplitl [H3]; · iexact H3
    isplitl [S0]; · iexact S0
    isplitl [S1]; · iexact S1
    isplitl [S2]; · iexact S2
    rw [if_pos h2, hs]
    iintro ⟨H0, H1, H2, H3, S0, S1, S2⟩
    isplitl [HR S0 S1 S2]
    · isplitl [HR]; · iexact HR
      isplitl [S0]; · iexact S0
      isplitl [S1]; · iexact S1
      iexact S2
    isplitl [Ho]; · iexact Ho
    isplitl [H0]; · iexact H0
    isplitl [H1]; · iexact H1
    isplitl [H2]; · iexact H2
    iexact H3
  · have hc2 : ¬cond3_2 (grid3.coords t) := fun h => h2 ((hcond3_2 _).mp h)
    rw [Dat.leavesExact_idle (dat3 V c) 3 t (idle3_3 _ hc2) (noflush3_3 t hc2)]
    iintro ⟨HΦ, Ho, ⟨%d0, H0⟩, ⟨%d1, H1⟩, ⟨%d2, H2⟩, ⟨%d3, H3⟩⟩
    ihave HC := (Phi3_open V c t) $$ HΦ
    icases HC with ⟨%s, %hs, HC⟩
    unfold Carried3
    icases HC with ⟨HR, S0, S1, S2⟩
    iapply (sound_kernel3 c Set.univ (grid3.coords t) _ _ _ _ _ _ _ _ _ _ _ _ _ _ (iblk3 V c 0 t) (iblk3 V c 1 t) (iblk3 V c 2 t) _ s _)
    isplitl [H0]; · iexact H0
    isplitl [H1]; · iexact H1
    isplitl [H2]; · iexact H2
    isplitl [H3]; · iexact H3
    isplitl [S0]; · iexact S0
    isplitl [S1]; · iexact S1
    isplitl [S2]; · iexact S2
    rw [if_neg h2, hs]
    iintro ⟨H0, H1, H2, H3, S0, S1, S2⟩
    isplitl [HR S0 S1 S2]
    · isplitl [HR]; · iexact HR
      isplitl [S0]; · iexact S0
      isplitl [S1]; · iexact S1
      iexact S2
    isplitl [Ho]; · iexact Ho
    isplitl [H0]; · iexact H0
    isplitl [H1]; · iexact H1
    isplitl [H2]; · iexact H2
    iexists _; iexact H3

/-- The library's body obligation for the attention launch, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point the invariant gives the launch's own back: the scratch's named contents are forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 128 := N_3; omega)]
  exact PhiA3_close c _

end Cert.KernelIdeal.Hand

end
-- ==== Proof.KI.Fold.lean ====
/-
  The buffer contents at every boundary of @main, as a fold from the launch memory: a host stretch applies its
  operations (`StableHlo.after`), a launch leaves its windows' arrays at what its write-backs fold to and every other
  buffer alone.  Then what the fold holds where it is read: every argument array ends as launched, and each launch's
  input arrays are the converts and reshapes of the arguments and of the earlier launches' outputs.
-/
import proofs.«171499_j10831907521163_2_alg».proof.Proof.KI.Proj
import proofs.«171499_j10831907521163_2_alg».proof.Proof.KI.Flash
import proofs.«171499_j10831907521163_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The fold -/

/-- Core `c`'s buffers at launch. -/
abbrev W0 : Dev nD → Valuation τ sig (Elt F) := fun c b => (s₀ m ρ).mem ((c : Dev nD), b)

/-- After the host stretch `hostOps0`: what launch 0 is entered from. -/
abbrev W1 : Dev nD → Valuation τ sig (Elt F) := fun c => StableHlo.after hostOps0 (W0 m ρ c)
/-- The same read at the TensorCore's references (what launch 0's proof data take). -/
abbrev V1 : (c : Dev nD) → (b : Ref sig .tc) → Buf (Elt F) ((c : Thread nD τ).loc b) := fun c b => W1 m ρ c b
/-- A reference the stretch `hostOps0` does not write keeps its contents. -/
theorem W1_of_ne (c : Dev nD) (r : Ref sig .tc) (h : r ∉ hostOps0_W) :
    W1 m ρ c (Proc.devRef .tc r) = W0 m ρ c (Proc.devRef .tc r) :=
  StableHlo.after_of_writes_sub hostOps0 _ hostOps0_writes h

/-- At launch 0's exit: its windows' arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (launch 0's exit contents). -/
abbrev V2 : (c : Dev nD) → (b : Ref sig .tc) → Buf (Elt F) ((c : Thread nD τ).loc b) := fun c b => W2 m ρ c b
/-- At launch 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what launch 1 is entered from. -/
abbrev W3 : Dev nD → Valuation τ sig (Elt F) := fun c => StableHlo.after hostOps1 (W2 m ρ c)
/-- The same read at the TensorCore's references (what launch 1's proof data take). -/
abbrev V3 : (c : Dev nD) → (b : Ref sig .tc) → Buf (Elt F) ((c : Thread nD τ).loc b) := fun c b => W3 m ρ c b
/-- A reference the stretch `hostOps1` does not write keeps its contents. -/
theorem W3_of_ne (c : Dev nD) (r : Ref sig .tc) (h : r ∉ hostOps1_W) :
    W3 m ρ c (Proc.devRef .tc r) = W2 m ρ c (Proc.devRef .tc r) :=
  StableHlo.after_of_writes_sub hostOps1 _ hostOps1_writes h

/-- At launch 1's exit: its windows' arrays at what the pipeline leaves (the inputs as entered, the output's
    write-backs folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (launch 1's exit contents). -/
abbrev V4 : (c : Dev nD) → (b : Ref sig .tc) → Buf (Elt F) ((c : Thread nD τ).loc b) := fun c b => W4 m ρ c b
/-- At launch 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what launch 2 is entered from. -/
abbrev W5 : Dev nD → Valuation τ sig (Elt F) := fun c => StableHlo.after hostOps2 (W4 m ρ c)
/-- The same read at the TensorCore's references (what launch 2's proof data take). -/
abbrev V5 : (c : Dev nD) → (b : Ref sig .tc) → Buf (Elt F) ((c : Thread nD τ).loc b) := fun c b => W5 m ρ c b
/-- A reference the stretch `hostOps2` does not write keeps its contents. -/
theorem W5_of_ne (c : Dev nD) (r : Ref sig .tc) (h : r ∉ hostOps2_W) :
    W5 m ρ c (Proc.devRef .tc r) = W4 m ρ c (Proc.devRef .tc r) :=
  StableHlo.after_of_writes_sub hostOps2 _ hostOps2_writes h

/-- At launch 2's exit: its windows' arrays at what the pipeline leaves (the inputs as entered, the output's
    write-backs folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (launch 2's exit contents). -/
abbrev V6 : (c : Dev nD) → (b : Ref sig .tc) → Buf (Elt F) ((c : Thread nD τ).loc b) := fun c b => W6 m ρ c b
/-- At launch 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what launch 3 is entered from. -/
abbrev W7 : Dev nD → Valuation τ sig (Elt F) := fun c => StableHlo.after hostOps3 (W6 m ρ c)
/-- The same read at the TensorCore's references (what launch 3's proof data take). -/
abbrev V7 : (c : Dev nD) → (b : Ref sig .tc) → Buf (Elt F) ((c : Thread nD τ).loc b) := fun c b => W7 m ρ c b
/-- A reference the stretch `hostOps3` does not write keeps its contents. -/
theorem W7_of_ne (c : Dev nD) (r : Ref sig .tc) (h : r ∉ hostOps3_W) :
    W7 m ρ c (Proc.devRef .tc r) = W6 m ρ c (Proc.devRef .tc r) :=
  StableHlo.after_of_writes_sub hostOps3 _ hostOps3_writes h

/-- At launch 3's exit: its windows' arrays at what the pipeline leaves (the inputs as entered, the output's
    write-backs folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (launch 3's exit contents). -/
abbrev V8 : (c : Dev nD) → (b : Ref sig .tc) → Buf (Elt F) ((c : Thread nD τ).loc b) := fun c b => W8 m ρ c b
/-- At launch 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched

No host stretch writes an argument and no launch has one among its windows' arrays, so the fold at an argument's buffer
walks back to the launch memory. -/

theorem W8_main_arg0 (c : Dev nD) : W8 m ρ c (Proc.devRef .tc main_arg0) = m ((c : Thread nD τ).loc main_arg0) :=
  (W8_of_ne m ρ c main_arg0 (by decide)).trans <| (W7_of_ne m ρ c main_arg0 (by decide)).trans <| (W6_of_ne m ρ c main_arg0 (by decide)).trans <| (W5_of_ne m ρ c main_arg0 (by decide)).trans <| (W4_of_ne m ρ c main_arg0 (by decide)).trans <| (W3_of_ne m ρ c main_arg0 (by decide)).trans <| (W2_of_ne m ρ c main_arg0 (by decide)).trans <| (W1_of_ne m ρ c main_arg0 (by decide)).trans rfl
theorem W8_main_arg1 (c : Dev nD) : W8 m ρ c (Proc.devRef .tc main_arg1) = m ((c : Thread nD τ).loc main_arg1) :=
  (W8_of_ne m ρ c main_arg1 (by decide)).trans <| (W7_of_ne m ρ c main_arg1 (by decide)).trans <| (W6_of_ne m ρ c main_arg1 (by decide)).trans <| (W5_of_ne m ρ c main_arg1 (by decide)).trans <| (W4_of_ne m ρ c main_arg1 (by decide)).trans <| (W3_of_ne m ρ c main_arg1 (by decide)).trans <| (W2_of_ne m ρ c main_arg1 (by decide)).trans <| (W1_of_ne m ρ c main_arg1 (by decide)).trans rfl
theorem W8_main_arg2 (c : Dev nD) : W8 m ρ c (Proc.devRef .tc main_arg2) = m ((c : Thread nD τ).loc main_arg2) :=
  (W8_of_ne m ρ c main_arg2 (by decide)).trans <| (W7_of_ne m ρ c main_arg2 (by decide)).trans <| (W6_of_ne m ρ c main_arg2 (by decide)).trans <| (W5_of_ne m ρ c main_arg2 (by decide)).trans <| (W4_of_ne m ρ c main_arg2 (by decide)).trans <| (W3_of_ne m ρ c main_arg2 (by decide)).trans <| (W2_of_ne m ρ c main_arg2 (by decide)).trans <| (W1_of_ne m ρ c main_arg2 (by decide)).trans rfl
theorem W8_main_arg3 (c : Dev nD) : W8 m ρ c (Proc.devRef .tc main_arg3) = m ((c : Thread nD τ).loc main_arg3) :=
  (W8_of_ne m ρ c main_arg3 (by decide)).trans <| (W7_of_ne m ρ c main_arg3 (by decide)).trans <| (W6_of_ne m ρ c main_arg3 (by decide)).trans <| (W5_of_ne m ρ c main_arg3 (by decide)).trans <| (W4_of_ne m ρ c main_arg3 (by decide)).trans <| (W3_of_ne m ρ c main_arg3 (by decide)).trans <| (W2_of_ne m ρ c main_arg3 (by decide)).trans <| (W1_of_ne m ρ c main_arg3 (by decide)).trans rfl
theorem W8_main_arg4 (c : Dev nD) : W8 m ρ c (Proc.devRef .tc main_arg4) = m ((c : Thread nD τ).loc main_arg4) :=
  (W8_of_ne m ρ c main_arg4 (by decide)).trans <| (W7_of_ne m ρ c main_arg4 (by decide)).trans <| (W6_of_ne m ρ c main_arg4 (by decide)).trans <| (W5_of_ne m ρ c main_arg4 (by decide)).trans <| (W4_of_ne m ρ c main_arg4 (by decide)).trans <| (W3_of_ne m ρ c main_arg4 (by decide)).trans <| (W2_of_ne m ρ c main_arg4 (by decide)).trans <| (W1_of_ne m ρ c main_arg4 (by decide)).trans rfl
theorem W8_main_arg5 (c : Dev nD) : W8 m ρ c (Proc.devRef .tc main_arg5) = m ((c : Thread nD τ).loc main_arg5) :=
  (W8_of_ne m ρ c main_arg5 (by decide)).trans <| (W7_of_ne m ρ c main_arg5 (by decide)).trans <| (W6_of_ne m ρ c main_arg5 (by decide)).trans <| (W5_of_ne m ρ c main_arg5 (by decide)).trans <| (W4_of_ne m ρ c main_arg5 (by decide)).trans <| (W3_of_ne m ρ c main_arg5 (by decide)).trans <| (W2_of_ne m ρ c main_arg5 (by decide)).trans <| (W1_of_ne m ρ c main_arg5 (by decide)).trans rfl

/-! ## What each launch finds in its input arrays

A converted weight or a reshaped argument is written by the first host stretch (or the stretch just before its launch)
and by nothing afterwards; a reshaped projection is the reshape of what its launch left in its output array. -/

/-- The first host stretch's results, read where it wrote them. -/
theorem W1_main_v0 (c : Dev nD) : W1 m ρ c (Proc.devRef .tc main_v0) = truncf .bf16 (m ((c : Thread nD τ).loc main_arg3)) bitsLt_bf16_f32 := by
  show StableHlo.after hostOps0 _ (Proc.devRef .tc main_v0) = _; after_results <;> rfl
theorem W1_main_v1 (c : Dev nD) : W1 m ρ c (Proc.devRef .tc main_v1) = truncf .bf16 (m ((c : Thread nD τ).loc main_arg4)) bitsLt_bf16_f32 := by
  show StableHlo.after hostOps0 _ (Proc.devRef .tc main_v1) = _; after_results <;> rfl
theorem W1_main_v2 (c : Dev nD) : W1 m ρ c (Proc.devRef .tc main_v2) = truncf .bf16 (m ((c : Thread nD τ).loc main_arg5)) bitsLt_bf16_f32 := by
  show StableHlo.after hostOps0 _ (Proc.devRef .tc main_v2) = _; after_results <;> rfl
theorem W1_main_v3 (c : Dev nD) : W1 m ρ c (Proc.devRef .tc main_v3) = shapeCast S16384x1024 (m ((c : Thread nD τ).loc main_arg0)) shapeCasts_S8x2048x1024_S16384x1024 := by
  show StableHlo.after hostOps0 _ (Proc.devRef .tc main_v3) = _; after_results <;> rfl

/-- Launch 0 (the key projection) reads the reshaped first argument and the converted fourth. -/
theorem V1_main_v3 (c : Dev nD) : V1 m ρ c main_v3 = shapeCast S16384x1024 (m ((c : Thread nD τ).loc main_arg0)) shapeCasts_S8x2048x1024_S16384x1024 :=
  W1_main_v3 m ρ c
theorem V1_main_v0 (c : Dev nD) : V1 m ρ c main_v0 = truncf .bf16 (m ((c : Thread nD τ).loc main_arg3)) bitsLt_bf16_f32 :=
  W1_main_v0 m ρ c

/-- The second host stretch's results. -/
theorem W3_main_v5 (c : Dev nD) : W3 m ρ c (Proc.devRef .tc main_v5) = shapeCast S8x2048x2048 ((dat0 (V1 m ρ) c).arrAt 2 cfg0.N) shapeCasts_S16384x2048_S8x2048x2048 := by
  have e : W3 m ρ c (Proc.devRef .tc main_v5) = shapeCast S8x2048x2048 (W2 m ρ c (Proc.devRef .tc main_v4)) shapeCasts_S16384x2048_S8x2048x2048 := by
    show StableHlo.after hostOps1 _ (Proc.devRef .tc main_v5) = _; after_results <;> rfl
  rw [e]; exact congrArg (fun x => shapeCast S8x2048x2048 x shapeCasts_S16384x2048_S8x2048x2048) (W2_arr m ρ c 2)
theorem W3_main_v6 (c : Dev nD) : W3 m ρ c (Proc.devRef .tc main_v6) = shapeCast S16384x1024 (m ((c : Thread nD τ).loc main_arg1)) shapeCasts_S8x2048x1024_S16384x1024 := by
  have e : W3 m ρ c (Proc.devRef .tc main_v6) = shapeCast S16384x1024 (W2 m ρ c (Proc.devRef .tc main_arg1)) shapeCasts_S8x2048x1024_S16384x1024 := by
    show StableHlo.after hostOps1 _ (Proc.devRef .tc main_v6) = _; after_results <;> rfl
  rw [e]; exact congrArg (fun x => shapeCast S16384x1024 x shapeCasts_S8x2048x1024_S16384x1024) ((W2_of_ne m ρ c main_arg1 (by decide)).trans <| (W1_of_ne m ρ c main_arg1 (by decide)).trans <| rfl)

/-- Launch 1 (the query projection) reads the reshaped second argument and the converted fifth. -/
theorem V3_main_v6 (c : Dev nD) : V3 m ρ c main_v6 = shapeCast S16384x1024 (m ((c : Thread nD τ).loc main_arg1)) shapeCasts_S8x2048x1024_S16384x1024 :=
  W3_main_v6 m ρ c
theorem V3_main_v1 (c : Dev nD) : V3 m ρ c main_v1 = truncf .bf16 (m ((c : Thread nD τ).loc main_arg4)) bitsLt_bf16_f32 :=
  (W3_of_ne m ρ c main_v1 (by decide)).trans <| (W2_of_ne m ρ c main_v1 (by decide)).trans <| W1_main_v1 m ρ c

/-- The third host stretch's results. -/
theorem W5_main_v8 (c : Dev nD) : W5 m ρ c (Proc.devRef .tc main_v8) = shapeCast S8x2048x2048 ((dat1 (V3 m ρ) c).arrAt 2 cfg1.N) shapeCasts_S16384x2048_S8x2048x2048 := by
  have e : W5 m ρ c (Proc.devRef .tc main_v8) = shapeCast S8x2048x2048 (W4 m ρ c (Proc.devRef .tc main_v7)) shapeCasts_S16384x2048_S8x2048x2048 := by
    show StableHlo.after hostOps2 _ (Proc.devRef .tc main_v8) = _; after_results <;> rfl
  rw [e]; exact congrArg (fun x => shapeCast S8x2048x2048 x shapeCasts_S16384x2048_S8x2048x2048) (W4_arr m ρ c 2)
theorem W5_main_v9 (c : Dev nD) : W5 m ρ c (Proc.devRef .tc main_v9) = shapeCast S16384x1024 (m ((c : Thread nD τ).loc main_arg2)) shapeCasts_S8x2048x1024_S16384x1024 := by
  have e : W5 m ρ c (Proc.devRef .tc main_v9) = shapeCast S16384x1024 (W4 m ρ c (Proc.devRef .tc main_arg2)) shapeCasts_S8x2048x1024_S16384x1024 := by
    show StableHlo.after hostOps2 _ (Proc.devRef .tc main_v9) = _; after_results <;> rfl
  rw [e]; exact congrArg (fun x => shapeCast S16384x1024 x shapeCasts_S8x2048x1024_S16384x1024) ((W4_of_ne m ρ c main_arg2 (by decide)).trans <| (W3_of_ne m ρ c main_arg2 (by decide)).trans <| (W2_of_ne m ρ c main_arg2 (by decide)).trans <| (W1_of_ne m ρ c main_arg2 (by decide)).trans <| rfl)

/-- Launch 2 (the value projection) reads the reshaped third argument and the converted sixth. -/
theorem V5_main_v9 (c : Dev nD) : V5 m ρ c main_v9 = shapeCast S16384x1024 (m ((c : Thread nD τ).loc main_arg2)) shapeCasts_S8x2048x1024_S16384x1024 :=
  W5_main_v9 m ρ c
theorem V5_main_v2 (c : Dev nD) : V5 m ρ c main_v2 = truncf .bf16 (m ((c : Thread nD τ).loc main_arg5)) bitsLt_bf16_f32 :=
  (W5_of_ne m ρ c main_v2 (by decide)).trans <| (W4_of_ne m ρ c main_v2 (by decide)).trans <| (W3_of_ne m ρ c main_v2 (by decide)).trans <| (W2_of_ne m ρ c main_v2 (by decide)).trans <| W1_main_v2 m ρ c

/-- The attention launch reads the three projections, each reshaped to batches: the query from launch 1's output,
    the key from launch 0's, the value from launch 2's. -/
theorem V7_main_v8 (c : Dev nD) : V7 m ρ c main_v8 = shapeCast S8x2048x2048 ((dat1 (V3 m ρ) c).arrAt 2 cfg1.N) shapeCasts_S16384x2048_S8x2048x2048 :=
  (W7_of_ne m ρ c main_v8 (by decide)).trans <| (W6_of_ne m ρ c main_v8 (by decide)).trans <| W5_main_v8 m ρ c
theorem V7_main_v5 (c : Dev nD) : V7 m ρ c main_v5 = shapeCast S8x2048x2048 ((dat0 (V1 m ρ) c).arrAt 2 cfg0.N) shapeCasts_S16384x2048_S8x2048x2048 :=
  (W7_of_ne m ρ c main_v5 (by decide)).trans <| (W6_of_ne m ρ c main_v5 (by decide)).trans <| (W5_of_ne m ρ c main_v5 (by decide)).trans <| (W4_of_ne m ρ c main_v5 (by decide)).trans <| W3_main_v5 m ρ c
theorem V7_main_v11 (c : Dev nD) : V7 m ρ c main_v11 = shapeCast S8x2048x2048 ((dat2 (V5 m ρ) c).arrAt 2 cfg2.N) shapeCasts_S16384x2048_S8x2048x2048 := by
  have e : W7 m ρ c (Proc.devRef .tc main_v11) = shapeCast S8x2048x2048 (W6 m ρ c (Proc.devRef .tc main_v10)) shapeCasts_S16384x2048_S8x2048x2048 := by
    show StableHlo.after hostOps3 _ (Proc.devRef .tc main_v11) = _; after_results <;> rfl
  show W7 m ρ c (Proc.devRef .tc main_v11) = _
  rw [e]; exact congrArg (fun x => shapeCast S8x2048x2048 x shapeCasts_S16384x2048_S8x2048x2048) (W6_arr m ρ c 2)

end Cert.KernelIdeal.Hand

end
-- ==== Proof.KI.Run.lean ====
/-
  @main as a run of eight segments — a host stretch, then a launch, four times — over the thread state "every unscoped
  buffer at the boundary's contents, the generator register at some state, nothing owed", and what that run gives at the
  end: the attention launch's output array at what its write-backs fold to, and every argument array as launched.
-/
import proofs.«171499_j10831907521163_2_alg».proof.Proof.KI.Fold
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- The prefetched tables' admissible contents: no launch has a table. -/
abbrev adm : (p : Fin 4) → (pcfgs (F := F) p).Adm := fun p => (cfgs p).toPCfg_adm
/-- Every launch's proof data, each at the contents its launch is entered from — a literal `match`, so that the pinned
    configuration at a numeral reduces to the printed one. -/
def pdats : (p : Fin 4) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a launch's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it is left with
    those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the generator
    register at some state. -/
abbrev Tₙ (c : Dev nD) : sProp 𝕄 := iprop(StableHlo.held (c : Thread nD τ) (Pipeline.ucRefs τ sig) (W8 m ρ c) ∗ ∃ r, prngReg c r)

/-! ## The launches as segments -/

-- a library lemma stated over the pinned configuration unifies with the printed one only when unification may unfold
-- plain definitions in a metavariable's type
set_option backward.isDefEq.respectTransparency.types false in
/-- Launch 0 over the thread state: entered from every unscoped buffer at `W1`, left at `W2`.  Its windows' arrays
    are split out of the unscoped buffers and put back at the exit contents; the generator register goes into the
    launch's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Launch 1 over the thread state: entered from every unscoped buffer at `W3`, left at `W4`.  Its windows' arrays
    are split out of the unscoped buffers and put back at the exit contents; the generator register goes into the
    launch's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Launch 2 over the thread state: entered from every unscoped buffer at `W5`, left at `W6`.  Its windows' arrays
    are split out of the unscoped buffers and put back at the exit contents; the generator register goes into the
    launch's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The attention launch over the thread state: entered from every unscoped buffer at `W7`, left at `W8` (what the end
    of @main reads).  As the projections, except that its invariant carries the scratch between points: before the first
    point it is the launch's own (`hin3`), after the last it gives the launch's own back (`hout3`). -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's eight segments in order: a host segment per stretch from its boundary's contents, a region per launch. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments: it is the chain of its items, and the segments' run is that chain. -/
theorem main_run (c : Dev nD) : main (F := F) c = Pipeline.Seg.run (segs m ρ) := (main_chain c).trans (by chain_rfl)

-- the run theorem's implicit arguments are found by unifying its conclusion with this one, which takes unfolding plain
-- definitions in a metavariable's type
set_option backward.isDefEq.respectTransparency.types false in
/-- From any memory with zero counters, every weakly fair execution of @main on the TensorCores terminates, nothing
    faulting, and in every final state the attention launch's output array holds what its write-backs fold to
    (`arrAt` of its output window after the last grid point, the launch entered from `V7`) and every argument array
    holds what it was launched with. -/
theorem run_named : θ_run defs (onTc (τ := τ) (main (F := F))) ⟨m, fun _ => 0, ρ⟩ (fun r => ∀ c : Dev nD,
      r.2.mem ((c.tc : Thread nD τ).loc main_v12) = (dat3 (V7 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v12 (by decide))).trans (W8_arr m ρ c 3),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_named m ρ)

end Cert.KernelIdeal.Hand

end
-- ==== Proof.Val.FlashIdx.lean ====
/-
  The attention launch's index maps over its 128 grid points, and its windows' blocks read at an index.

  Point t = 16·b + 4·qi + ki works on batch b = t / 16, query block qi = t / 4 % 4 and key tile ki = t % 4.  The query and
  output windows sit at block (b, qi, 0); the key and value windows at block (b, min ki (qi + 1), 0).  A block of
  [1, 512, 2048] at block index (b, n, 0) holds rows n·512 … n·512 + 511 of batch b.
-/
import proofs.«171499_j10831907521163_2_alg».proof.Proof.KI.Base
import Idealize.ShloMosaic.Lib.Pipeline.Value
import Idealize.ShloMosaic.Lib.ValueIdx

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)

/-- The grid point's coordinates and the four windows' block indices, decided over the grid. -/
theorem idx_facts3 : ∀ t : Fin cfg3.N,
    (grid3.coords t 0).val = t.val / 16 ∧ (grid3.coords t 1).val = t.val / 4 % 4 ∧ (grid3.coords t 2).val = t.val % 4
    ∧ win3_0.index t (0 : Fin 3) = t.val / 16 ∧ win3_0.index t (1 : Fin 3) = t.val / 4 % 4 ∧ win3_0.index t (2 : Fin 3) = 0
    ∧ win3_1.index t (0 : Fin 3) = t.val / 16 ∧ win3_1.index t (1 : Fin 3) = min (t.val % 4) (t.val / 4 % 4 + 1) ∧ win3_1.index t (2 : Fin 3) = 0
    ∧ win3_2.index t (0 : Fin 3) = t.val / 16 ∧ win3_2.index t (1 : Fin 3) = min (t.val % 4) (t.val / 4 % 4 + 1) ∧ win3_2.index t (2 : Fin 3) = 0
    ∧ win3_3.index t (0 : Fin 3) = t.val / 16 ∧ win3_3.index t (1 : Fin 3) = t.val / 4 % 4 ∧ win3_3.index t (2 : Fin 3) = 0 :=
  (by decide +kernel : ∀ t : Fin grid3.N, _)

variable {F : FTy → Type} [FloatOps F] [Named F]
variable (V : (c : Dev nD) → (b : Ref sig .tc) → Buf (Elt F) ((c : Thread nD τ).loc b))

/-- The query window's block at point t: rows (t / 4 % 4)·512 … of batch t / 16 of the scaled projected query. -/
theorem iblk3_0_apply (c : Dev nD) (t : Fin cfg3.N) (x : S1x512x2048.Idx) (k : S8x2048x2048.Idx)
    (hk0 : (k 0).val = t.val / 16) (hk1 : (k 1).val = t.val / 4 % 4 * 512 + (x 1).val) (hk2 : (k 2).val = (x 2).val) :
    (iblk3 V c 0 t : Vec F S1x512x2048 .bf16) x = (V c main_v8 : S8x2048x2048.Idx → Elt F .bf16) k := by
  obtain ⟨-, -, -, e0, e1, e2, -⟩ := idx_facts3 t
  unfold iblk3
  rw [View.read_apply]
  show V c main_v8 _ = V c main_v8 _
  congr 1
  funext a
  apply Fin.ext
  match a with
  | ⟨0, _⟩ => show win3_0.index t 0 * 1 + 1 * (x 0).val = (k 0).val; have : (x 0).val < 1 := (x 0).isLt; rw [e0, hk0]; omega
  | ⟨1, _⟩ => show win3_0.index t 1 * 512 + 1 * (x 1).val = (k 1).val; rw [e1, hk1]; omega
  | ⟨2, _⟩ => show win3_0.index t 2 * 2048 + 1 * (x 2).val = (k 2).val; rw [e2, hk2]; omega

/-- The key window's block at point t: rows (min (t % 4) (t / 4 % 4 + 1))·512 … of batch t / 16 of the projected key. -/
theorem iblk3_1_apply (c : Dev nD) (t : Fin cfg3.N) (x : S1x512x2048.Idx) (k : S8x2048x2048.Idx)
    (hk0 : (k 0).val = t.val / 16) (hk1 : (k 1).val = min (t.val % 4) (t.val / 4 % 4 + 1) * 512 + (x 1).val) (hk2 : (k 2).val = (x 2).val) :
    (iblk3 V c 1 t : Vec F S1x512x2048 .bf16) x = (V c main_v5 : S8x2048x2048.Idx → Elt F .bf16) k := by
  obtain ⟨-, -, -, -, -, -, e0, e1, e2, -⟩ := idx_facts3 t
  unfold iblk3
  rw [View.read_apply]
  show V c main_v5 _ = V c main_v5 _
  congr 1
  funext a
  apply Fin.ext
  match a with
  | ⟨0, _⟩ => show win3_1.index t 0 * 1 + 1 * (x 0).val = (k 0).val; have : (x 0).val < 1 := (x 0).isLt; rw [e0, hk0]; omega
  | ⟨1, _⟩ => show win3_1.index t 1 * 512 + 1 * (x 1).val = (k 1).val; rw [e1, hk1]; omega
  | ⟨2, _⟩ => show win3_1.index t 2 * 2048 + 1 * (x 2).val = (k 2).val; rw [e2, hk2]; omega

/-- The value window's block at point t: the same rows of the projected value. -/
theorem iblk3_2_apply (c : Dev nD) (t : Fin cfg3.N) (x : S1x512x2048.Idx) (k : S8x2048x2048.Idx)
    (hk0 : (k 0).val = t.val / 16) (hk1 : (k 1).val = min (t.val % 4) (t.val / 4 % 4 + 1) * 512 + (x 1).val) (hk2 : (k 2).val = (x 2).val) :
    (iblk3 V c 2 t : Vec F S1x512x2048 .bf16) x = (V c main_v11 : S8x2048x2048.Idx → Elt F .bf16) k := by
  obtain ⟨-, -, -, -, -, -, -, -, -, e0, e1, e2, -⟩ := idx_facts3 t
  unfold iblk3
  rw [View.read_apply]
  show V c main_v11 _ = V c main_v11 _
  congr 1
  funext a
  apply Fin.ext
  match a with
  | ⟨0, _⟩ => show win3_2.index t 0 * 1 + 1 * (x 0).val = (k 0).val; have : (x 0).val < 1 := (x 0).isLt; rw [e0, hk0]; omega
  | ⟨1, _⟩ => show win3_2.index t 1 * 512 + 1 * (x 1).val = (k 1).val; rw [e1, hk1]; omega
  | ⟨2, _⟩ => show win3_2.index t 2 * 2048 + 1 * (x 2).val = (k 2).val; rw [e2, hk2]; omega

end Cert.KernelIdeal.HandVal

end
-- ==== Proof.Val.Spec.lean ====
/-
  The mathematics of the certificate, free of any program.

  Causal attention with one visible super-diagonal, on 8 batches of 2048 positions with 1024 input features and
  2048 projected features.  With K = key·Wkᵀ, Q = query·Wqᵀ, V = value·Wvᵀ, the score of query position i against key
  position j is (Q i · K j) / 32 when j ≤ i + 1 and −∞ otherwise; each row of scores is turned into weights by the
  softmax (shifted by the row's maximum), and the result is the weighted sum of the rows of V.  `G` is that function
  on extended reals, written with the exact operations of the idealized float model.

  The kernel computes the same thing tile by tile: for one query row it walks the four key tiles of 512 positions,
  skipping a tile that lies wholly above the band, and keeps a running maximum m, a running denominator l and a
  running weighted sum acc, rescaling the old l and acc by exp (m_old − m_new) at each tile; at the end it returns
  acc / l.  `rowRun` is that recurrence for one row and `rowOut` its quotient.  The kernel's query rows arrive already
  multiplied by 1/32.
-/
import Idealize.ShloMosaic.PureOps.Ideal
import Idealize.ShloMosaic.PureOps.Ideal.Laws
import Mathlib

noncomputable section

namespace Cert.Spec

open Idealize.ShloMosaic

/-- A projection X·Wᵀ: entry (b, t, h) is the sum over the 1024 input features of X b t e · W h e. -/
def projE (X : Fin 8 → Fin 2048 → Fin 1024 → EReal) (W : Fin 2048 → Fin 1024 → EReal) :
    Fin 8 → Fin 2048 → Fin 2048 → EReal :=
  fun b t h => ∑ e : Fin 1024, X b t e * W h e

/-- Scaled, masked scores: (q i · k j) / 32 inside the band j ≤ i + 1, −∞ outside. -/
def scoreE (q k : Fin 8 → Fin 2048 → Fin 2048 → EReal) : Fin 8 → Fin 2048 → Fin 2048 → EReal :=
  fun b i j =>
    if j.val ≤ i.val + 1 then Ideal.div (∑ h : Fin 2048, q b i h * k b j h) (Ideal.ofBits .f32 0x42000000#32) else ⊥

/-- Unnormalised softmax weights: exp of the score minus its row's maximum. -/
def wgtE (s : Fin 8 → Fin 2048 → Fin 2048 → EReal) : Fin 8 → Fin 2048 → Fin 2048 → EReal :=
  fun b i j => Ideal.exp (s b i j - (Finset.univ : Finset (Fin 2048)).fold max ⊥ (fun j' => s b i j'))

/-- The weighted sum of the rows of `v` with the normalised weights. -/
def attnE (s v : Fin 8 → Fin 2048 → Fin 2048 → EReal) : Fin 8 → Fin 2048 → Fin 2048 → EReal :=
  fun b i h => ∑ j : Fin 2048, Ideal.div (wgtE s b i j) (∑ j' : Fin 2048, wgtE s b i j') * v b j h

/-- The whole function: attention of the projected query against the projected key and value. -/
def G (key query value : Fin 8 → Fin 2048 → Fin 1024 → EReal) (Wk Wq Wv : Fin 2048 → Fin 1024 → EReal) :
    Fin 8 → Fin 2048 → Fin 2048 → EReal :=
  attnE (scoreE (projE query Wq) (projE key Wk)) (projE value Wv)

/-! ## The tile-by-tile recurrence of one query row -/

/-- One row's carried state: running maximum, running denominator, running weighted sum (2048 features). -/
abbrev RowSt : Type := EReal × EReal × (Fin 2048 → EReal)

/-- Before the first key tile: maximum −∞, denominator 0, sum 0. -/
def rowInit : RowSt := (⊥, 0, fun _ => 0)

/-- One key tile's update from the tile's 512 masked scores `st` and its 512 value rows `vt`. -/
def rowUpd (st : Fin 512 → EReal) (vt : Fin 512 → Fin 2048 → EReal) (s : RowSt) : RowSt :=
  (max s.1 ((Finset.univ : Finset (Fin 512)).fold max ⊥ st),
   Ideal.exp (s.1 - max s.1 ((Finset.univ : Finset (Fin 512)).fold max ⊥ st)) * s.2.1
     + ∑ j : Fin 512, Ideal.exp (st j - max s.1 ((Finset.univ : Finset (Fin 512)).fold max ⊥ st)),
   fun h => Ideal.exp (s.1 - max s.1 ((Finset.univ : Finset (Fin 512)).fold max ⊥ st)) * s.2.2 h
     + ∑ j : Fin 512, Ideal.exp (st j - max s.1 ((Finset.univ : Finset (Fin 512)).fold max ⊥ st)) * vt j h)

/-- Position `n * 512 + j` of key tile `n < 4`. -/
def tilePos (n : ℕ) (hn : n < 4) (j : Fin 512) : Fin 2048 := ⟨n * 512 + j.val, by have := j.isLt; omega⟩

/-- The masked scores of key tile `n` against the (already scaled) query row `qrow` at global position `i`:
    the dot product with the key row inside the band, −∞ outside. -/
def tileScore (qrow : Fin 2048 → EReal) (k : Fin 2048 → Fin 2048 → EReal) (i : Fin 2048) (n : ℕ) (hn : n < 4) :
    Fin 512 → EReal :=
  fun j => if n * 512 + j.val ≤ i.val + 1 then ∑ h : Fin 2048, qrow h * k (tilePos n hn j) h else ⊥

/-- The row's state after the first `n` key tiles: tile `n'` is applied when it meets the band of the row's query
    block (n' ≤ i / 512 + 1) and skipped otherwise. -/
def rowRun (qrow : Fin 2048 → EReal) (k v : Fin 2048 → Fin 2048 → EReal) (i : Fin 2048) : (n : ℕ) → n ≤ 4 → RowSt
  | 0, _ => rowInit
  | n + 1, h =>
    if n ≤ i.val / 512 + 1 then
      rowUpd (tileScore qrow k i n h) (fun j => v (tilePos n h j)) (rowRun qrow k v i n (Nat.le_of_succ_le h))
    else rowRun qrow k v i n (Nat.le_of_succ_le h)

/-- What the last key tile writes out: weighted sum over denominator. -/
def rowOut (s : RowSt) (h : Fin 2048) : EReal := Ideal.div (s.2.2 h) s.2.1

/-- A real array read as an extended-real one. -/
def up3 {a b c : ℕ} (x : Fin a → Fin b → Fin c → ℝ) : Fin a → Fin b → Fin c → EReal := fun i j k => ((x i j k : ℝ) : EReal)
def up2 {a b : ℕ} (x : Fin a → Fin b → ℝ) : Fin a → Fin b → EReal := fun i j => ((x i j : ℝ) : EReal)

end Cert.Spec

end
-- ==== Proof.LibRowsDot.lean ====
/-
  A matrix product of two rank-2 operands that contracts the LAST axis of both (`x · yᵀ`), read at an entry.

  For dimension numbers `d` over operands of shapes [M, K] and [N, K] and a result of shape [M, N] whose one
  contracted axis is the second of each operand — given as the four coordinate facts of `d`'s operand index
  maps, which for a literal record are decided or read off `DotDims.lhsIdx_val_of_single` — a `tpu.matmul` into
  the zero accumulator at the ideal instance is, at entry (p, q),

      Σ_{k < K} lhs[p, k] · rhs[q, k].

  The contraction's index type is re-indexed to `Fin K` through `ValueIdx.contrEquiv1`.
-/
import Idealize.ShloMosaic.PureOps.Ideal.Laws
import Idealize.ShloMosaic.Lib.ValueIdx

noncomputable section

open scoped BigOperators

namespace Cert.Lora

open Idealize.ShloMosaic Idealize.ShloMosaic.ValueIdx

/-- `x · yᵀ` into the zero accumulator, at entry (p, q): the sum over the shared last axis of the products of row
    `p` of the left operand and row `q` of the right. The hypotheses say where the record's operand index maps
    read: the left operand at (row of the entry, contraction position), the right at (column of the entry,
    contraction position). -/
theorem rows_dot_zero {M N K : Nat} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (j 1).val)
    (hr1 : ∀ (j : (⟨2, ![M, N]⟩ : Shape).Idx) (c : d.contr.Idx), (d.rhsIdx j c 1).val = (c ⟨0, by omega⟩).val)
    (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.Lora

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.LibRealValued.lean ====
/-
  Extended reals that are real numbers.

  The pooling kernel and its reference are compared at inputs that are real numbers; every intermediate value is then
  a real number too.  The facts below carry the embedding of the reals through the operations met on the way: finite
  sums, the maximum with a value below `⊤`, a fold of maxima, the exponential and the quotient.
-/
import Idealize.ShloMosaic.PureOps.Ideal
import Idealize.ShloMosaic.PureOps.Ideal.Laws
import Mathlib.Data.Finset.Fold

noncomputable section

open scoped BigOperators

namespace Cert.Pool

open Idealize.ShloMosaic

/-- The embedding of the reals into the extended reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The maximum of a real number and an extended real below `⊤` is a real number. -/
theorem max_real (μ : ℝ) (y : EReal) (hy : y < ⊤) : ∃ μ' : ℝ, max (μ : EReal) y = (μ' : EReal) := by
  induction y using EReal.rec with
  | bot => exact ⟨μ, max_eq_left bot_le⟩
  | top => exact absurd hy (lt_irrefl _)
  | coe v => exact ⟨max μ v, (EReal.coe_strictMono.monotone.map_max (a := μ) (b := v)).symm⟩

/-- A fold of maxima over real numbers, started below `⊤`, stays below `⊤`. -/
theorem fold_max_lt_top {ι : Type*} (s : Finset ι) (b : EReal) (hb : b < ⊤) (f : ι → ℝ) :
    s.fold max b (fun k => (f k : EReal)) < ⊤ :=
  (Finset.fold_max_lt _).mpr ⟨hb, fun k _ => EReal.coe_lt_top (f k)⟩

/-- A fold of maxima over a nonempty family of real numbers, started at `⊥`, is a real number. -/
theorem fold_max_real {ι : Type*} (s : Finset ι) (hs : s.Nonempty) (f : ι → ℝ) :
    ∃ M : ℝ, s.fold max (⊥ : EReal) (fun k => (f k : EReal)) = (M : EReal) := by
  obtain ⟨k₀, hk₀⟩ := hs
  have hlt := fold_max_lt_top s ⊥ bot_lt_top f
  have hge : (f k₀ : EReal) ≤ s.fold max (⊥ : EReal) (fun k => (f k : EReal)) :=
    (Finset.le_fold_max _).mpr (Or.inr ⟨k₀, hk₀, le_rfl⟩)
  generalize s.fold max (⊥ : EReal) (fun k => (f k : EReal)) = y at hlt hge
  induction y using EReal.rec with
  | bot => exact absurd hge (not_le.mpr (EReal.bot_lt_coe _))
  | top => exact absurd hlt (lt_irrefl _)
  | coe v => exact ⟨v, rfl⟩

/-- The exponential of a real number. -/
theorem exp_coe (r : ℝ) : Ideal.exp (r : EReal) = (Real.exp r : EReal) := rfl

/-- The quotient of two real numbers with a nonzero divisor. -/
theorem div_coe_coe (a b : ℝ) (hb : b ≠ 0) : Ideal.div (a : EReal) (b : EReal) = ((a / b : ℝ) : EReal) := by
  rw [Ideal.div_coe hb, ← EReal.coe_mul]
  exact congrArg _ (by rw [mul_one_div])

/-- The large negative word the running shift is reset to denotes a real number. -/
theorem neg_big_real : ∃ c0 : ℝ, Ideal.ofBits .f32 0xF149F2CA#32 = (c0 : EReal) := by
  refine ⟨-(13234890 * 2 ^ 76), ?_⟩
  simp [Ideal.ofBits, Ideal.ieee]

/-- The word of negative infinity. -/
theorem neg_inf_pattern : Ideal.ofBits .f32 0xFF800000#32 = ⊥ := by simp [Ideal.ofBits, Ideal.ieee]

end Cert.Pool

end
-- ==== Proof.Val.PayAt.lean ====
/-
  The attention body's arithmetic, operation by operation, read at an index of the idealized floats.

  The body forms the tile's scores as the product of the query block with the transposed key tile (entry (r, j) is the dot
  product of query row r with key row j), masks them with −∞ above the causal band (key position ki·512 + j more than one
  past the query position qi·512 + r), takes each row's maximum against the running maximum, exponentiates the scores less
  that maximum, and adds the rescaled old denominator and old weighted sum to the tile's row sums and to the product of the
  weights with the value tile.  Each lemma below reads one of those steps at explicit coordinates.
-/
import proofs.«171499_j10831907521163_2_alg».proof.Proof.KI.Base
import proofs.«171499_j10831907521163_2_alg».proof.Proof.Val.Spec
import proofs.«171499_j10831907521163_2_alg».proof.Proof.LibRowsDot
import proofs.«171499_j10831907521163_2_alg».proof.Proof.LibMatDot
import proofs.«171499_j10831907521163_2_alg».proof.Proof.LibRows
import proofs.«171499_j10831907521163_2_alg».proof.Proof.LibColumn
import proofs.«171499_j10831907521163_2_alg».proof.Proof.LibRealValued
import Idealize.ShloMosaic.PureOps.IdealRules
import Idealize.ShloMosaic.Lib.ValueIdx
import Idealize.ShloMosaic.Lib.ValueLayout
import Idealize.ShloMosaic.Lib.Pipeline.Value
import Idealize.ShloMosaic.Lib.Affine

noncomputable section

namespace Cert.KernelIdeal.HandVal

open Idealize.ShloMosaic Idealize.ShloMosaic.ValueIdx
open Cert.KernelIdeal Cert.KernelIdeal.Gen Cert.KernelIdeal.Hand Cert.Spec

/-! ## The two matrix products' index maps -/

theorem qk_l0 (j : S512x512.Idx) (c : dot_S512x2048_S512x2048_S512x512_1_1_0_0_n_n.contr.Idx) :
    (dot_S512x2048_S512x2048_S512x512_1_1_0_0_n_n.lhsIdx j c 0).val = (j 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem qk_l1 (j : S512x512.Idx) (c : dot_S512x2048_S512x2048_S512x512_1_1_0_0_n_n.contr.Idx) :
    (dot_S512x2048_S512x2048_S512x512_1_1_0_0_n_n.lhsIdx j c 1).val = (c ⟨0, by decide⟩).val :=
  dot_S512x2048_S512x2048_S512x512_1_1_0_0_n_n.lhsIdx_val_of_single rfl j c
theorem qk_r0 (j : S512x512.Idx) (c : dot_S512x2048_S512x2048_S512x512_1_1_0_0_n_n.contr.Idx) :
    (dot_S512x2048_S512x2048_S512x512_1_1_0_0_n_n.rhsIdx j c 0).val = (j 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem qk_r1 (j : S512x512.Idx) (c : dot_S512x2048_S512x2048_S512x512_1_1_0_0_n_n.contr.Idx) :
    (dot_S512x2048_S512x2048_S512x512_1_1_0_0_n_n.rhsIdx j c 1).val = (c ⟨0, by decide⟩).val :=
  dot_S512x2048_S512x2048_S512x512_1_1_0_0_n_n.rhsIdx_val_of_single rfl j c

/-- The score product at (r, j): the dot product of row r of the left operand with row j of the right. -/
theorem qk_apply (x y : FVec Ideal S512x2048 .bf16) (r j : Fin 512) :
    FloatOps.matmul dot_S512x2048_S512x2048_S512x512_1_1_0_0_n_n none x y (constant (F := Ideal) S512x512 .f32 0x00000000#32) (ix2 r j)
      = ∑ h : Fin 2048, x (ix2 r h) * y (ix2 j h) :=
  Cert.Lora.rows_dot_zero dot_S512x2048_S512x2048_S512x512_1_1_0_0_n_n none rfl rfl qk_l0 qk_l1 qk_r0 qk_r1 x y r j

theorem pv_l0 (j : S512x2048.Idx) (c : dot_S512x512_S512x2048_S512x2048_1_0_0_1_n_n.contr.Idx) :
    (dot_S512x512_S512x2048_S512x2048_1_0_0_1_n_n.lhsIdx j c 0).val = (j 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem pv_l1 (j : S512x2048.Idx) (c : dot_S512x512_S512x2048_S512x2048_1_0_0_1_n_n.contr.Idx) :
    (dot_S512x512_S512x2048_S512x2048_1_0_0_1_n_n.lhsIdx j c 1).val = (c ⟨0, by decide⟩).val :=
  dot_S512x512_S512x2048_S512x2048_1_0_0_1_n_n.lhsIdx_val_of_single rfl j c
theorem pv_r0 (j : S512x2048.Idx) (c : dot_S512x512_S512x2048_S512x2048_1_0_0_1_n_n.contr.Idx) :
    (dot_S512x512_S512x2048_S512x2048_1_0_0_1_n_n.rhsIdx j c 0).val = (c ⟨0, by decide⟩).val :=
  dot_S512x512_S512x2048_S512x2048_1_0_0_1_n_n.rhsIdx_val_of_single rfl j c
theorem pv_r1 (j : S512x2048.Idx) (c : dot_S512x512_S512x2048_S512x2048_1_0_0_1_n_n.contr.Idx) :
    (dot_S512x512_S512x2048_S512x2048_1_0_0_1_n_n.rhsIdx j c 1).val = (j 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The weights-times-values product at (r, h): the sum over the tile's key positions. -/
theorem pv_apply (x : FVec Ideal S512x512 .bf16) (y : FVec Ideal S512x2048 .bf16) (r : Fin 512) (h : Fin 2048) :
    FloatOps.matmul dot_S512x512_S512x2048_S512x2048_1_0_0_1_n_n none x y (constant (F := Ideal) S512x2048 .f32 0x00000000#32) (ix2 r h)
      = ∑ j : Fin 512, x (ix2 r j) * y (ix2 j h) :=
  mat_dot_zero dot_S512x512_S512x2048_S512x2048_1_0_0_1_n_n none rfl rfl pv_l0 pv_l1 pv_r0 pv_r1 x y r h

/-! ## The causal band -/

open Idealize.ShloMosaic.Affine in
/-- Tile `ki`'s key position `j` against query block `qi`'s row `r`, compared as 32-bit words: all values stay below
    2049, so the signed comparison of the words is the comparison of the natural numbers. -/
theorem band_bit (qi ki r j : ℕ) (hq : qi < 4) (hk : ki < 4) (hr : r < 512) (hj : j < 512) :
    IntOp.cmpi .sle (IntOp.addi (Scalar.muli (BitVec.ofNat 32 ki) 512#32) (BitVec.ofNat 32 j))
        (IntOp.addi (IntOp.addi (Scalar.muli (BitVec.ofNat 32 qi) 512#32) (BitVec.ofNat 32 r)) 1#32) = 1#1
      ↔ ki * 512 + j ≤ qi * 512 + r + 1 := by
  have hA : IsInt (Scalar.addi (Scalar.muli (BitVec.ofNat 32 ki) 512#32) (BitVec.ofNat 32 j)) ((ki : ℤ) * 512 + j) :=
    Affine.addi (Affine.muli (Affine.ofNat ki ⟨rfl, by omega⟩) (Affine.ofNat 512 ⟨rfl, by norm_num⟩) ⟨rfl, by omega, by omega⟩)
      (Affine.ofNat j ⟨rfl, by omega⟩) ⟨rfl, by omega, by omega⟩
  have hB : IsInt (Scalar.addi (Scalar.addi (Scalar.muli (BitVec.ofNat 32 qi) 512#32) (BitVec.ofNat 32 r)) 1#32) ((qi : ℤ) * 512 + r + 1) :=
    Affine.addi (Affine.addi (Affine.muli (Affine.ofNat qi ⟨rfl, by omega⟩) (Affine.ofNat 512 ⟨rfl, by norm_num⟩) ⟨rfl, by omega, by omega⟩)
      (Affine.ofNat r ⟨rfl, by omega⟩) ⟨rfl, by omega, by omega⟩) (Affine.ofNat 1 ⟨rfl, by norm_num⟩) ⟨rfl, by omega, by omega⟩
  constructor
  · intro h
    by_contra hn
    exact Affine.sle_fails hA hB (by omega) h
  · intro h
    exact Affine.sle_holds hA hB (by omega)

/-- The band mask of the body at (r, j): set exactly when the key position is at most one past the query position. -/
theorem mask_apply (qi ki : Fin 4) (r j : Fin 512) :
    (cmpi .sle (addi (broadcast S512x512 (Scalar.muli (BitVec.ofNat 32 ki.val) 512#32)) (iota .tc S512x512 32 [1] iota_S512x512_d1_w32))
        (addi (addi (broadcast S512x512 (Scalar.muli (BitVec.ofNat 32 qi.val) 512#32)) (iota .tc S512x512 32 [0] iota_S512x512_d0_w32))
          (broadcast S512x512 1#32))) (ix2 r j) = 1#1
      ↔ ki.val * 512 + j.val ≤ qi.val * 512 + r.val + 1 := by
  have e0 : iota .tc S512x512 32 [0] iota_S512x512_d0_w32 (ix2 r j) = BitVec.ofNat 32 r.val :=
    iota_single_apply .tc S512x512 32 0 iota_S512x512_d0_w32 (ix2 r j)
  have e1 : iota .tc S512x512 32 [1] iota_S512x512_d1_w32 (ix2 r j) = BitVec.ofNat 32 j.val :=
    iota_single_apply .tc S512x512 32 1 iota_S512x512_d1_w32 (ix2 r j)
  show IntOp.cmpi .sle (IntOp.addi (Scalar.muli (BitVec.ofNat 32 ki.val) 512#32) (iota .tc S512x512 32 [1] iota_S512x512_d1_w32 (ix2 r j)))
        (IntOp.addi (IntOp.addi (Scalar.muli (BitVec.ofNat 32 qi.val) 512#32) (iota .tc S512x512 32 [0] iota_S512x512_d0_w32 (ix2 r j))) 1#32) = 1#1 ↔ _
  rw [e0, e1]
  exact band_bit qi.val ki.val r.val j.val qi.isLt ki.isLt r.isLt j.isLt

/-- The constant the body masks with is −∞ at the idealized floats. -/
theorem neg_big_bot : Named.named (F := Ideal) κ "neg_big" (φ := .f32) 0xF149F2CA#32 = ⊥ :=
  IdealRules.named_const.ideal_named_scalar _ _ _ _ rfl

/-- The masked scores at (r, j): the dot product of query row r with key row j inside the band, −∞ outside. -/
theorem pay8_apply (qi ki : Fin 4) (q k : Vec Ideal S1x512x2048 .bf16) (r j : Fin 512) :
    k3_pay8 (F := Ideal) (BitVec.ofNat 32 qi.val) (BitVec.ofNat 32 ki.val) q k (ix2 r j)
      = if ki.val * 512 + j.val ≤ qi.val * 512 + r.val + 1 then
          ∑ h : Fin 2048, q (ix3 (0 : Fin 1) r h) * k (ix3 (0 : Fin 1) j h) else ⊥ := by
  unfold k3_pay8
  refine (select_apply _ _ _ _).trans ?_
  by_cases hb : ki.val * 512 + j.val ≤ qi.val * 512 + r.val + 1
  · rw [if_pos hb]
    refine (if_pos ((mask_apply qi ki r j).mpr hb)).trans ?_
    refine (qk_apply _ _ r j).trans ?_
    refine Finset.sum_congr rfl fun h _ => ?_
    rw [shapeCast_1ab_ab_apply, shapeCast_1ab_ab_apply]
  · rw [if_neg hb]
    refine (if_neg (mt (mask_apply qi ki r j).mp hb)).trans ?_
    exact neg_big_bot

/-! ## The body's payloads at an index -/

/-- The masked scores of key tile `ki` against row `r` of query block `qi`. -/
def tileRow (qi ki : Fin 4) (q k : Vec Ideal S1x512x2048 .bf16) (r : Fin 512) : Fin 512 → EReal :=
  fun j => if ki.val * 512 + j.val ≤ qi.val * 512 + r.val + 1 then
    ∑ h : Fin 2048, q (ix3 (0 : Fin 1) r h) * k (ix3 (0 : Fin 1) j h) else ⊥

/-- The new running maximum of row r: the old one against the maximum of the tile's masked scores. -/
theorem pay9_apply (qi ki : Fin 4) (q k : Vec Ideal S1x512x2048 .bf16) (m : Vec Ideal S512x1 .f32) (r : Fin 512) :
    k3_pay9 (F := Ideal) (BitVec.ofNat 32 qi.val) (BitVec.ofNat 32 ki.val) q k m (ix2 r (0 : Fin 1))
      = max (m (ix2 r (0 : Fin 1))) ((Finset.univ : Finset (Fin 512)).fold max ⊥ (tileRow qi ki q k r)) := by
  unfold k3_pay9
  refine (maximumf_apply _ _ _).trans ?_
  refine congrArg (max (m (ix2 r (0 : Fin 1)))) ?_
  refine (shapeCast_a_a1_apply _ _ r 0).trans ?_
  refine (multiReduction_max_row _ _ _ _ _ r).trans ?_
  rw [Cert.Pool.neg_inf_pattern]
  exact congrArg (Finset.fold max ⊥ · Finset.univ) (funext fun j => pay8_apply qi ki q k r j)

/-- The factor that rescales row r's old denominator and old weighted sum. -/
theorem pay10_apply (a1 a2 : BitVec 32) (q k : Vec Ideal S1x512x2048 .bf16) (m : Vec Ideal S512x1 .f32) (r : Fin 512) :
    k3_pay10 (F := Ideal) a1 a2 q k m (ix2 r (0 : Fin 1))
      = Ideal.exp (m (ix2 r (0 : Fin 1)) - k3_pay9 (F := Ideal) a1 a2 q k m (ix2 r (0 : Fin 1))) := rfl

/-- The tile's unnormalised weights at (r, j): the exponential of the masked score less the new maximum. -/
theorem pay11_apply (a1 a2 : BitVec 32) (q k : Vec Ideal S1x512x2048 .bf16) (m : Vec Ideal S512x1 .f32) (r j : Fin 512) :
    k3_pay11 (F := Ideal) a1 a2 q k m (ix2 r j)
      = Ideal.exp (k3_pay8 (F := Ideal) a1 a2 q k (ix2 r j) - k3_pay9 (F := Ideal) a1 a2 q k m (ix2 r (0 : Fin 1))) := by
  unfold k3_pay11
  refine (exp_apply _ _).trans ?_
  refine congrArg Ideal.exp ?_
  refine (subf_apply _ _ _).trans ?_
  exact congrArg (k3_pay8 (F := Ideal) a1 a2 q k (ix2 r j) - ·) (broadcastTo_a1_ab_apply _ _ r j)

/-- The new running denominator of row r. -/
theorem pay12_apply (a1 a2 : BitVec 32) (q k : Vec Ideal S1x512x2048 .bf16) (m l : Vec Ideal S512x1 .f32) (r : Fin 512) :
    k3_pay12 (F := Ideal) a1 a2 q k m l (ix2 r (0 : Fin 1))
      = k3_pay10 (F := Ideal) a1 a2 q k m (ix2 r (0 : Fin 1)) * l (ix2 r (0 : Fin 1))
        + ∑ j : Fin 512, k3_pay11 (F := Ideal) a1 a2 q k m (ix2 r j) := by
  unfold k3_pay12
  rw [shapeCast_self]
  refine (addf_apply _ _ _).trans ?_
  refine congrArg (k3_pay10 (F := Ideal) a1 a2 q k m (ix2 r (0 : Fin 1)) * l (ix2 r (0 : Fin 1)) + ·) ?_
  refine (shapeCast_a_a1_apply _ _ r 0).trans ?_
  exact multiReduction_add_row _ _ _ _ _ r

/-- The value tile with its unit batch axis dropped. -/
theorem pay7_apply (v : Vec Ideal S1x512x2048 .bf16) (j : Fin 512) (h : Fin 2048) :
    k3_pay7 (F := Ideal) v (ix2 j h) = v (ix3 (0 : Fin 1) j h) := by
  unfold k3_pay7
  exact shapeCast_1ab_ab_apply _ _ j h

/-- The new running weighted sum at (r, h). -/
theorem pay4_apply (vt : FVec Ideal S512x2048 .bf16) (al : FVec Ideal S512x1 .f32) (p : FVec Ideal S512x512 .f32)
    (acc : Vec Ideal S512x2048 .f32) (r : Fin 512) (h : Fin 2048) :
    k3_pay4 (F := Ideal) vt al p acc (ix2 r h)
      = al (ix2 r (0 : Fin 1)) * acc (ix2 r h) + ∑ j : Fin 512, p (ix2 r j) * vt (ix2 j h) := by
  unfold k3_pay4
  rw [shapeCast_self]
  refine (addf_apply _ _ _).trans ?_
  refine congrArg₂ (· + ·) ?_ ?_
  · refine (mulf_apply _ _ _).trans ?_
    exact congrArg (· * acc (ix2 r h)) (broadcastTo_a1_ab_apply _ _ r h)
  · exact pv_apply _ _ r h

/-- The stored maximum is the computed one. -/
theorem pay5_eq (x : FVec Ideal S512x1 .f32) : k3_pay5 (F := Ideal) x = x := by
  unfold k3_pay5
  exact shapeCast_self _ _

/-- The quotient written out at (0, r, h). -/
theorem pay6_apply (acc : Vec Ideal S512x2048 .f32) (l : Vec Ideal S512x1 .f32) (r : Fin 512) (h : Fin 2048) :
    k3_pay6 (F := Ideal) acc l (ix3 (0 : Fin 1) r h) = Ideal.div (acc (ix2 r h)) (l (ix2 r (0 : Fin 1))) := by
  unfold k3_pay6
  refine (shapeCast_ab_1ab_apply _ _ 0 r h).trans ?_
  refine (divf_apply _ _ _).trans ?_
  exact congrArg (Ideal.div (acc (ix2 r h))) (broadcastTo_a1_ab_apply _ _ r h)

/-- The reset maximum is −∞ everywhere. -/
theorem pay1_apply (i : S512x1.Idx) : k3_pay1 (F := Ideal) i = ⊥ := by
  unfold k3_pay1
  rw [shapeCast_self]
  exact neg_big_bot

/-- The reset denominator is 0 everywhere. -/
theorem pay2_apply (i : S512x1.Idx) : k3_pay2 (F := Ideal) i = 0 := by
  unfold k3_pay2
  rw [shapeCast_self]
  exact Ideal.ofBits_zero_f32

/-- The reset weighted sum is 0 everywhere. -/
theorem pay3_apply (i : S512x2048.Idx) : k3_pay3 (F := Ideal) i = 0 := by
  unfold k3_pay3
  rw [shapeCast_self]
  exact Ideal.ofBits_zero_f32

end Cert.KernelIdeal.HandVal

end
-- ==== Proof.Val.Payload.lean ====
/-
  The attention body's arithmetic, read row by row at the idealized floats.

  A scratch state (running maximum, running denominator, running weighted sum — arrays of shapes [512,1], [512,1],
  [512,2048]) restricted to one of its 512 rows is a `Cert.Spec.RowSt`.  Row by row, the reset state is `rowInit`, one
  update of the body is `rowUpd` with the tile's masked scores (the dot product of the row of the query block with each
  key row of the tile, −∞ above the band) and the tile's value rows, and the quotient written out is `rowOut`.
-/
import proofs.«171499_j10831907521163_2_alg».proof.Proof.KI.Base
import proofs.«171499_j10831907521163_2_alg».proof.Proof.Val.PayAt
import proofs.«171499_j10831907521163_2_alg».proof.Proof.Val.Spec
import proofs.«171499_j10831907521163_2_alg».proof.Proof.LibRowsDot
import proofs.«171499_j10831907521163_2_alg».proof.Proof.LibMatDot
import proofs.«171499_j10831907521163_2_alg».proof.Proof.LibRows
import proofs.«171499_j10831907521163_2_alg».proof.Proof.LibColumn
import proofs.«171499_j10831907521163_2_alg».proof.Proof.LibRealValued
import Idealize.ShloMosaic.PureOps.IdealRules
import Idealize.ShloMosaic.Lib.ValueIdx
import Idealize.ShloMosaic.Lib.ValueLayout
import Idealize.ShloMosaic.Lib.Pipeline.Value

noncomputable section

namespace Cert.KernelIdeal.HandVal

open Idealize.ShloMosaic Idealize.ShloMosaic.ValueIdx
open Cert.KernelIdeal Cert.KernelIdeal.Gen Cert.KernelIdeal.Hand Cert.Spec

/-- Row `r` of a scratch state. -/
def rowOf (s : St Ideal) (r : Fin 512) : RowSt :=
  (s.1 (ix2 r (0 : Fin 1)), s.2.1 (ix2 r (0 : Fin 1)), fun h => s.2.2 (ix2 r h))

/-- The reset state, row by row. -/
theorem rowOf_init (r : Fin 512) : rowOf (stInit (F := Ideal)) r = rowInit :=
  congrArg₂ Prod.mk (pay1_apply (ix2 r (0 : Fin 1)))
    (congrArg₂ Prod.mk (pay2_apply (ix2 r (0 : Fin 1))) (funext fun h => pay3_apply (ix2 r h)))

/-- One update of the body, row by row: query block `qi`, key tile `ki`, row `r` of the block (global position
    qi·512 + r), the tile's key position j at global position ki·512 + j. -/
theorem rowOf_real (qi ki : Fin 4) (q k v : Vec Ideal S1x512x2048 .bf16) (s : St Ideal) (r : Fin 512) :
    rowOf (stReal (BitVec.ofNat 32 qi.val) (BitVec.ofNat 32 ki.val) q k v s) r
      = rowUpd (fun j : Fin 512 => if ki.val * 512 + j.val ≤ qi.val * 512 + r.val + 1 then
                  ∑ h : Fin 2048, q (ix3 (0 : Fin 1) r h) * k (ix3 (0 : Fin 1) j h) else ⊥)
               (fun (j : Fin 512) (h : Fin 2048) => v (ix3 (0 : Fin 1) j h)) (rowOf s r) := by
  obtain ⟨m, l, acc⟩ := s
  have e9 := pay9_apply qi ki q k m r
  have e10 : k3_pay10 (F := Ideal) (BitVec.ofNat 32 qi.val) (BitVec.ofNat 32 ki.val) q k m (ix2 r (0 : Fin 1))
      = Ideal.exp (m (ix2 r (0 : Fin 1))
          - max (m (ix2 r (0 : Fin 1))) ((Finset.univ : Finset (Fin 512)).fold max ⊥ (tileRow qi ki q k r))) := by
    rw [pay10_apply, e9]
  have e11 : ∀ j : Fin 512, k3_pay11 (F := Ideal) (BitVec.ofNat 32 qi.val) (BitVec.ofNat 32 ki.val) q k m (ix2 r j)
      = Ideal.exp (tileRow qi ki q k r j
          - max (m (ix2 r (0 : Fin 1))) ((Finset.univ : Finset (Fin 512)).fold max ⊥ (tileRow qi ki q k r))) := fun j => by
    rw [pay11_apply, pay8_apply, e9]
    rfl
  show (k3_pay5 (F := Ideal) (k3_pay9 (F := Ideal) (BitVec.ofNat 32 qi.val) (BitVec.ofNat 32 ki.val) q k m) (ix2 r (0 : Fin 1)),
        k3_pay12 (F := Ideal) (BitVec.ofNat 32 qi.val) (BitVec.ofNat 32 ki.val) q k m l (ix2 r (0 : Fin 1)),
        fun h => k3_pay4 (F := Ideal) (k3_pay7 (F := Ideal) v) (k3_pay10 (F := Ideal) (BitVec.ofNat 32 qi.val) (BitVec.ofNat 32 ki.val) q k m)
          (k3_pay11 (F := Ideal) (BitVec.ofNat 32 qi.val) (BitVec.ofNat 32 ki.val) q k m) acc (ix2 r h))
      = rowUpd (tileRow qi ki q k r) (fun (j : Fin 512) (h : Fin 2048) => v (ix3 (0 : Fin 1) j h))
          (m (ix2 r (0 : Fin 1)), l (ix2 r (0 : Fin 1)), fun h => acc (ix2 r h))
  unfold rowUpd
  refine congrArg₂ Prod.mk ?_ (congrArg₂ Prod.mk ?_ (funext fun h => ?_))
  · rw [pay5_eq]
    exact e9
  · rw [pay12_apply, e10]
    simp only [e11]
  · rw [pay4_apply, e10]
    simp only [e11, pay7_apply]

/-- The quotient written out, at row `r` and feature `h`. -/
theorem stOut_apply (s : St Ideal) (r : Fin 512) (h : Fin 2048) :
    stOut s (ix3 (0 : Fin 1) r h) = rowOut (rowOf s r) h := by
  unfold stOut
  exact pay6_apply _ _ r h

end Cert.KernelIdeal.HandVal

end
-- ==== Proof.Val.FlashVal.lean ====
/-
  The attention launch's scratch, followed row by row through the grid.

  One grid point's effect on a row of the scratch is a `rowUpd` with the tile's scores and value rows read off the
  projected arrays (or nothing, above the band), from the reset state when the key tile is the first.  Following the
  four key tiles of a query block, the row's state after tile n is `rowRun … (n + 1)`.
-/
import proofs.«171499_j10831907521163_2_alg».proof.Proof.Val.FlashIdx
import proofs.«171499_j10831907521163_2_alg».proof.Proof.Val.Payload

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand Cert.Spec

/-- One grid point on one row of the scratch. -/
theorem rowOf_stStep (i : grid3.Coords) (q k v : Vec Ideal S1x512x2048 .bf16) (s : St Ideal) (r : Fin 512) :
    rowOf (stStep i q k v s) r =
      if (i 2).val ≤ (i 1).val + 1 then
        rowUpd (fun j : Fin 512 => if (i 2).val * 512 + j.val ≤ (i 1).val * 512 + r.val + 1 then
                  ∑ h : Fin 2048, q (ix3 (0 : Fin 1) r h) * k (ix3 (0 : Fin 1) j h) else ⊥)
               (fun (j : Fin 512) (h : Fin 2048) => v (ix3 (0 : Fin 1) j h))
               (if (i 2).val = 0 then rowInit else rowOf s r)
      else (if (i 2).val = 0 then rowInit else rowOf s r) := by
  unfold stStep
  dsimp only
  by_cases h2 : (i 2).val ≤ (i 1).val + 1
  · rw [if_pos h2, if_pos h2]
    have e := rowOf_real ⟨(i 1).val, (i 1).isLt⟩ ⟨(i 2).val, (i 2).isLt⟩ q k v (if (i 2).val = 0 then stInit else s) r
    refine e.trans ?_
    by_cases h0 : (i 2).val = 0
    · rw [if_pos h0, if_pos h0, rowOf_init]
    · rw [if_neg h0, if_neg h0]
  · rw [if_neg h2, if_neg h2]
    by_cases h0 : (i 2).val = 0
    · rw [if_pos h0, if_pos h0, rowOf_init]
    · rw [if_neg h0, if_neg h0]

variable (V : (c : Dev nD) → (b : Ref sig .tc) → Buf (Elt Ideal) ((c : Thread nD τ).loc b))

/-- Row i of batch b of the scaled projected query, as the attention launch finds it. -/
def qRow (c : Dev nD) (b : Fin 8) (i : Fin 2048) : Fin 2048 → EReal :=
  fun h => (V c main_v8 : S8x2048x2048.Idx → Elt Ideal .bf16) (ix3 b i h)
/-- The rows of batch b of the projected key. -/
def kRows (c : Dev nD) (b : Fin 8) : Fin 2048 → Fin 2048 → EReal :=
  fun j h => (V c main_v5 : S8x2048x2048.Idx → Elt Ideal .bf16) (ix3 b j h)
/-- The rows of batch b of the projected value. -/
def vRows (c : Dev nD) (b : Fin 8) : Fin 2048 → Fin 2048 → EReal :=
  fun j h => (V c main_v11 : S8x2048x2048.Idx → Elt Ideal .bf16) (ix3 b j h)

theorem N3 : cfg3.N = 128 := N_3

/-- The global position of row r of query block qi. -/
def rowPos (qi : Fin 4) (r : Fin 512) : Fin 2048 := ⟨qi.val * 512 + r.val, by have := qi.isLt; have := r.isLt; omega⟩

/-- One grid point, t = 16·b + 4·qi + n, on row r of its query block: from the row's state `prev` before the point
    (the reset state when n = 0) the tile's update when the tile meets the band, nothing otherwise. -/
theorem row_point (c : Dev nD) (t : Fin cfg3.N) (b : Fin 8) (qi : Fin 4) (n : ℕ) (hn : n < 4)
    (ht : t.val = 16 * b.val + 4 * qi.val + n) (r : Fin 512) (prev : RowSt)
    (hprev : n ≠ 0 → rowOf (stAt V c t.val (Nat.le_of_lt t.isLt)) r = prev) (hprev0 : n = 0 → prev = rowInit) :
    rowOf (stAt V c (t.val + 1) t.isLt) r =
      if n ≤ qi.val + 1 then
        rowUpd (tileScore (qRow V c b (rowPos qi r)) (kRows V c b) (rowPos qi r) n hn)
          (fun j => vRows V c b (tilePos n hn j)) prev
      else prev := by
  have hb := b.isLt
  have hq := qi.isLt
  have hr := r.isLt
  obtain ⟨f0, f1, f2, -⟩ := idx_facts3 t
  have e1 : (grid3.coords t 1).val = qi.val := by rw [f1, ht]; omega
  have e2 : (grid3.coords t 2).val = n := by rw [f2, ht]; omega
  have e0 : t.val / 16 = b.val := by rw [ht]; omega
  have e1' : t.val / 4 % 4 = qi.val := by rw [ht]; omega
  have e2' : t.val % 4 = n := by rw [ht]; omega
  show rowOf (stStep (grid3.coords t) (iblk3 V c 0 t) (iblk3 V c 1 t) (iblk3 V c 2 t) (stAt V c t.val (Nat.le_of_lt t.isLt))) r = _
  rw [rowOf_stStep, e1, e2]
  have hp : (if n = 0 then rowInit else rowOf (stAt V c t.val (Nat.le_of_lt t.isLt)) r) = prev := by
    by_cases h0 : n = 0
    · rw [if_pos h0, hprev0 h0]
    · rw [if_neg h0, hprev h0]
  rw [hp]
  by_cases hc : n ≤ qi.val + 1
  · rw [if_pos hc, if_pos hc]
    have hmin : min (t.val % 4) (t.val / 4 % 4 + 1) = n := by rw [e1', e2']; omega
    congr 1
    · funext j
      have hj := j.isLt
      unfold tileScore
      refine if_congr Iff.rfl (Finset.sum_congr rfl fun h _ => ?_) rfl
      congr 1
      · exact iblk3_0_apply V c t (ix3 (0 : Fin 1) r h) (ix3 b (rowPos qi r) h)
          (by show b.val = t.val / 16; omega) (by show qi.val * 512 + r.val = t.val / 4 % 4 * 512 + r.val; rw [e1']) rfl
      · exact iblk3_1_apply V c t (ix3 (0 : Fin 1) j h) (ix3 b (tilePos n hn j) h)
          (by show b.val = t.val / 16; omega) (by show n * 512 + j.val = min (t.val % 4) (t.val / 4 % 4 + 1) * 512 + j.val; rw [hmin]) rfl
    · funext j h
      exact iblk3_2_apply V c t (ix3 (0 : Fin 1) j h) (ix3 b (tilePos n hn j) h)
        (by show b.val = t.val / 16; omega) (by show n * 512 + j.val = min (t.val % 4) (t.val / 4 % 4 + 1) * 512 + j.val; rw [hmin]) rfl
  · rw [if_neg hc, if_neg hc]

/-- Row r of query block qi of batch b, after key tile n (n = 0 … 3): the row recurrence after n + 1 tiles. -/
theorem row_after (c : Dev nD) (b : Fin 8) (qi : Fin 4) (r : Fin 512) : ∀ (n : ℕ) (hn : n < 4),
    rowOf (stAt V c (16 * b.val + 4 * qi.val + n + 1) (by rw [N3]; have := b.isLt; have := qi.isLt; omega)) r
      = rowRun (qRow V c b (rowPos qi r)) (kRows V c b) (vRows V c b) (rowPos qi r) (n + 1) (by omega) := by
  have hb := b.isLt
  have hq := qi.isLt
  have hr := r.isLt
  have hdiv : (rowPos qi r).val / 512 = qi.val := by show (qi.val * 512 + r.val) / 512 = qi.val; omega
  intro n
  induction n with
  | zero =>
    intro hn
    have hlt : 16 * b.val + 4 * qi.val + 0 < cfg3.N := by rw [N3]; omega
    refine (row_point V c ⟨16 * b.val + 4 * qi.val + 0, hlt⟩ b qi 0 hn rfl r rowInit (fun h => absurd rfl h) (fun _ => rfl)).trans ?_
    show _ = (if 0 ≤ (rowPos qi r).val / 512 + 1 then _ else _)
    rw [hdiv]
    rfl
  | succ n ih =>
    intro hn
    have hlt : 16 * b.val + 4 * qi.val + (n + 1) < cfg3.N := by rw [N3]; omega
    have ih' := ih (by omega)
    refine (row_point V c ⟨16 * b.val + 4 * qi.val + (n + 1), hlt⟩ b qi (n + 1) hn rfl r
      (rowRun (qRow V c b (rowPos qi r)) (kRows V c b) (vRows V c b) (rowPos qi r) (n + 1) (by omega))
      (fun _ => ih') (fun h => absurd h (Nat.succ_ne_zero n))).trans ?_
    show _ = (if n + 1 ≤ (rowPos qi r).val / 512 + 1 then _ else _)
    rw [hdiv]

end Cert.KernelIdeal.HandVal

end
-- ==== Proof.Val.FlashFinal.lean ====
/-
  The attention launch's result array.

  Only a query block's last key tile writes its output block back; what it writes, row r of the block, is the
  quotient of the row's state after all four key tiles.  The 32 written blocks (8 batches × 4 query blocks) tile
  the [8, 2048, 2048] array, so the array ends holding, at (b, i, h), the quotient of the row recurrence of query
  position i of batch b.
-/
import proofs.«171499_j10831907521163_2_alg».proof.Proof.Val.FlashVal
import proofs.«171499_j10831907521163_2_alg».proof.Proof.KI.Flash

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand Cert.Spec
open Idealize.ShloMosaic.Pipeline (Dat)

variable (V : (c : Dev nD) → (b : Ref sig .tc) → Buf (Elt Ideal) ((c : Thread nD τ).loc b))

/-- The result as one function of the three projected arrays: at (b, i, h) the quotient of query row i's recurrence. -/
def flashG (c : Dev nD) : S8x2048x2048.Idx → Elt Ideal .f32 := fun idx =>
  rowOut (rowRun (qRow V c ⟨(idx 0).val, (idx 0).isLt⟩ ⟨(idx 1).val, (idx 1).isLt⟩) (kRows V c ⟨(idx 0).val, (idx 0).isLt⟩)
    (vRows V c ⟨(idx 0).val, (idx 0).isLt⟩) ⟨(idx 1).val, (idx 1).isLt⟩ 4 le_rfl) ⟨(idx 2).val, (idx 2).isLt⟩

/-- `flashG` at an index whose coordinates are (b, i, h). -/
theorem flashG_apply (c : Dev nD) (idx : S8x2048x2048.Idx) (b : Fin 8) (i h : Fin 2048)
    (e0 : (idx 0).val = b.val) (e1 : (idx 1).val = i.val) (e2 : (idx 2).val = h.val) :
    flashG V c idx = rowOut (rowRun (qRow V c b i) (kRows V c b) (vRows V c b) i 4 le_rfl) h := by
  have i0 : (⟨(idx 0).val, (idx 0).isLt⟩ : Fin 8) = b := Fin.ext e0
  have i1 : (⟨(idx 1).val, (idx 1).isLt⟩ : Fin 2048) = i := Fin.ext e1
  have i2 : (⟨(idx 2).val, (idx 2).isLt⟩ : Fin 2048) = h := Fin.ext e2
  unfold flashG
  rw [i0, i1, i2]

/-- The scratch after a number of points does not depend on how the number is written. -/
theorem stAt_congr (c : Dev nD) {n n' : ℕ} (e : n = n') (h : n ≤ cfg3.N) (h' : n' ≤ cfg3.N) :
    stAt V c n h = stAt V c n' h' := by
  subst e; rfl

/-- What a query block's last key tile writes back is the block of `flashG`. -/
theorem flushed3_eq (c : Dev nD) (t : Fin cfg3.N) (hf : (cfg3.win 3).flush t = true) :
    (dat3 V c).flushed 3 t = ((cfg3.win 3).blk t).view.read (Elt Ideal) (flashG V c) := by
  have h3 : t.val % 4 = 3 := (flush3_3 t).mp hf
  have hN : t.val < 128 := lt_of_lt_of_eq t.isLt N3
  obtain ⟨-, -, -, -, -, -, -, -, -, -, -, -, g0, g1, g2⟩ := idx_facts3 t
  show (cfg3.win 3).cut (grid3.coords t) ((dat3 V c).after 3 t) = _
  rw [after3_3]
  funext y
  show stOut (stAt V c (t.val + 1) t.isLt) y = flashG V c (((cfg3.win 3).blk t).view.emb y)
  obtain ⟨z, r, h, rfl⟩ : ∃ (z : Fin 1) (r : Fin 512) (h : Fin 2048), y = ix3 z r h := ⟨y 0, y 1, y 2, eq_ix3 y⟩
  obtain rfl : z = 0 := Subsingleton.elim _ _
  rw [stOut_apply]
  -- the point is t = 16·b + 4·qi + 3
  have hr := r.isLt
  have hh := h.isLt
  have hb : t.val / 16 < 8 := by omega
  have hq : t.val / 4 % 4 < 4 := by omega
  have ht : t.val = 16 * (t.val / 16) + 4 * (t.val / 4 % 4) + 3 := by omega
  have hrow := row_after V c ⟨t.val / 16, hb⟩ ⟨t.val / 4 % 4, hq⟩ r 3 (by omega)
  have e0 : ((((cfg3.win 3).blk t).view.emb (ix3 (0 : Fin 1) r h)) 0).val = t.val / 16 := by
    show win3_3.index t 0 * 1 + 1 * 0 = t.val / 16; rw [g0]; omega
  have e1 : ((((cfg3.win 3).blk t).view.emb (ix3 (0 : Fin 1) r h)) 1).val = t.val / 4 % 4 * 512 + r.val := by
    show win3_3.index t 1 * 512 + 1 * r.val = _; rw [g1]; omega
  have e2 : ((((cfg3.win 3).blk t).view.emb (ix3 (0 : Fin 1) r h)) 2).val = h.val := by
    show win3_3.index t 2 * 2048 + 1 * h.val = _; rw [g2]; omega
  rw [stAt_congr V c (show t.val + 1 = 16 * (t.val / 16) + 4 * (t.val / 4 % 4) + 3 + 1 by omega) t.isLt (by have := N3; omega), hrow]
  exact (flashG_apply V c _ ⟨t.val / 16, hb⟩ (rowPos ⟨t.val / 4 % 4, hq⟩ r) h e0 e1 e2).symm

/-- An index of the result array is in point t's block iff each coordinate is in the block's range on its axis. -/
theorem mem_blk3 (t : Fin cfg3.N) (i : S8x2048x2048.Idx) :
    i ∈ ((cfg3.win 3).blk t).view.set ↔ ∀ a : Fin 3, win3_3.index t a * S1x512x2048.size a ≤ (i a).val
      ∧ (i a).val < win3_3.index t a * S1x512x2048.size a + S1x512x2048.size a := by
  show i ∈ ((View.whole main_v12).slice (win3_3.rect t)).set ↔ _
  rw [View.set_slice_whole, Rect.mem_set_unit]
  exact Iff.rfl

/-- The result array after the launch: `flashG` of the three projected arrays the launch found. -/
theorem flash_final (c : Dev nD) : (dat3 V c).arrAt 3 cfg3.N = flashG V c :=
  (dat3 V c).arrAt_eq_of_cover 3 (flashG V c) (flushed3_eq V c) fun i => by
    have h0 : (i 0).val < 8 := (i 0).isLt
    have h1 : (i 1).val < 2048 := (i 1).isLt
    have h2 : (i 2).val < 2048 := (i 2).isLt
    have hlt : 16 * (i 0).val + 4 * ((i 1).val / 512) + 3 < cfg3.N := by rw [N3]; omega
    refine ⟨⟨16 * (i 0).val + 4 * ((i 1).val / 512) + 3, hlt⟩, (flush3_3 _).mpr (by show (16 * (i 0).val + 4 * ((i 1).val / 512) + 3) % 4 = 3; omega), ?_⟩
    obtain ⟨-, -, -, -, -, -, -, -, -, -, -, -, g0, g1, g2⟩ := idx_facts3 ⟨16 * (i 0).val + 4 * ((i 1).val / 512) + 3, hlt⟩
    rw [mem_blk3]
    intro a
    match a with
    | ⟨0, _⟩ =>
      show win3_3.index _ 0 * 1 ≤ (i 0).val ∧ (i 0).val < win3_3.index _ 0 * 1 + 1
      rw [g0]; show (16 * (i 0).val + 4 * ((i 1).val / 512) + 3) / 16 * 1 ≤ (i 0).val ∧ (i 0).val < (16 * (i 0).val + 4 * ((i 1).val / 512) + 3) / 16 * 1 + 1
      omega
    | ⟨1, _⟩ =>
      show win3_3.index _ 1 * 512 ≤ (i 1).val ∧ (i 1).val < win3_3.index _ 1 * 512 + 512
      rw [g1]; show (16 * (i 0).val + 4 * ((i 1).val / 512) + 3) / 4 % 4 * 512 ≤ (i 1).val ∧ (i 1).val < (16 * (i 0).val + 4 * ((i 1).val / 512) + 3) / 4 % 4 * 512 + 512
      omega
    | ⟨2, _⟩ =>
      show win3_3.index _ 2 * 2048 ≤ (i 2).val ∧ (i 2).val < win3_3.index _ 2 * 2048 + 2048
      rw [g2]; omega

end Cert.KernelIdeal.HandVal

end
-- ==== Proof.Val.ProjVal.lean ====
/-
  The value of the three projection launches on the extended reals.

  Each launch multiplies the [16384, 1024] array of rows by the transpose of a [2048, 1024] weight, 1024 rows at a
  grid point: point `t` reads rows `1024·t … 1024·t + 1023` and the whole weight, and writes the same rows of the
  [16384, 2048] result. On the extended reals the roundings to bf16 are the identity and the product into a zero
  accumulator is the plain sum, so entry (r, h) of the result is

      Σ_{e < 1024} rows[r, e] · weight[h, e]

  (times the constant 1/32, kept as its word, in the query launch). The steps: the body's stored value at an entry
  of its block; the two input blocks as entries of their arrays; hence what a point writes back is its block of the
  one whole-array function `projArr`; every row lies in the block of the point `r / 1024`; so the array ends
  holding `projArr`.
-/
import proofs.«171499_j10831907521163_2_alg».proof.Proof.KI.Proj
import proofs.«171499_j10831907521163_2_alg».proof.Proof.LibRowsDot
import proofs.«171499_j10831907521163_2_alg».proof.Proof.LibRows
import Idealize.ShloMosaic.Lib.Pipeline.Value
import Idealize.ShloMosaic.Lib.ValueIdx
import Idealize.ShloMosaic.PureOps.Ideal.Laws

noncomputable section

open scoped BigOperators

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## The product at an entry -/

/-- The dimension numbers of the three bodies' product: both operands contracted along their last axis. -/
abbrev projDims : DotDims S1024x1024 S2048x1024 S1024x2048 := dot_S1024x1024_S2048x1024_S1024x2048_1_1_0_0_n_n

/-- Where the product reads its operands: the left one at (row of the entry, contraction position), the right one at
    (column of the entry, contraction position). -/
theorem projDims_l0 (j : S1024x2048.Idx) (c : projDims.contr.Idx) : (projDims.lhsIdx j c 0).val = (j 0).val := by
  unfold DotDims.lhsIdx
  rw [dif_neg (show ¬(0 : Fin S1024x1024.rank) ∈ projDims.lhsBatch by decide), dif_pos (show (0 : Fin S1024x1024.rank) ∈ projDims.lhsNonContracting by decide)]
  rfl
theorem projDims_l1 (j : S1024x2048.Idx) (c : projDims.contr.Idx) : (projDims.lhsIdx j c 1).val = (c ⟨0, by decide⟩).val :=
  projDims.lhsIdx_val_of_single rfl j c
theorem projDims_r0 (j : S1024x2048.Idx) (c : projDims.contr.Idx) : (projDims.rhsIdx j c 0).val = (j 1).val := by
  unfold DotDims.rhsIdx
  rw [dif_neg (show ¬(0 : Fin S2048x1024.rank) ∈ projDims.rhsBatch by decide), dif_pos (show (0 : Fin S2048x1024.rank) ∈ projDims.rhsNonContracting by decide)]
  rfl
theorem projDims_r1 (j : S1024x2048.Idx) (c : projDims.contr.Idx) : (projDims.rhsIdx j c 1).val = (c ⟨0, by decide⟩).val :=
  projDims.rhsIdx_val_of_single rfl j c

/-- The product into the zero accumulator at entry (p, q): row `p` of the left operand against row `q` of the right. -/
theorem proj_matmul_apply (x : FVec Ideal S1024x1024 .bf16) (w : FVec Ideal S2048x1024 .bf16) (p : Fin 1024) (q : Fin 2048) :
    FloatOps.matmul projDims none x w (constant (F := Ideal) S1024x2048 .f32 0x00000000#32) (ix2 p q)
      = ∑ e : Fin 1024, x (ix2 p e) * w (ix2 q e) :=
  Cert.Lora.rows_dot_zero (M := 1024) (N := 2048) (K := 1024) projDims none rfl rfl projDims_l0 projDims_l1 projDims_r0 projDims_r1 x w p q

/-- The key launch's stored value at entry (p, q) of its block: the casts keep the shape and the roundings are the
    identity, so it is the product's entry. -/
theorem k0_pay1_apply (x0 : Vec Ideal S1024x1024 .f32) (x1 : Vec Ideal S2048x1024 .bf16) (p : Fin 1024) (q : Fin 2048) :
    k0_pay1 (F := Ideal) x0 x1 (ix2 p q) = ∑ e : Fin 1024, x0 (ix2 p e) * x1 (ix2 q e) := by
  unfold k0_pay1
  simp only [shapeCast_self]
  exact proj_matmul_apply _ _ p q

/-- The query launch's stored value at entry (p, q): the product's entry times the broadcast constant. -/
theorem k1_pay1_apply (x0 : Vec Ideal S1024x1024 .f32) (x1 : Vec Ideal S2048x1024 .bf16) (p : Fin 1024) (q : Fin 2048) :
    k1_pay1 (F := Ideal) x0 x1 (ix2 p q)
      = (∑ e : Fin 1024, x0 (ix2 p e) * x1 (ix2 q e)) * Ideal.ofBits .f32 0x3D000000#32 := by
  unfold k1_pay1
  simp only [shapeCast_self]
  exact congrArg (· * Ideal.ofBits .f32 0x3D000000#32) (proj_matmul_apply _ _ p q)

/-- The value launch's stored value at entry (p, q): as the key launch's. -/
theorem k2_pay1_apply (x0 : Vec Ideal S1024x1024 .f32) (x1 : Vec Ideal S2048x1024 .bf16) (p : Fin 1024) (q : Fin 2048) :
    k2_pay1 (F := Ideal) x0 x1 (ix2 p q) = ∑ e : Fin 1024, x0 (ix2 p e) * x1 (ix2 q e) := by
  unfold k2_pay1
  simp only [shapeCast_self]
  exact proj_matmul_apply _ _ p q

/-! ## The whole result as one function of the two arrays -/

/-- Entry (r, h) of rows · weightᵀ. -/
def projArr (X : Vec Ideal S16384x1024 .f32) (W : Vec Ideal S2048x1024 .bf16) : Vec Ideal S16384x2048 .bf16 :=
  fun i => ∑ e : Fin 1024, X (ix2 (⟨(i 0).val, (i 0).isLt⟩ : Fin 16384) e) * W (ix2 (⟨(i 1).val, (i 1).isLt⟩ : Fin 2048) e)

theorem projArr_apply (X : Vec Ideal S16384x1024 .f32) (W : Vec Ideal S2048x1024 .bf16) (r : Fin 16384) (h : Fin 2048) :
    projArr X W (ix2 r h) = ∑ e : Fin 1024, X (ix2 r e) * W (ix2 h e) := rfl

/-- The same, every entry times the query launch's constant. -/
def projArrScaled (X : Vec Ideal S16384x1024 .f32) (W : Vec Ideal S2048x1024 .bf16) : Vec Ideal S16384x2048 .bf16 :=
  fun i => projArr X W i * Ideal.ofBits .f32 0x3D000000#32

theorem projArrScaled_apply (X : Vec Ideal S16384x1024 .f32) (W : Vec Ideal S2048x1024 .bf16) (r : Fin 16384) (h : Fin 2048) :
    projArrScaled X W (ix2 r h) = (∑ e : Fin 1024, X (ix2 r e) * W (ix2 h e)) * Ideal.ofBits .f32 0x3D000000#32 := rfl

/-- A block of 1024 rows against the whole weight: if `x0` is rows `1024·n …` of `X` and `x1` is `W`, the block's
    sum at (p, q) is the whole-array function at the entry with row `1024·n + p` and column `q`. -/
theorem block_sum (x0 : Vec Ideal S1024x1024 .f32) (x1 : Vec Ideal S2048x1024 .bf16)
    (X : Vec Ideal S16384x1024 .f32) (W : Vec Ideal S2048x1024 .bf16) (n : Nat)
    (h0 : ∀ (p e : Fin 1024) (r : Fin 16384), r.val = n * 1024 + p.val → x0 (ix2 p e) = X (ix2 r e))
    (h1 : ∀ (q : Fin 2048) (e : Fin 1024), x1 (ix2 q e) = W (ix2 q e))
    (p : Fin 1024) (q : Fin 2048) (i : S16384x2048.Idx) (hi0 : (i 0).val = n * 1024 + p.val) (hi1 : (i 1).val = q.val) :
    ∑ e : Fin 1024, x0 (ix2 p e) * x1 (ix2 q e) = projArr X W i := by
  unfold projArr
  refine Finset.sum_congr rfl fun e _ => ?_
  have hq : (⟨(i 1).val, (i 1).isLt⟩ : Fin 2048) = q := Fin.ext hi1
  rw [h0 p e ⟨(i 0).val, (i 0).isLt⟩ hi0, h1 q e, hq]

variable (V : (c : Dev nD) → (b : Ref sig .tc) → Buf (Elt Ideal) ((c : Thread nD τ).loc b))

/-! ## Launch 0: the key projection -/

/-- The block indices at point `t`: the rows' and the result's block is number `t` along the rows and 0 along the
    columns; the weight's block is the whole weight. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows' block at point `t`, entry (p, e), is the array's entry (1024·t + p, e). -/
theorem iblk0_in (c : Dev nD) (t : Fin cfg0.N) (p e : Fin 1024) (r : Fin 16384) (hr : r.val = t.val * 1024 + p.val) :
    (iblk0 V c 0 t : Vec Ideal S1024x1024 .f32) (ix2 p e) = (V c main_v3 : Vec Ideal S16384x1024 .f32) (ix2 r e) := by
  obtain ⟨e0, e1, -⟩ := idx0 t
  unfold iblk0
  rw [View.read_apply]
  show V c main_v3 _ = V c main_v3 _
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * e.val = e.val; omega

/-- The weight's block at any point is the weight. -/
theorem iblk0_w (c : Dev nD) (t : Fin cfg0.N) (q : Fin 2048) (e : Fin 1024) :
    (iblk0 V c 1 t : Vec Ideal S2048x1024 .bf16) (ix2 q e) = (V c main_v0 : Vec Ideal S2048x1024 .bf16) (ix2 q e) := by
  obtain ⟨-, -, e2, e3, -⟩ := idx0 t
  unfold iblk0
  rw [View.read_apply]
  show V c main_v0 _ = V c main_v0 _
  refine congrArg _ (funext fun a => Fin.ext ?_)
  match a with
  | ⟨0, _⟩ => show win0_1.index t (0 : Fin 2) * 2048 + 1 * q.val = q.val; omega
  | ⟨1, _⟩ => show win0_1.index t (1 : Fin 2) * 1024 + 1 * e.val = e.val; omega

/-- The body's stored value, over a block of rows `1024·n …` of `X` and the whole of `W`, at an entry of the block
    is the whole-array function at the entry it is written to. -/
theorem blockval0 (x0 : Vec Ideal S1024x1024 .f32) (x1 : Vec Ideal S2048x1024 .bf16)
    (X : Vec Ideal S16384x1024 .f32) (W : Vec Ideal S2048x1024 .bf16) (n : Nat)
    (h0 : ∀ (p e : Fin 1024) (r : Fin 16384), r.val = n * 1024 + p.val → x0 (ix2 p e) = X (ix2 r e))
    (h1 : ∀ (q : Fin 2048) (e : Fin 1024), x1 (ix2 q e) = W (ix2 q e))
    (y : S1024x2048.Idx) (i : S16384x2048.Idx) (hi0 : (i 0).val = n * 1024 + (y 0).val) (hi1 : (i 1).val = (y 1).val) :
    k0_pay1 (F := Ideal) x0 x1 y = projArr X W i := by
  obtain ⟨p, q, rfl⟩ : ∃ (p : Fin 1024) (q : Fin 2048), y = ix2 p q := ⟨y 0, y 1, eq_ix2 y⟩
  exact (k0_pay1_apply x0 x1 p q).trans (block_sum x0 x1 X W n h0 h1 p q i hi0 hi1)

/-- What point `t` writes back is its block of the whole-array function. -/
theorem flushed0_eq (c : Dev nD) (t : Fin cfg0.N) :
    (dat0 (F := Ideal) V c).flushed 2 t
      = ((cfg0.win 2).blk t).view.read (Elt Ideal) (projArr (V c main_v3) (V c main_v0)) := by
  show (cfg0.win 2).cut (grid0.coords t) ((dat0 V c).after 2 t) = _
  rw [after0_2, out0_2_eq]
  obtain ⟨-, -, -, -, e4, e5⟩ := idx0 t
  funext y
  show k0_pay1 (F := Ideal) (iblk0 V c 0 t) (iblk0 V c 1 t) ((cfg0.win 2).xinj (grid0.coords t) y)
      = projArr (V c main_v3) (V c main_v0) (((cfg0.win 2).blk t).view.emb y)
  refine blockval0 (iblk0 V c 0 t) (iblk0 V c 1 t) (V c main_v3) (V c main_v0) t.val
    (fun p e r hr => iblk0_in V c t p e r hr) (fun q e => iblk0_w V c t q e)
    ((cfg0.win 2).xinj (grid0.coords t) y) (((cfg0.win 2).blk t).view.emb y) ?_ ?_
  · show win0_2.index t (0 : Fin 2) * 1024 + 1 * (y 0).val = t.val * 1024 + (y 0).val
    omega
  · show win0_2.index t (1 : Fin 2) * 2048 + 1 * (y 1).val = (y 1).val
    omega

/-- An entry of the result is in point `t`'s block iff each coordinate is in the block's range on its axis. -/
theorem mem_blk0 (t : Fin cfg0.N) (i : S16384x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v4).slice (win0_2.rect t)).set ↔ _
  rw [View.set_slice_whole, Rect.mem_set_unit]
  exact Iff.rfl

/-- Row `r` of the result is written by the point `r / 1024`, and every point writes back. -/
theorem cover0 (i : S16384x2048.Idx) :
    ∃ t : Fin cfg0.N, (cfg0.win 2).flush t = true ∧ i ∈ ((cfg0.win 2).blk t).view.set := by
  have hN : cfg0.N = 16 := N_0
  have hi0 : (i 0).val < 16384 := (i 0).isLt
  have hi1 : (i 1).val < 2048 := (i 1).isLt
  obtain ⟨t, ht⟩ : ∃ t : Fin cfg0.N, t.val = (i 0).val / 1024 := ⟨⟨(i 0).val / 1024, by rw [hN]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- After the last point the result array holds the whole-array function of the rows and the weight as the launch
    found them. -/
theorem proj0_array (c : Dev nD) :
    (dat0 (F := Ideal) V c).arrAt 2 cfg0.N = projArr (V c main_v3) (V c main_v0) :=
  (dat0 (F := Ideal) V c).arrAt_eq_of_cover 2 (projArr (V c main_v3) (V c main_v0)) (fun t _ => flushed0_eq V c t) cover0

/-- The launch's three arrays at their literal types: the rows and the weight as the launch finds them, the result after
    the last point. -/
abbrev rows0 (c : Dev nD) : Vec Ideal S16384x1024 .f32 := V c (Pipeline.arrRef spec0 0)
abbrev weight0 (c : Dev nD) : Vec Ideal S2048x1024 .bf16 := V c (Pipeline.arrRef spec0 1)
abbrev result0 (c : Dev nD) : Vec Ideal S16384x2048 .bf16 := (dat0 (F := Ideal) V c).arrAt 2 cfg0.N

/-- Entry (r, h) of the result. -/
theorem proj0_final (c : Dev nD) (r : Fin 16384) (h : Fin 2048) :
    result0 V c (ix2 r h) = ∑ e : Fin 1024, rows0 V c (ix2 r e) * weight0 V c (ix2 h e) := by
  show (dat0 (F := Ideal) V c).arrAt 2 cfg0.N (ix2 r h) = _
  rw [proj0_array]
  rfl

/-! ## Launch 1: the query projection, scaled -/

/-- The block indices at point `t`: the rows' and the result's block is number `t` along the rows and 0 along the
    columns; the weight's block is the whole weight. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The rows' block at point `t`, entry (p, e), is the array's entry (1024·t + p, e). -/
theorem iblk1_in (c : Dev nD) (t : Fin cfg1.N) (p e : Fin 1024) (r : Fin 16384) (hr : r.val = t.val * 1024 + p.val) :
    (iblk1 V c 0 t : Vec Ideal S1024x1024 .f32) (ix2 p e) = (V c main_v6 : Vec Ideal S16384x1024 .f32) (ix2 r e) := by
  obtain ⟨e0, e1, -⟩ := idx1 t
  unfold iblk1
  rw [View.read_apply]
  show V c main_v6 _ = V c main_v6 _
  refine congrArg _ (funext fun a => Fin.ext ?_)
  match a with
  | ⟨0, _⟩ => show win1_0.index t (0 : Fin 2) * 1024 + 1 * p.val = r.val; omega
  | ⟨1, _⟩ => show win1_0.index t (1 : Fin 2) * 1024 + 1 * e.val = e.val; omega

/-- The weight's block at any point is the weight. -/
theorem iblk1_w (c : Dev nD) (t : Fin cfg1.N) (q : Fin 2048) (e : Fin 1024) :
    (iblk1 V c 1 t : Vec Ideal S2048x1024 .bf16) (ix2 q e) = (V c main_v1 : Vec Ideal S2048x1024 .bf16) (ix2 q e) := by
  obtain ⟨-, -, e2, e3, -⟩ := idx1 t
  unfold iblk1
  rw [View.read_apply]
  show V c main_v1 _ = V c main_v1 _
  refine congrArg _ (funext fun a => Fin.ext ?_)
  match a with
  | ⟨0, _⟩ => show win1_1.index t (0 : Fin 2) * 2048 + 1 * q.val = q.val; omega
  | ⟨1, _⟩ => show win1_1.index t (1 : Fin 2) * 1024 + 1 * e.val = e.val; omega

/-- The body's stored value, over a block of rows `1024·n …` of `X` and the whole of `W`, at an entry of the block
    is the whole-array function at the entry it is written to. -/
theorem blockval1 (x0 : Vec Ideal S1024x1024 .f32) (x1 : Vec Ideal S2048x1024 .bf16)
    (X : Vec Ideal S16384x1024 .f32) (W : Vec Ideal S2048x1024 .bf16) (n : Nat)
    (h0 : ∀ (p e : Fin 1024) (r : Fin 16384), r.val = n * 1024 + p.val → x0 (ix2 p e) = X (ix2 r e))
    (h1 : ∀ (q : Fin 2048) (e : Fin 1024), x1 (ix2 q e) = W (ix2 q e))
    (y : S1024x2048.Idx) (i : S16384x2048.Idx) (hi0 : (i 0).val = n * 1024 + (y 0).val) (hi1 : (i 1).val = (y 1).val) :
    k1_pay1 (F := Ideal) x0 x1 y = projArrScaled X W i := by
  obtain ⟨p, q, rfl⟩ : ∃ (p : Fin 1024) (q : Fin 2048), y = ix2 p q := ⟨y 0, y 1, eq_ix2 y⟩
  exact (k1_pay1_apply x0 x1 p q).trans
    (congrArg (· * Ideal.ofBits .f32 0x3D000000#32) (block_sum x0 x1 X W n h0 h1 p q i hi0 hi1))

/-- What point `t` writes back is its block of the whole-array function. -/
theorem flushed1_eq (c : Dev nD) (t : Fin cfg1.N) :
    (dat1 (F := Ideal) V c).flushed 2 t
      = ((cfg1.win 2).blk t).view.read (Elt Ideal) (projArrScaled (V c main_v6) (V c main_v1)) := by
  show (cfg1.win 2).cut (grid1.coords t) ((dat1 V c).after 2 t) = _
  rw [after1_2, out1_2_eq]
  obtain ⟨-, -, -, -, e4, e5⟩ := idx1 t
  funext y
  show k1_pay1 (F := Ideal) (iblk1 V c 0 t) (iblk1 V c 1 t) ((cfg1.win 2).xinj (grid1.coords t) y)
      = projArrScaled (V c main_v6) (V c main_v1) (((cfg1.win 2).blk t).view.emb y)
  refine blockval1 (iblk1 V c 0 t) (iblk1 V c 1 t) (V c main_v6) (V c main_v1) t.val
    (fun p e r hr => iblk1_in V c t p e r hr) (fun q e => iblk1_w V c t q e)
    ((cfg1.win 2).xinj (grid1.coords t) y) (((cfg1.win 2).blk t).view.emb y) ?_ ?_
  · show win1_2.index t (0 : Fin 2) * 1024 + 1 * (y 0).val = t.val * 1024 + (y 0).val
    omega
  · show win1_2.index t (1 : Fin 2) * 2048 + 1 * (y 1).val = (y 1).val
    omega

/-- An entry of the result is in point `t`'s block iff each coordinate is in the block's range on its axis. -/
theorem mem_blk1 (t : Fin cfg1.N) (i : S16384x2048.Idx) :
    i ∈ ((cfg1.win 2).blk t).view.set ↔ ∀ a : Fin 2, win1_2.index t a * S1024x2048.size a ≤ (i a).val
      ∧ (i a).val < win1_2.index t a * S1024x2048.size a + S1024x2048.size a := by
  show i ∈ ((View.whole main_v7).slice (win1_2.rect t)).set ↔ _
  rw [View.set_slice_whole, Rect.mem_set_unit]
  exact Iff.rfl

/-- Row `r` of the result is written by the point `r / 1024`, and every point writes back. -/
theorem cover1 (i : S16384x2048.Idx) :
    ∃ t : Fin cfg1.N, (cfg1.win 2).flush t = true ∧ i ∈ ((cfg1.win 2).blk t).view.set := by
  have hN : cfg1.N = 16 := N_1
  have hi0 : (i 0).val < 16384 := (i 0).isLt
  have hi1 : (i 1).val < 2048 := (i 1).isLt
  obtain ⟨t, ht⟩ : ∃ t : Fin cfg1.N, t.val = (i 0).val / 1024 := ⟨⟨(i 0).val / 1024, by rw [hN]; omega⟩, rfl⟩
  obtain ⟨-, -, -, -, e4, e5⟩ := idx1 t
  refine ⟨t, flush1_2 t, ?_⟩
  rw [mem_blk1]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 2048 ≤ (i 1).val ∧ (i 1).val < win1_2.index t (1 : Fin 2) * 2048 + 2048
    omega

/-- After the last point the result array holds the whole-array function of the rows and the weight as the launch
    found them. -/
theorem proj1_array (c : Dev nD) :
    (dat1 (F := Ideal) V c).arrAt 2 cfg1.N = projArrScaled (V c main_v6) (V c main_v1) :=
  (dat1 (F := Ideal) V c).arrAt_eq_of_cover 2 (projArrScaled (V c main_v6) (V c main_v1)) (fun t _ => flushed1_eq V c t) cover1

/-- The launch's three arrays at their literal types: the rows and the weight as the launch finds them, the result after
    the last point. -/
abbrev rows1 (c : Dev nD) : Vec Ideal S16384x1024 .f32 := V c (Pipeline.arrRef spec1 0)
abbrev weight1 (c : Dev nD) : Vec Ideal S2048x1024 .bf16 := V c (Pipeline.arrRef spec1 1)
abbrev result1 (c : Dev nD) : Vec Ideal S16384x2048 .bf16 := (dat1 (F := Ideal) V c).arrAt 2 cfg1.N

/-- Entry (r, h) of the result. -/
theorem proj1_final (c : Dev nD) (r : Fin 16384) (h : Fin 2048) :
    result1 V c (ix2 r h) = (∑ e : Fin 1024, rows1 V c (ix2 r e) * weight1 V c (ix2 h e)) * Ideal.ofBits .f32 0x3D000000#32 := by
  show (dat1 (F := Ideal) V c).arrAt 2 cfg1.N (ix2 r h) = _
  rw [proj1_array]
  rfl

/-! ## Launch 2: the value projection -/

/-- The block indices at point `t`: the rows' and the result's block is number `t` along the rows and 0 along the
    columns; the weight's block is the whole weight. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The rows' block at point `t`, entry (p, e), is the array's entry (1024·t + p, e). -/
theorem iblk2_in (c : Dev nD) (t : Fin cfg2.N) (p e : Fin 1024) (r : Fin 16384) (hr : r.val = t.val * 1024 + p.val) :
    (iblk2 V c 0 t : Vec Ideal S1024x1024 .f32) (ix2 p e) = (V c main_v9 : Vec Ideal S16384x1024 .f32) (ix2 r e) := by
  obtain ⟨e0, e1, -⟩ := idx2 t
  unfold iblk2
  rw [View.read_apply]
  show V c main_v9 _ = V c main_v9 _
  refine congrArg _ (funext fun a => Fin.ext ?_)
  match a with
  | ⟨0, _⟩ => show win2_0.index t (0 : Fin 2) * 1024 + 1 * p.val = r.val; omega
  | ⟨1, _⟩ => show win2_0.index t (1 : Fin 2) * 1024 + 1 * e.val = e.val; omega

/-- The weight's block at any point is the weight. -/
theorem iblk2_w (c : Dev nD) (t : Fin cfg2.N) (q : Fin 2048) (e : Fin 1024) :
    (iblk2 V c 1 t : Vec Ideal S2048x1024 .bf16) (ix2 q e) = (V c main_v2 : Vec Ideal S2048x1024 .bf16) (ix2 q e) := by
  obtain ⟨-, -, e2, e3, -⟩ := idx2 t
  unfold iblk2
  rw [View.read_apply]
  show V c main_v2 _ = V c main_v2 _
  refine congrArg _ (funext fun a => Fin.ext ?_)
  match a with
  | ⟨0, _⟩ => show win2_1.index t (0 : Fin 2) * 2048 + 1 * q.val = q.val; omega
  | ⟨1, _⟩ => show win2_1.index t (1 : Fin 2) * 1024 + 1 * e.val = e.val; omega

/-- The body's stored value, over a block of rows `1024·n …` of `X` and the whole of `W`, at an entry of the block
    is the whole-array function at the entry it is written to. -/
theorem blockval2 (x0 : Vec Ideal S1024x1024 .f32) (x1 : Vec Ideal S2048x1024 .bf16)
    (X : Vec Ideal S16384x1024 .f32) (W : Vec Ideal S2048x1024 .bf16) (n : Nat)
    (h0 : ∀ (p e : Fin 1024) (r : Fin 16384), r.val = n * 1024 + p.val → x0 (ix2 p e) = X (ix2 r e))
    (h1 : ∀ (q : Fin 2048) (e : Fin 1024), x1 (ix2 q e) = W (ix2 q e))
    (y : S1024x2048.Idx) (i : S16384x2048.Idx) (hi0 : (i 0).val = n * 1024 + (y 0).val) (hi1 : (i 1).val = (y 1).val) :
    k2_pay1 (F := Ideal) x0 x1 y = projArr X W i := by
  obtain ⟨p, q, rfl⟩ : ∃ (p : Fin 1024) (q : Fin 2048), y = ix2 p q := ⟨y 0, y 1, eq_ix2 y⟩
  exact (k2_pay1_apply x0 x1 p q).trans (block_sum x0 x1 X W n h0 h1 p q i hi0 hi1)

/-- What point `t` writes back is its block of the whole-array function. -/
theorem flushed2_eq (c : Dev nD) (t : Fin cfg2.N) :
    (dat2 (F := Ideal) V c).flushed 2 t
      = ((cfg2.win 2).blk t).view.read (Elt Ideal) (projArr (V c main_v9) (V c main_v2)) := by
  show (cfg2.win 2).cut (grid2.coords t) ((dat2 V c).after 2 t) = _
  rw [after2_2, out2_2_eq]
  obtain ⟨-, -, -, -, e4, e5⟩ := idx2 t
  funext y
  show k2_pay1 (F := Ideal) (iblk2 V c 0 t) (iblk2 V c 1 t) ((cfg2.win 2).xinj (grid2.coords t) y)
      = projArr (V c main_v9) (V c main_v2) (((cfg2.win 2).blk t).view.emb y)
  refine blockval2 (iblk2 V c 0 t) (iblk2 V c 1 t) (V c main_v9) (V c main_v2) t.val
    (fun p e r hr => iblk2_in V c t p e r hr) (fun q e => iblk2_w V c t q e)
    ((cfg2.win 2).xinj (grid2.coords t) y) (((cfg2.win 2).blk t).view.emb y) ?_ ?_
  · show win2_2.index t (0 : Fin 2) * 1024 + 1 * (y 0).val = t.val * 1024 + (y 0).val
    omega
  · show win2_2.index t (1 : Fin 2) * 2048 + 1 * (y 1).val = (y 1).val
    omega

/-- An entry of the result is in point `t`'s block iff each coordinate is in the block's range on its axis. -/
theorem mem_blk2 (t : Fin cfg2.N) (i : S16384x2048.Idx) :
    i ∈ ((cfg2.win 2).blk t).view.set ↔ ∀ a : Fin 2, win2_2.index t a * S1024x2048.size a ≤ (i a).val
      ∧ (i a).val < win2_2.index t a * S1024x2048.size a + S1024x2048.size a := by
  show i ∈ ((View.whole main_v10).slice (win2_2.rect t)).set ↔ _
  rw [View.set_slice_whole, Rect.mem_set_unit]
  exact Iff.rfl

/-- Row `r` of the result is written by the point `r / 1024`, and every point writes back. -/
theorem cover2 (i : S16384x2048.Idx) :
    ∃ t : Fin cfg2.N, (cfg2.win 2).flush t = true ∧ i ∈ ((cfg2.win 2).blk t).view.set := by
  have hN : cfg2.N = 16 := N_2
  have hi0 : (i 0).val < 16384 := (i 0).isLt
  have hi1 : (i 1).val < 2048 := (i 1).isLt
  obtain ⟨t, ht⟩ : ∃ t : Fin cfg2.N, t.val = (i 0).val / 1024 := ⟨⟨(i 0).val / 1024, by rw [hN]; omega⟩, rfl⟩
  obtain ⟨-, -, -, -, e4, e5⟩ := idx2 t
  refine ⟨t, flush2_2 t, ?_⟩
  rw [mem_blk2]
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 2048 ≤ (i 1).val ∧ (i 1).val < win2_2.index t (1 : Fin 2) * 2048 + 2048
    omega

/-- After the last point the result array holds the whole-array function of the rows and the weight as the launch
    found them. -/
theorem proj2_array (c : Dev nD) :
    (dat2 (F := Ideal) V c).arrAt 2 cfg2.N = projArr (V c main_v9) (V c main_v2) :=
  (dat2 (F := Ideal) V c).arrAt_eq_of_cover 2 (projArr (V c main_v9) (V c main_v2)) (fun t _ => flushed2_eq V c t) cover2

/-- The launch's three arrays at their literal types: the rows and the weight as the launch finds them, the result after
    the last point. -/
abbrev rows2 (c : Dev nD) : Vec Ideal S16384x1024 .f32 := V c (Pipeline.arrRef spec2 0)
abbrev weight2 (c : Dev nD) : Vec Ideal S2048x1024 .bf16 := V c (Pipeline.arrRef spec2 1)
abbrev result2 (c : Dev nD) : Vec Ideal S16384x2048 .bf16 := (dat2 (F := Ideal) V c).arrAt 2 cfg2.N

/-- Entry (r, h) of the result. -/
theorem proj2_final (c : Dev nD) (r : Fin 16384) (h : Fin 2048) :
    result2 V c (ix2 r h) = ∑ e : Fin 1024, rows2 V c (ix2 r e) * weight2 V c (ix2 h e) := by
  show (dat2 (F := Ideal) V c).arrAt 2 cfg2.N (ix2 r h) = _
  rw [proj2_array]
  rfl

end Cert.KernelIdeal.HandVal

end
-- ==== Proof.Val.Rows.lean ====
/-
  The three projected arrays the attention launch finds, read at an index back to the arguments.

  Each is the reshape to 8 batches of 2048 rows of a projection launch's output array of 16384 rows; row b·2048 + i of
  the flat array is row i of batch b.  The projection's output entry (r, h) is the sum over the 1024 input features of
  its first input at (r, e) times its second at (h, e) — for the query projection that sum times 1/32 —, its first
  input is an argument array flattened the same way and its second a weight matrix whose change of format is the
  identity on extended reals.
-/
import proofs.«171499_j10831907521163_2_alg».proof.Proof.KI.Fold
import proofs.«171499_j10831907521163_2_alg».proof.Proof.Val.FlashVal
import proofs.«171499_j10831907521163_2_alg».proof.Proof.Val.ProjVal
import proofs.«171499_j10831907521163_2_alg».proof.Proof.Val.Spec
import Idealize.ShloMosaic.Lib.ValueIdx
import Idealize.ShloMosaic.Lib.Pipeline.Value
import Idealize.ShloMosaic.Lib.ValueLayout

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand Cert.Spec

/-! ## Rows and batches -/

/-- Row i of batch b, as a row of the flat array of 16384 rows. -/
def flatRow (b : Fin 8) (i : Fin 2048) : Fin 16384 := ⟨b.val * 2048 + i.val, by have := b.isLt; have := i.isLt; omega⟩

/-- A flat array [16384, n] cast to batches [8, 2048, n] reads, at (b, i, h), the flat array at (b·2048 + i, h). -/
theorem cast_to_batches {α : Type} {n : ℕ} (x : (⟨2, ![16384, n]⟩ : Shape).Idx → α)
    (hc : (⟨2, ![16384, n]⟩ : Shape).ShapeCasts ⟨3, ![8, 2048, n]⟩) (b : Fin 8) (i : Fin 2048) (h : Fin n) :
    shapeCast ⟨3, ![8, 2048, n]⟩ x hc (ix3 b i h) = x (ix2 (flatRow b i) h) :=
  shapeCast_apply x hc (ix3 b i h) (ix2 (flatRow b i) h) (by
    rw [Shape.rowMajor_val_two, Shape.rowMajor_val_three]
    rfl)

/-- An array of batches [8, 2048, n] cast to the flat [16384, n] reads, at (b·2048 + i, e), the array at (b, i, e). -/
theorem cast_to_rows {α : Type} {n : ℕ} (x : (⟨3, ![8, 2048, n]⟩ : Shape).Idx → α)
    (hc : (⟨3, ![8, 2048, n]⟩ : Shape).ShapeCasts ⟨2, ![16384, n]⟩) (b : Fin 8) (i : Fin 2048) (e : Fin n) :
    shapeCast ⟨2, ![16384, n]⟩ x hc (ix2 (flatRow b i) e) = x (ix3 b i e) :=
  shapeCast_apply x hc (ix2 (flatRow b i) e) (ix3 b i e) (by
    rw [Shape.rowMajor_val_two, Shape.rowMajor_val_three]
    rfl)

/-! ## What the projection launches read, at an index -/

section
variable (m : (ℓ : Loc nD τ sig) → Buf (Elt Ideal) ℓ) (ρ : Dev nD → PrngReg) (c : Dev nD)

/-- The key projection's first input: the key argument, flattened. -/
theorem key_flat_at (b : Fin 8) (i : Fin 2048) (e : Fin 1024) :
    (V1 m ρ c main_v3 : S16384x1024.Idx → Elt Ideal .f32) (ix2 (flatRow b i) e)
      = (m ((c.tc : Thread nD τ).loc main_arg0) : S8x2048x1024.Idx → Elt Ideal .f32) (ix3 b i e) := by
  rw [V1_main_v3]
  exact cast_to_rows _ _ b i e

/-- The key projection's second input: the key weights (the change of format is the identity). -/
theorem key_w_at (h : Fin 2048) (e : Fin 1024) :
    (V1 m ρ c main_v0 : S2048x1024.Idx → Elt Ideal .bf16) (ix2 h e)
      = (m ((c.tc : Thread nD τ).loc main_arg3) : S2048x1024.Idx → Elt Ideal .f32) (ix2 h e) := by
  rw [V1_main_v0]
  rfl

/-- The query projection's first input: the query argument, flattened. -/
theorem query_flat_at (b : Fin 8) (i : Fin 2048) (e : Fin 1024) :
    (V3 m ρ c main_v6 : S16384x1024.Idx → Elt Ideal .f32) (ix2 (flatRow b i) e)
      = (m ((c.tc : Thread nD τ).loc main_arg1) : S8x2048x1024.Idx → Elt Ideal .f32) (ix3 b i e) := by
  rw [V3_main_v6]
  exact cast_to_rows _ _ b i e

/-- The query projection's second input: the query weights. -/
theorem query_w_at (h : Fin 2048) (e : Fin 1024) :
    (V3 m ρ c main_v1 : S2048x1024.Idx → Elt Ideal .bf16) (ix2 h e)
      = (m ((c.tc : Thread nD τ).loc main_arg4) : S2048x1024.Idx → Elt Ideal .f32) (ix2 h e) := by
  rw [V3_main_v1]
  rfl

/-- The value projection's first input: the value argument, flattened. -/
theorem value_flat_at (b : Fin 8) (i : Fin 2048) (e : Fin 1024) :
    (V5 m ρ c main_v9 : S16384x1024.Idx → Elt Ideal .f32) (ix2 (flatRow b i) e)
      = (m ((c.tc : Thread nD τ).loc main_arg2) : S8x2048x1024.Idx → Elt Ideal .f32) (ix3 b i e) := by
  rw [V5_main_v9]
  exact cast_to_rows _ _ b i e

/-- The value projection's second input: the value weights. -/
theorem value_w_at (h : Fin 2048) (e : Fin 1024) :
    (V5 m ρ c main_v2 : S2048x1024.Idx → Elt Ideal .bf16) (ix2 h e)
      = (m ((c.tc : Thread nD τ).loc main_arg5) : S2048x1024.Idx → Elt Ideal .f32) (ix2 h e) := by
  rw [V5_main_v2]
  rfl

/-! ## What the attention launch reads -/

/-- Row i of batch b of the attention launch's query array: the projection of the query argument by the query
    weights, every entry times 1/32. -/
theorem qRow_eq (b : Fin 8) (i : Fin 2048) :
    qRow (V7 m ρ) c b i = fun h' =>
      projE (fun b t e => (m ((c.tc : Thread nD τ).loc main_arg1) : S8x2048x1024.Idx → Elt Ideal .f32) (ix3 b t e))
        (fun h e => (m ((c.tc : Thread nD τ).loc main_arg4) : S2048x1024.Idx → Elt Ideal .f32) (ix2 h e)) b i h'
        * Ideal.ofBits .f32 0x3D000000#32 := by
  funext h'
  unfold qRow
  rw [V7_main_v8]
  refine (cast_to_batches _ _ b i h').trans ?_
  refine (proj1_final (V3 m ρ) c (flatRow b i) h').trans ?_
  unfold projE
  exact congrArg (· * Ideal.ofBits .f32 0x3D000000#32)
    (Finset.sum_congr rfl fun e _ => congrArg₂ (· * ·) (query_flat_at m ρ c b i e) (query_w_at m ρ c h' e))

/-- The rows of batch b of the attention launch's key array: the projection of the key argument by the key weights. -/
theorem kRows_eq (b : Fin 8) :
    kRows (V7 m ρ) c b =
      projE (fun b t e => (m ((c.tc : Thread nD τ).loc main_arg0) : S8x2048x1024.Idx → Elt Ideal .f32) (ix3 b t e))
        (fun h e => (m ((c.tc : Thread nD τ).loc main_arg3) : S2048x1024.Idx → Elt Ideal .f32) (ix2 h e)) b := by
  funext j h'
  unfold kRows
  rw [V7_main_v5]
  refine (cast_to_batches _ _ b j h').trans ?_
  refine (proj0_final (V1 m ρ) c (flatRow b j) h').trans ?_
  unfold projE
  exact Finset.sum_congr rfl fun e _ => congrArg₂ (· * ·) (key_flat_at m ρ c b j e) (key_w_at m ρ c h' e)

/-- The rows of batch b of the attention launch's value array: the projection of the value argument by the value
    weights. -/
theorem vRows_eq (b : Fin 8) :
    vRows (V7 m ρ) c b =
      projE (fun b t e => (m ((c.tc : Thread nD τ).loc main_arg2) : S8x2048x1024.Idx → Elt Ideal .f32) (ix3 b t e))
        (fun h e => (m ((c.tc : Thread nD τ).loc main_arg5) : S2048x1024.Idx → Elt Ideal .f32) (ix2 h e)) b := by
  funext j h'
  unfold vRows
  rw [V7_main_v11]
  refine (cast_to_batches _ _ b j h').trans ?_
  refine (proj2_final (V5 m ρ) c (flatRow b j) h').trans ?_
  unfold projE
  exact Finset.sum_congr rfl fun e _ => congrArg₂ (· * ·) (value_flat_at m ρ c b j e) (value_w_at m ρ c h' e)

end

end Cert.KernelIdeal.HandVal

end
-- ==== Proof.LibSoftmax.lean ====
/-
  Softmax pooling over the reals.

  For scores `S s` and values `X s` over a finite index set, the pooled value is
  `(Σ_s e^{S s} · X s) / (Σ_s e^{S s})`.  Two facts are proved here.

  • The pooled value does not depend on a common shift of the scores: for every real `a`,
    `(Σ_s e^{S s − a} · X s) / (Σ_s e^{S s − a})` is the same number, and it is also the sum of the values weighted
    by the normalised weights `e^{S s − b} / Σ_t e^{S t − b}` for any other shift `b` (`pool_eq`).
  • Sums of shifted exponentials taken chunk by chunk can change their shift on the way: if a prefix of chunks has
    been summed with shift `μ`, multiplying by `e^{μ − μ'}` and adding the next chunk summed with shift `μ'` gives
    the longer prefix summed with shift `μ'` (`prefix_step`, `prefix_step_one`).

  Last, a sum over `m·n` positions is the sum over `m` chunks of `n` positions each (`sum_chunks`).
-/
import Mathlib

open scoped BigOperators

namespace Cert.Pool

variable {ι : Type*} [Fintype ι]

/-- A common shift of the scores cancels between numerator and denominator. -/
theorem pool_shift (S X : ι → ℝ) (a : ℝ) :
    (∑ s, Real.exp (S s - a) * X s) / (∑ s, Real.exp (S s - a))
      = (∑ s, Real.exp (S s) * X s) / (∑ s, Real.exp (S s)) := by
  have h : ∀ s, Real.exp (S s - a) = Real.exp (-a) * Real.exp (S s) := fun s => by
    rw [← Real.exp_add]; congr 1; ring
  simp only [h, mul_assoc, ← Finset.mul_sum]
  exact mul_div_mul_left _ _ (Real.exp_ne_zero _)

/-- Weighting each value by its normalised weight is dividing the weighted sum by the total weight. -/
theorem weights_sum (W X : ι → ℝ) :
    ∑ s, W s / (∑ t, W t) * X s = (∑ s, W s * X s) / (∑ t, W t) := by
  rw [Finset.sum_div]
  exact Finset.sum_congr rfl fun s _ => div_mul_eq_mul_div _ _ _

/-- The pooled value computed with shift `a` as one quotient is the pooled value computed with shift `b` as a sum of
    normalised weights times values. -/
theorem pool_eq (S X : ι → ℝ) (a b : ℝ) :
    (∑ s, Real.exp (S s - a) * X s) / (∑ s, Real.exp (S s - a))
      = ∑ s, Real.exp (S s - b) / (∑ t, Real.exp (S t - b)) * X s := by
  rw [weights_sum (fun s => Real.exp (S s - b)) X, pool_shift S X a, pool_shift S X b]

/-- Extending a chunk-prefix of weighted shifted exponentials by one chunk while moving the shift from `μ` to `μ'`. -/
theorem prefix_step {K : ℕ} (σ w : ℕ → Fin K → ℝ) (n : ℕ) (μ μ' : ℝ) :
    (∑ j ∈ Finset.range n, ∑ k, Real.exp (σ j k - μ) * w j k) * Real.exp (μ - μ')
        + ∑ k, Real.exp (σ n k - μ') * w n k
      = ∑ j ∈ Finset.range (n + 1), ∑ k, Real.exp (σ j k - μ') * w j k := by
  rw [Finset.sum_range_succ, Finset.sum_mul]
  congr 1
  refine Finset.sum_congr rfl fun j _ => ?_
  rw [Finset.sum_mul]
  refine Finset.sum_congr rfl fun k _ => ?_
  rw [mul_right_comm, ← Real.exp_add]
  congr 2
  ring

/-- The same for the plain sums of shifted exponentials. -/
theorem prefix_step_one {K : ℕ} (σ : ℕ → Fin K → ℝ) (n : ℕ) (μ μ' : ℝ) :
    (∑ j ∈ Finset.range n, ∑ k, Real.exp (σ j k - μ)) * Real.exp (μ - μ')
        + ∑ k, Real.exp (σ n k - μ')
      = ∑ j ∈ Finset.range (n + 1), ∑ k, Real.exp (σ j k - μ') := by
  have h := prefix_step σ (fun _ _ => 1) n μ μ'
  simpa only [mul_one] using h

/-- A sum over `m · n` positions, chunk by chunk: position `n·j + k` is position `k` of chunk `j`. -/
theorem sum_chunks {m n : ℕ} (hmn : 0 < m * n) (f : Fin (m * n) → ℝ) :
    ∑ s, f s = ∑ j ∈ Finset.range m, ∑ k : Fin n, f ⟨(n * j + k.val) % (m * n), Nat.mod_lt _ hmn⟩ := by
  rw [Finset.sum_range fun j => ∑ k : Fin n, f ⟨(n * j + k.val) % (m * n), Nat.mod_lt _ hmn⟩,
    ← Equiv.sum_comp finProdFinEquiv f, Fintype.sum_prod_type]
  refine Finset.sum_congr rfl fun j _ => Finset.sum_congr rfl fun k _ => congrArg f (Fin.ext ?_)
  show k.val + n * j.val = (n * j.val + k.val) % (m * n)
  have hj := j.isLt
  have hk := k.isLt
  have : n * j.val + k.val < m * n := by nlinarith
  rw [Nat.mod_eq_of_lt this]
  omega

end Cert.Pool
-- ==== Proof.Val.AlgReal.lean ====
/-
  The real-number side of the tile-by-tile softmax.

  For real scores σ on the 2048 key positions and the band j ≤ i + 1 of query row i, the masked weight of position j
  at shift μ is exp (σ j − μ) inside the band and 0 outside.  Changing the shift from μ to μ' multiplies every weight
  by exp (μ − μ').  The sum of a function over the first N positions grows by one tile of 512 positions at a time, a
  tile wholly above the band adds nothing, and the weighted mean of the values does not depend on the shift.
-/
import proofs.«171499_j10831907521163_2_alg».proof.Proof.Val.Spec
import proofs.«171499_j10831907521163_2_alg».proof.Proof.LibSoftmax

noncomputable section

namespace Cert.Spec

open scoped BigOperators

/-- A function on the 2048 positions, continued by 0 to all natural numbers. -/
def ext0 (f : Fin 2048 → ℝ) (k : ℕ) : ℝ := if h : k < 2048 then f ⟨k, h⟩ else 0

/-- The sum of `f` over the first `N` positions. -/
def psum (N : ℕ) (f : Fin 2048 → ℝ) : ℝ := ∑ k ∈ Finset.range N, ext0 f k

theorem psum_zero (f : Fin 2048 → ℝ) : psum 0 f = 0 := by simp [psum]

theorem psum_full (f : Fin 2048 → ℝ) : psum 2048 f = ∑ j, f j := by
  unfold psum
  rw [Finset.sum_range]
  refine Finset.sum_congr rfl fun j _ => ?_
  unfold ext0
  rw [dif_pos j.isLt]

/-- The first (n+1)·512 positions are the first n·512 and then tile n. -/
theorem psum_step (f : Fin 2048 → ℝ) (n : ℕ) (hn : n < 4) :
    psum ((n + 1) * 512) f = psum (n * 512) f + ∑ k : Fin 512, f (tilePos n hn k) := by
  unfold psum
  rw [Nat.succ_mul, Finset.sum_range_add, Finset.sum_range (fun x => ext0 f (n * 512 + x))]
  congr 1
  refine Finset.sum_congr rfl fun k _ => ?_
  have hk := k.isLt
  unfold ext0
  rw [dif_pos (by omega)]
  rfl

theorem psum_mul (N : ℕ) (f : Fin 2048 → ℝ) (c : ℝ) : psum N f * c = psum N (fun j => f j * c) := by
  unfold psum
  rw [Finset.sum_mul]
  refine Finset.sum_congr rfl fun k _ => ?_
  unfold ext0
  split_ifs <;> simp

/-- The masked weight of key position `j` for query row `i` at shift `μ`. -/
def wt (σ : Fin 2048 → ℝ) (i : Fin 2048) (μ : ℝ) (j : Fin 2048) : ℝ :=
  if j.val ≤ i.val + 1 then Real.exp (σ j - μ) else 0

/-- A change of shift is a common factor. -/
theorem wt_shift (σ : Fin 2048 → ℝ) (i : Fin 2048) (μ μ' : ℝ) (j : Fin 2048) :
    wt σ i μ j * Real.exp (μ - μ') = wt σ i μ' j := by
  unfold wt
  split_ifs
  · rw [← Real.exp_add]; congr 1; ring
  · simp

theorem wt_nonneg (σ : Fin 2048 → ℝ) (i : Fin 2048) (μ : ℝ) (j : Fin 2048) : 0 ≤ wt σ i μ j := by
  unfold wt
  split_ifs
  · exact (Real.exp_pos _).le
  · exact le_rfl

/-- Position 0 is in every row's band, so the total weight is positive. -/
theorem sum_wt_pos (σ : Fin 2048 → ℝ) (i : Fin 2048) (μ : ℝ) : 0 < ∑ j, wt σ i μ j := by
  refine Finset.sum_pos' (fun j _ => wt_nonneg σ i μ j) ⟨⟨0, by norm_num⟩, Finset.mem_univ _, ?_⟩
  unfold wt
  rw [if_pos (Nat.zero_le _)]
  exact Real.exp_pos _

/-- A tile above the band of the row's query block has weight 0 everywhere. -/
theorem wt_above (σ : Fin 2048 → ℝ) (i : Fin 2048) (μ : ℝ) (n : ℕ) (hn : n < 4) (habove : ¬ n ≤ i.val / 512 + 1)
    (k : Fin 512) : wt σ i μ (tilePos n hn k) = 0 := by
  unfold wt
  rw [if_neg]
  show ¬ (n * 512 + k.val ≤ i.val + 1)
  omega

/-- One more tile, with the shift moved from μ to μ': the total weight. -/
theorem step_den (σ : Fin 2048 → ℝ) (i : Fin 2048) (μ μ' : ℝ) (n : ℕ) (hn : n < 4) :
    psum (n * 512) (wt σ i μ) * Real.exp (μ - μ') + ∑ k : Fin 512, wt σ i μ' (tilePos n hn k)
      = psum ((n + 1) * 512) (wt σ i μ') := by
  rw [psum_step _ n hn, psum_mul]
  simp only [wt_shift]

/-- One more tile, with the shift moved from μ to μ': the weighted sum of feature `h` of the values. -/
theorem step_num (σ : Fin 2048 → ℝ) (vr : Fin 2048 → Fin 2048 → ℝ) (i : Fin 2048) (μ μ' : ℝ) (n : ℕ) (hn : n < 4)
    (h : Fin 2048) :
    psum (n * 512) (fun j => wt σ i μ j * vr j h) * Real.exp (μ - μ')
        + ∑ k : Fin 512, wt σ i μ' (tilePos n hn k) * vr (tilePos n hn k) h
      = psum ((n + 1) * 512) (fun j => wt σ i μ' j * vr j h) := by
  rw [psum_step _ n hn, psum_mul]
  simp only [mul_right_comm _ _ (Real.exp (μ - μ')), wt_shift]

/-- A skipped tile changes neither sum. -/
theorem skip_den (σ : Fin 2048 → ℝ) (i : Fin 2048) (μ : ℝ) (n : ℕ) (hn : n < 4) (habove : ¬ n ≤ i.val / 512 + 1) :
    psum ((n + 1) * 512) (wt σ i μ) = psum (n * 512) (wt σ i μ) := by
  rw [psum_step _ n hn]
  simp only [wt_above σ i μ n hn habove, Finset.sum_const_zero, add_zero]

theorem skip_num (σ : Fin 2048 → ℝ) (vr : Fin 2048 → Fin 2048 → ℝ) (i : Fin 2048) (μ : ℝ) (n : ℕ) (hn : n < 4)
    (habove : ¬ n ≤ i.val / 512 + 1) (h : Fin 2048) :
    psum ((n + 1) * 512) (fun j => wt σ i μ j * vr j h) = psum (n * 512) (fun j => wt σ i μ j * vr j h) := by
  rw [psum_step _ n hn]
  simp only [wt_above σ i μ n hn habove, zero_mul, Finset.sum_const_zero, add_zero]

/-- The weighted mean does not see a common factor of the weights. -/
theorem pool_factor {ι : Type*} [Fintype ι] (w w' X : ι → ℝ) (c : ℝ) (hc : c ≠ 0) (hw : ∀ j, w j = w' j * c) :
    (∑ j, w j * X j) / (∑ j, w j) = ∑ j, w' j / (∑ t, w' t) * X j := by
  rw [Cert.Pool.weights_sum]
  simp only [hw, mul_right_comm _ c, ← Finset.sum_mul]
  exact mul_div_mul_right _ _ hc

end Cert.Spec

end
-- ==== Proof.Val.AlgStep.lean ====
/-
  The extended-real bookkeeping of the tile-by-tile softmax.

  When the scaled query row dotted with key row j is the real number σ j and the value rows are real, every state
  of the row recurrence is (a shift, the total masked weight at that shift, the weighted sums of the values at that
  shift) over the positions seen so far.  Before the first tile the shift is −∞ and both sums are 0; the first tile
  contains position 0, which is in the band, so from then on the shift is a real number.  A masked position has
  score −∞ and weight exp (−∞ − μ) = 0.
-/
import proofs.«171499_j10831907521163_2_alg».proof.Proof.Val.AlgReal
import proofs.«171499_j10831907521163_2_alg».proof.Proof.LibRealValued

noncomputable section

namespace Cert.Spec

open scoped BigOperators
open Idealize.ShloMosaic

/-- The word of 1/32. -/
theorem ofBits_inv32 : Ideal.ofBits .f32 0x3D000000#32 = ((1 / 32 : ℝ) : EReal) := by
  simp [Ideal.ofBits, Ideal.ieee]
  first
    | (rw [← EReal.coe_mul]; congr 1; norm_num; done)
    | (norm_cast; norm_num; done)
    | (rw [← EReal.coe_mul]; exact congrArg _ (by norm_num))

/-- The word of 32. -/
theorem ofBits_32 : Ideal.ofBits .f32 0x42000000#32 = ((32 : ℝ) : EReal) := by
  simp [Ideal.ofBits, Ideal.ieee]
  first
    | (rw [← EReal.coe_mul]; congr 1; norm_num; done)
    | (norm_cast; norm_num; done)
    | (rw [← EReal.coe_mul]; exact congrArg _ (by norm_num))

/-- The exponential of a masked score minus a real shift is the masked weight. -/
theorem exp_mask (c : Prop) [Decidable c] (x μ : ℝ) :
    Ideal.exp ((if c then (x : EReal) else ⊥) - (μ : EReal)) = ((if c then Real.exp (x - μ) else 0 : ℝ) : EReal) := by
  split_ifs
  · rw [← EReal.coe_sub]; rfl
  · rw [EReal.bot_sub]; rfl

/-- A fold of maxima over masked real scores stays below ⊤. -/
theorem fold_mask_lt_top {ι : Type*} (s : Finset ι) (c : ι → Prop) [DecidablePred c] (x : ι → ℝ) :
    s.fold max (⊥ : EReal) (fun j => if c j then (x j : EReal) else ⊥) < ⊤ := by
  refine (Finset.fold_max_lt _).mpr ⟨bot_lt_top, fun j _ => ?_⟩
  split_ifs
  · exact EReal.coe_lt_top _
  · exact bot_lt_top

/-- An extended real between a real number and ⊤ (excluded) is a real number. -/
theorem real_of_between (y : EReal) (r : ℝ) (h1 : (r : EReal) ≤ y) (h2 : y < ⊤) : ∃ M : ℝ, y = (M : EReal) := by
  induction y using EReal.rec with
  | bot => exact absurd h1 (not_le.mpr (EReal.bot_lt_coe _))
  | top => exact absurd h2 (lt_irrefl _)
  | coe v => exact ⟨v, rfl⟩

/-- A fold of maxima over masked real scores with one unmasked position is a real number. -/
theorem fold_mask_real {ι : Type*} (s : Finset ι) (c : ι → Prop) [DecidablePred c] (x : ι → ℝ) (j0 : ι)
    (hj0 : j0 ∈ s) (hc : c j0) :
    ∃ M : ℝ, s.fold max (⊥ : EReal) (fun j => if c j then (x j : EReal) else ⊥) = (M : EReal) := by
  refine real_of_between _ (x j0) ?_ (fold_mask_lt_top s c x)
  refine (Finset.le_fold_max _).mpr (Or.inr ⟨j0, hj0, ?_⟩)
  rw [if_pos hc]

/-- The update of one tile once its new maximum is known to be the real number μ'. -/
theorem rowUpd_eq (st : Fin 512 → EReal) (vt : Fin 512 → Fin 2048 → EReal) (m l : EReal) (acc : Fin 2048 → EReal)
    (μ' : ℝ) (hM : max m ((Finset.univ : Finset (Fin 512)).fold max ⊥ st) = (μ' : EReal)) :
    rowUpd st vt (m, l, acc)
      = ((μ' : EReal), Ideal.exp (m - (μ' : EReal)) * l + ∑ j : Fin 512, Ideal.exp (st j - (μ' : EReal)),
          fun h => Ideal.exp (m - (μ' : EReal)) * acc h + ∑ j : Fin 512, Ideal.exp (st j - (μ' : EReal)) * vt j h) := by
  unfold rowUpd
  simp only [hM]

/-- The rescaling of an old sum: by exp (μ − μ') from a real shift μ, and 0 · 0 = 0 before the first tile. -/
theorem rescale (m : EReal) (μ μ' L : ℝ) (hm : m = (μ : EReal) ∨ (m = ⊥ ∧ L = 0)) :
    Ideal.exp (m - (μ' : EReal)) * (L : EReal) = ((L * Real.exp (μ - μ') : ℝ) : EReal) := by
  rcases hm with hm | ⟨hm, hL⟩
  · rw [hm, ← EReal.coe_sub, Ideal.exp_coe, ← EReal.coe_mul, mul_comm]
  · rw [hm, hL, EReal.bot_sub, Ideal.exp_bot, zero_mul, zero_mul, EReal.coe_zero]

section Run

variable (qrow : Fin 2048 → EReal) (k v : Fin 2048 → Fin 2048 → EReal) (i : Fin 2048)
  (σ : Fin 2048 → ℝ) (vr : Fin 2048 → Fin 2048 → ℝ)

/-- The masked scores of a tile, as masked real numbers. -/
theorem tileScore_eq (hs : ∀ j, ∑ h : Fin 2048, qrow h * k j h = (σ j : EReal)) (n : ℕ) (hn : n < 4) :
    tileScore qrow k i n hn
      = fun j => if (tilePos n hn j).val ≤ i.val + 1 then ((σ (tilePos n hn j) : ℝ) : EReal) else ⊥ := by
  funext j
  unfold tileScore
  rw [hs]
  rfl

/-- The weight of a tile position. -/
theorem exp_tileScore (hs : ∀ j, ∑ h : Fin 2048, qrow h * k j h = (σ j : EReal)) (n : ℕ) (hn : n < 4) (j : Fin 512)
    (μ' : ℝ) :
    Ideal.exp (tileScore qrow k i n hn j - (μ' : EReal)) = ((wt σ i μ' (tilePos n hn j) : ℝ) : EReal) := by
  rw [tileScore_eq qrow k i σ hs n hn]
  exact exp_mask _ _ _

/-- One applied tile: from a state in the standard form at shift m (real, or −∞ before the first tile) to the
    standard form at the new real shift μ'. -/
theorem upd_std (hs : ∀ j, ∑ h : Fin 2048, qrow h * k j h = (σ j : EReal)) (hv : ∀ j h, v j h = (vr j h : EReal))
    (n : ℕ) (hn : n < 4) (m : EReal) (μ μ' : ℝ) (hm : m = (μ : EReal) ∨ (m = ⊥ ∧ n = 0))
    (hM : max m ((Finset.univ : Finset (Fin 512)).fold max ⊥ (tileScore qrow k i n hn)) = (μ' : EReal)) :
    rowUpd (tileScore qrow k i n hn) (fun j => v (tilePos n hn j))
        (m, ((psum (n * 512) (wt σ i μ) : ℝ) : EReal),
          fun h => ((psum (n * 512) (fun j => wt σ i μ j * vr j h) : ℝ) : EReal))
      = ((μ' : EReal), ((psum ((n + 1) * 512) (wt σ i μ') : ℝ) : EReal),
          fun h => ((psum ((n + 1) * 512) (fun j => wt σ i μ' j * vr j h) : ℝ) : EReal)) := by
  have hz : ∀ f : Fin 2048 → ℝ, n = 0 → psum (n * 512) f = 0 := by
    intro f h0; rw [h0, Nat.zero_mul]; exact psum_zero f
  rw [rowUpd_eq _ _ _ _ _ μ' hM]
  refine Prod.ext rfl (Prod.ext ?_ ?_)
  · show Ideal.exp (m - (μ' : EReal)) * ((psum (n * 512) (wt σ i μ) : ℝ) : EReal)
        + ∑ j : Fin 512, Ideal.exp (tileScore qrow k i n hn j - (μ' : EReal)) = _
    rw [rescale m μ μ' _ (hm.imp_right fun ⟨h1, h2⟩ => ⟨h1, hz _ h2⟩)]
    simp only [exp_tileScore qrow k i σ hs n hn]
    rw [← Cert.Pool.coe_sum, ← EReal.coe_add, step_den]
  · funext h
    show Ideal.exp (m - (μ' : EReal)) * ((psum (n * 512) (fun j => wt σ i μ j * vr j h) : ℝ) : EReal)
        + ∑ j : Fin 512, Ideal.exp (tileScore qrow k i n hn j - (μ' : EReal)) * v (tilePos n hn j) h = _
    rw [rescale m μ μ' _ (hm.imp_right fun ⟨h1, h2⟩ => ⟨h1, hz _ h2⟩)]
    simp only [exp_tileScore qrow k i σ hs n hn, hv, ← EReal.coe_mul]
    rw [← Cert.Pool.coe_sum, ← EReal.coe_add, step_num]

/-- THE INVARIANT.  After the first n tiles the state is in the standard form over the first n·512 positions, at a
    shift that is a real number as soon as one tile has been applied. -/
theorem run_inv (hs : ∀ j, ∑ h : Fin 2048, qrow h * k j h = (σ j : EReal)) (hv : ∀ j h, v j h = (vr j h : EReal)) :
    ∀ (n : ℕ) (hn : n ≤ 4), ∃ (m : EReal) (μ : ℝ), (m = (μ : EReal) ∨ (m = ⊥ ∧ n = 0)) ∧
      rowRun qrow k v i n hn
        = (m, ((psum (n * 512) (wt σ i μ) : ℝ) : EReal),
            fun h => ((psum (n * 512) (fun j => wt σ i μ j * vr j h) : ℝ) : EReal)) := by
  intro n
  induction n with
  | zero =>
    intro _
    refine ⟨⊥, 0, Or.inr ⟨rfl, rfl⟩, ?_⟩
    show rowInit = _
    unfold rowInit
    refine Prod.ext rfl (Prod.ext ?_ ?_)
    · show (0 : EReal) = ((psum (0 * 512) (wt σ i 0) : ℝ) : EReal)
      rw [Nat.zero_mul, psum_zero, EReal.coe_zero]
    · funext h
      show (0 : EReal) = ((psum (0 * 512) (fun j => wt σ i 0 j * vr j h) : ℝ) : EReal)
      rw [Nat.zero_mul, psum_zero, EReal.coe_zero]
  | succ n ih =>
    intro hn
    have hn4 : n < 4 := hn
    obtain ⟨m, μ, hm, hst⟩ := ih (Nat.le_of_succ_le hn)
    by_cases happ : n ≤ i.val / 512 + 1
    · have hrun : rowRun qrow k v i (n + 1) hn
          = rowUpd (tileScore qrow k i n hn4) (fun j => v (tilePos n hn4 j))
              (rowRun qrow k v i n (Nat.le_of_succ_le hn)) := by
        show (if n ≤ i.val / 512 + 1 then _ else _) = _
        rw [if_pos happ]
      have hlt : (Finset.univ : Finset (Fin 512)).fold max ⊥ (tileScore qrow k i n hn4) < ⊤ := by
        rw [tileScore_eq qrow k i σ hs n hn4]
        exact fold_mask_lt_top _ _ _
      have hex : ∃ μ' : ℝ, max m ((Finset.univ : Finset (Fin 512)).fold max ⊥ (tileScore qrow k i n hn4))
          = (μ' : EReal) := by
        rcases hm with hm | ⟨hm, h0⟩
        · rw [hm]; exact Cert.Pool.max_real μ _ hlt
        · subst h0
          rw [hm, max_eq_right bot_le, tileScore_eq qrow k i σ hs 0 hn4]
          exact fold_mask_real _ _ _ ⟨0, by norm_num⟩ (Finset.mem_univ _) (Nat.zero_le _)
      obtain ⟨μ', hM⟩ := hex
      refine ⟨(μ' : EReal), μ', Or.inl rfl, ?_⟩
      rw [hrun, hst]
      exact upd_std qrow k v i σ vr hs hv n hn4 m μ μ' hm hM
    · have hrun : rowRun qrow k v i (n + 1) hn = rowRun qrow k v i n (Nat.le_of_succ_le hn) := by
        show (if n ≤ i.val / 512 + 1 then _ else _) = _
        rw [if_neg happ]
      have hm' : m = (μ : EReal) := by
        rcases hm with hm | ⟨_, h0⟩
        · exact hm
        · exact absurd (h0 ▸ Nat.zero_le _) happ
      refine ⟨m, μ, Or.inl hm', ?_⟩
      rw [hrun, hst, skip_den σ i μ n hn4 happ]
      refine Prod.ext rfl (Prod.ext rfl ?_)
      funext h
      show _ = ((psum ((n + 1) * 512) (fun j => wt σ i μ j * vr j h) : ℝ) : EReal)
      rw [skip_num σ vr i μ n hn4 happ h]

end Run

end Cert.Spec

end
-- ==== Proof.Val.Algebra.lean ====
/-
  The tile-by-tile recurrence computes the softmax-weighted sum: for real inputs, the quotient the kernel's row
  recurrence ends with is the reference's attention value.

  Both sides are real numbers in disguise.  Inside the band a score is a real, outside it is −∞ and its weight
  exp (−∞ − m) is 0, so every sum runs over the band only.  The first key tile always meets the band at its first
  position, so after it the running maximum is real; from then on the rescaling factor exp (m_old − m_new) and
  the weights are real, and the invariant "l = Σ exp (s_j − m), acc = Σ exp (s_j − m) · v_j over the positions
  seen so far" is kept by each tile (a change of shift multiplies both by the same factor).  A softmax does not
  depend on its shift, which joins the kernel's running maximum to the reference's row maximum; the kernel's 1/32
  on the query row moves out of the dot product (finite sums of reals distribute).
-/
import proofs.«171499_j10831907521163_2_alg».proof.Proof.Val.Spec
import proofs.«171499_j10831907521163_2_alg».proof.Proof.LibSoftmax
import proofs.«171499_j10831907521163_2_alg».proof.Proof.LibRealValued
import proofs.«171499_j10831907521163_2_alg».proof.Proof.Val.AlgStep

noncomputable section

namespace Cert.Spec

open scoped BigOperators
open Idealize.ShloMosaic

/-- The projection X·Wᵀ over the reals. -/
def pr (X : Fin 8 → Fin 2048 → Fin 1024 → ℝ) (W : Fin 2048 → Fin 1024 → ℝ) (b : Fin 8) (t h : Fin 2048) : ℝ :=
  ∑ e : Fin 1024, X b t e * W h e

/-- The projection of real arrays is the real projection. -/
theorem projE_up (X : Fin 8 → Fin 2048 → Fin 1024 → ℝ) (W : Fin 2048 → Fin 1024 → ℝ) (b : Fin 8) (t h : Fin 2048) :
    projE (up3 X) (up2 W) b t h = ((pr X W b t h : ℝ) : EReal) := by
  unfold projE up3 up2 pr
  rw [Cert.Pool.coe_sum]
  simp only [EReal.coe_mul]

/-- The real score of query position i against key position j: the scaled query row dotted with the key row. -/
def sc (key query : Fin 8 → Fin 2048 → Fin 1024 → ℝ) (Wk Wq : Fin 2048 → Fin 1024 → ℝ) (b : Fin 8) (i j : Fin 2048) :
    ℝ :=
  ∑ h' : Fin 2048, pr query Wq b i h' * (1 / 32) * pr key Wk b j h'

/-- The kernel's dot product of the scaled query row with a key row. -/
theorem kernel_score (key query : Fin 8 → Fin 2048 → Fin 1024 → ℝ) (Wk Wq : Fin 2048 → Fin 1024 → ℝ) (b : Fin 8)
    (i j : Fin 2048) :
    ∑ h' : Fin 2048, projE (up3 query) (up2 Wq) b i h' * Ideal.ofBits .f32 0x3D000000#32
        * projE (up3 key) (up2 Wk) b j h'
      = ((sc key query Wk Wq b i j : ℝ) : EReal) := by
  unfold sc
  simp only [projE_up, ofBits_inv32, ← EReal.coe_mul]
  rw [← Cert.Pool.coe_sum]

/-- The reference's masked score: the same real number inside the band (the division by 32 moves into the sum). -/
theorem ref_score (key query : Fin 8 → Fin 2048 → Fin 1024 → ℝ) (Wk Wq : Fin 2048 → Fin 1024 → ℝ) (b : Fin 8)
    (i j : Fin 2048) :
    scoreE (projE (up3 query) (up2 Wq)) (projE (up3 key) (up2 Wk)) b i j
      = if j.val ≤ i.val + 1 then ((sc key query Wk Wq b i j : ℝ) : EReal) else ⊥ := by
  unfold scoreE
  split_ifs
  · simp only [projE_up, ofBits_32, ← EReal.coe_mul]
    rw [← Cert.Pool.coe_sum, Cert.Pool.div_coe_coe _ _ (by norm_num)]
    congr 1
    unfold sc
    rw [Finset.sum_div]
    refine Finset.sum_congr rfl fun h' _ => ?_
    ring
  · rfl

/-- The reference's attention for masked real scores and real values: the sum of the values weighted by the
    normalised masked weights at the row's maximum, a real number M. -/
theorem attnE_real (s v : Fin 8 → Fin 2048 → Fin 2048 → EReal) (b : Fin 8) (i : Fin 2048) (σ : Fin 2048 → ℝ)
    (vr : Fin 2048 → Fin 2048 → ℝ)
    (hs : ∀ j, s b i j = if j.val ≤ i.val + 1 then ((σ j : ℝ) : EReal) else ⊥)
    (hv : ∀ j h, v b j h = (vr j h : EReal)) (h : Fin 2048) :
    ∃ M : ℝ, attnE s v b i h = ((∑ j, wt σ i M j / (∑ j', wt σ i M j') * vr j h : ℝ) : EReal) := by
  obtain ⟨M, hM⟩ := fold_mask_real (Finset.univ : Finset (Fin 2048)) (fun j => j.val ≤ i.val + 1) σ
    ⟨0, by norm_num⟩ (Finset.mem_univ _) (Nat.zero_le _)
  have hfold : (Finset.univ : Finset (Fin 2048)).fold max ⊥ (fun j' => s b i j') = (M : EReal) := by
    rw [show (fun j' => s b i j') = fun j => if j.val ≤ i.val + 1 then ((σ j : ℝ) : EReal) else ⊥ from funext hs]
    exact hM
  have hw : ∀ j, wgtE s b i j = ((wt σ i M j : ℝ) : EReal) := by
    intro j
    unfold wgtE
    rw [hfold, hs]
    exact exp_mask _ _ _
  have hD : (∑ j', wt σ i M j') ≠ 0 := (sum_wt_pos σ i M).ne'
  refine ⟨M, ?_⟩
  unfold attnE
  simp only [hw, hv]
  rw [← Cert.Pool.coe_sum]
  simp only [Cert.Pool.div_coe_coe _ _ hD, ← EReal.coe_mul]
  rw [← Cert.Pool.coe_sum]

/-- THE JOIN. For real inputs, the kernel's recurrence on query row (b, i), fed the projected query row times 1/32
    and the projected key and value of batch b, ends at the reference's attention value. -/
theorem kernel_row_eq_G (key query value : Fin 8 → Fin 2048 → Fin 1024 → ℝ) (Wk Wq Wv : Fin 2048 → Fin 1024 → ℝ)
    (b : Fin 8) (i h : Fin 2048) :
    rowOut (rowRun (fun h' => projE (up3 query) (up2 Wq) b i h' * Ideal.ofBits .f32 0x3D000000#32)
        (projE (up3 key) (up2 Wk) b) (projE (up3 value) (up2 Wv) b) i 4 le_rfl) h
      = G (up3 key) (up3 query) (up3 value) (up2 Wk) (up2 Wq) (up2 Wv) b i h := by
  obtain ⟨m, μ, hm, hst⟩ := run_inv
    (fun h' => projE (up3 query) (up2 Wq) b i h' * Ideal.ofBits .f32 0x3D000000#32)
    (projE (up3 key) (up2 Wk) b) (projE (up3 value) (up2 Wv) b) i (sc key query Wk Wq b i) (pr value Wv b)
    (fun j => kernel_score key query Wk Wq b i j) (fun j h' => projE_up value Wv b j h') 4 le_rfl
  obtain ⟨M, hG⟩ := attnE_real (scoreE (projE (up3 query) (up2 Wq)) (projE (up3 key) (up2 Wk)))
    (projE (up3 value) (up2 Wv)) b i (sc key query Wk Wq b i) (pr value Wv b)
    (fun j => ref_score key query Wk Wq b i j) (fun j h' => projE_up value Wv b j h') h
  unfold G
  rw [hG, hst]
  show Ideal.div ((psum (4 * 512) (fun j => wt (sc key query Wk Wq b i) i μ j * pr value Wv b j h) : ℝ) : EReal)
      ((psum (4 * 512) (wt (sc key query Wk Wq b i) i μ) : ℝ) : EReal) = _
  rw [show 4 * 512 = 2048 from rfl, psum_full, psum_full,
    Cert.Pool.div_coe_coe _ _ (sum_wt_pos (sc key query Wk Wq b i) i μ).ne']
  congr 1
  exact pool_factor _ _ _ (Real.exp (M - μ)) (Real.exp_ne_zero _)
    (fun j => (wt_shift (sc key query Wk Wq b i) i M μ j).symm)

end Cert.Spec

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.Val.Finite.lean ====
/-
  Finiteness of the inputs, read off the precondition.

  The precondition is the conjunction, over the six input arrays, of "every entry `x` has `|x| < +∞`": for each array the
  entrywise ordered comparison `|x| < +∞` is reduced by `and` over all axes from the word 1, and the six one-word results
  are conjoined by `and`.  Read at the extended reals, where `|x| = max x (-x)` and the pattern 0x7F800000 denotes `⊤`:

  • a conjunction of one-bit words that is 1 has both conjuncts 1, so each of the six reductions is 1;
  • a reduction by `and` over all axes that is 1 met a 1 at every index, so every entrywise comparison is 1;
  • `max x (-x) < ⊤` excludes `x = ⊤` and `x = ⊥`, so `x` is (the coercion of) a real number.

  Hence every entry of every input is a real number (`real_of_pre`), and each input array is the entrywise coercion of an
  array of reals (`exists_real_array`, `real_arrays_of_pre`).
-/
import proofs.«171499_j10831907521163_2_alg».proof.Pre_finite_inputs
import proofs.«171499_j10831907521163_2_alg».proof.Proof.Gen.Pre_finite_inputs
import proofs.«171499_j10831907521163_2_alg».proof.Proof.LibEReal
import Idealize.ShloMosaic.Lib.ReduceAll
import Idealize.ShloMosaic.Lib.ValueIdx

noncomputable section

namespace Cert.KernelIdeal.HandVal

open Idealize.ShloMosaic Cert.Pre_finite_inputs

/-- The rank-0 shape has exactly one index. -/
instance subsingleton_S_Idx : Subsingleton S_.Idx := ⟨fun a b => funext fun d => d.elim0⟩

/-- One entry of the test `|x| < +∞`: if the ordered comparison of `|x i|` against the broadcast pattern of `+∞` is 1,
    then `max (x i) (-(x i)) < ⊤`, so `x i` is a real number. -/
theorem real_of_cmp_entry {s : Shape} (hb : S_.BroadcastsInDim s (![] : Fin 0 → Fin s.rank)) (x : FVec Ideal s .f32)
    (i : s.Idx)
    (h : cmpf .olt (Host.absf x) (broadcastInDim s ![] hb (constant S_ .f32 0x7F800000#32)) i = 1#1) :
    ∃ r : ℝ, x i = (r : EReal) :=
  Cert.LibEReal.real_of_abs_lt_top (x i) (Cert.LibEReal.lt_top_of_cmp _ h)

/-- The precondition holds only if every entry of each of the six inputs is a real number. -/
theorem real_of_pre [hF : Cert.Pre_finite_inputs.Facts] (x0 x1 x2 : FVec Ideal Cert.Pre_finite_inputs.S8x2048x1024 .f32)
    (x3 x4 x5 : FVec Ideal Cert.Pre_finite_inputs.S2048x1024 .f32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal)) ∧
    (∀ i, ∃ r : ℝ, x3 i = (r : EReal)) ∧ (∀ i, ∃ r : ℝ, x4 i = (r : EReal)) ∧ (∀ i, ∃ r : ℝ, x5 i = (r : EReal)) := by
  -- the one word of the result, as a left-nested conjunction of the six reductions
  have h0 := congrFun h ValueIdx.ix0
  dsimp only [Cert.Pre_finite_inputs.fn, Cert.Pre_finite_inputs.fn_part1, andi] at h0
  -- a conjunction that is 1 has both sides 1: peel the six reductions off, last first
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  -- a full reduction by `and` that is 1 has a 1 at every index; an entry that is 1 says the entry is real
  exact ⟨fun i => real_of_cmp_entry _ x0 i (Host.reduce_andi_all _ _ _ _ _ e0 i),
    fun i => real_of_cmp_entry _ x1 i (Host.reduce_andi_all _ _ _ _ _ e1 i),
    fun i => real_of_cmp_entry _ x2 i (Host.reduce_andi_all _ _ _ _ _ e2 i),
    fun i => real_of_cmp_entry _ x3 i (Host.reduce_andi_all _ _ _ _ _ e3 i),
    fun i => real_of_cmp_entry _ x4 i (Host.reduce_andi_all _ _ _ _ _ e4 i),
    fun i => real_of_cmp_entry _ x5 i (Host.reduce_andi_all _ _ _ _ _ e5 i)⟩

/-- An array of extended reals every entry of which is a real number is the entrywise coercion of an array of reals. -/
theorem exists_real_array {ι : Type} (x : ι → EReal) (hx : ∀ i, ∃ r : ℝ, x i = (r : EReal)) :
    ∃ X : ι → ℝ, x = fun i => ((X i : ℝ) : EReal) := by
  choose X hX using hx
  exact ⟨X, funext hX⟩

/-- The precondition holds only if each of the six inputs is the entrywise coercion of an array of reals. -/
theorem real_arrays_of_pre [hF : Cert.Pre_finite_inputs.Facts] (x0 x1 x2 : FVec Ideal Cert.Pre_finite_inputs.S8x2048x1024 .f32)
    (x3 x4 x5 : FVec Ideal Cert.Pre_finite_inputs.S2048x1024 .f32)
    (h : Cert.Pre_finite_inputs.fn (F := Ideal) x0 x1 x2 x3 x4 x5 = fun _ => 1#1) :
    ∃ (X0 X1 X2 : Cert.Pre_finite_inputs.S8x2048x1024.Idx → ℝ) (X3 X4 X5 : Cert.Pre_finite_inputs.S2048x1024.Idx → ℝ),
      x0 = (fun i => ((X0 i : ℝ) : EReal)) ∧ x1 = (fun i => ((X1 i : ℝ) : EReal)) ∧ x2 = (fun i => ((X2 i : ℝ) : EReal)) ∧
      x3 = (fun i => ((X3 i : ℝ) : EReal)) ∧ x4 = (fun i => ((X4 i : ℝ) : EReal)) ∧ x5 = (fun i => ((X5 i : ℝ) : EReal)) := by
  obtain ⟨r0, r1, r2, r3, r4, r5⟩ := real_of_pre x0 x1 x2 x3 x4 x5 h
  obtain ⟨X0, e0⟩ := exists_real_array x0 r0
  obtain ⟨X1, e1⟩ := exists_real_array x1 r1
  obtain ⟨X2, e2⟩ := exists_real_array x2 r2
  obtain ⟨X3, e3⟩ := exists_real_array x3 r3
  obtain ⟨X4, e4⟩ := exists_real_array x4 r4
  obtain ⟨X5, e5⟩ := exists_real_array x5 r5
  exact ⟨X0, X1, X2, X3, X4, X5, e0, e1, e2, e3, e4, e5⟩

end Cert.KernelIdeal.HandVal

end
-- ==== Proof.Val.KernelVal.lean ====
/-
  The idealized kernel's result, as the attention function of its arguments.

  The attention launch's result array is the row recurrence's quotient at every (b, i, h) (the grid followed row by
  row); the three arrays it reads are the projections of the arguments (the query one times 1/32); the precondition
  makes every argument entry a real number; and for real inputs the recurrence's quotient is the softmax-weighted sum
  `Cert.Spec.G`.
-/
import proofs.«171499_j10831907521163_2_alg».proof.Defs
import proofs.«171499_j10831907521163_2_alg».proof.Proof.KI.Run
import proofs.«171499_j10831907521163_2_alg».proof.Proof.Val.FlashFinal
import proofs.«171499_j10831907521163_2_alg».proof.Proof.Val.Rows
import proofs.«171499_j10831907521163_2_alg».proof.Proof.Val.Algebra
import proofs.«171499_j10831907521163_2_alg».proof.Proof.Val.Finite

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand Cert.Spec

variable (m : (ℓ : Loc nD τ sig) → Buf (Elt Ideal) ℓ) (ρ : Dev nD → PrngReg)

/-- The attention function of the six argument arrays in the launch memory, as an [8, 2048, 2048] array. -/
def resultG (c : Dev nD) : S8x2048x2048.Idx → Elt Ideal .f32 := fun idx =>
  Cert.Spec.G
    (fun b t e => (m ((c.tc : Thread nD τ).loc main_arg0) : S8x2048x1024.Idx → Elt Ideal .f32) (ix3 b t e))
    (fun b t e => (m ((c.tc : Thread nD τ).loc main_arg1) : S8x2048x1024.Idx → Elt Ideal .f32) (ix3 b t e))
    (fun b t e => (m ((c.tc : Thread nD τ).loc main_arg2) : S8x2048x1024.Idx → Elt Ideal .f32) (ix3 b t e))
    (fun h e => (m ((c.tc : Thread nD τ).loc main_arg3) : S2048x1024.Idx → Elt Ideal .f32) (ix2 h e))
    (fun h e => (m ((c.tc : Thread nD τ).loc main_arg4) : S2048x1024.Idx → Elt Ideal .f32) (ix2 h e))
    (fun h e => (m ((c.tc : Thread nD τ).loc main_arg5) : S2048x1024.Idx → Elt Ideal .f32) (ix2 h e))
    ⟨(idx 0).val, (idx 0).isLt⟩ ⟨(idx 1).val, (idx 1).isLt⟩ ⟨(idx 2).val, (idx 2).isLt⟩

/-- Under the precondition the kernel's result array is the attention function of the arguments. -/
theorem kernel_value [hF : Cert.Pre_finite_inputs.Facts] (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    (dat3 (F := Ideal) (V7 m ρ) c).arrAt 3 cfg3.N = resultG m c := by
  rw [flash_final]
  funext idx
  rw [flashG_apply (V7 m ρ) c idx ⟨(idx 0).val, (idx 0).isLt⟩ ⟨(idx 1).val, (idx 1).isLt⟩ ⟨(idx 2).val, (idx 2).isLt⟩ rfl rfl rfl,
    qRow_eq, kRows_eq, vRows_eq]
  obtain ⟨X0, X1, X2, X3, X4, X5, e0, e1, e2, e3, e4, e5⟩ := real_arrays_of_pre _ _ _ _ _ _ hpre
  unfold resultG
  rw [e0, e1, e2, e3, e4, e5]
  exact kernel_row_eq_G (fun b t e => X0 (ix3 b t e)) (fun b t e => X1 (ix3 b t e)) (fun b t e => X2 (ix3 b t e))
    (fun h e => X3 (ix2 h e)) (fun h e => X4 (ix2 h e)) (fun h e => X5 (ix2 h e)) _ _ _

end Cert.KernelIdeal.HandVal

end
-- ==== Proof.LibHostRows3.lean ====
/-
  Rows of a rank-3 array. A host reduction of `[a, b, c]` over its last axis, whose body is commutative and
  associative (a maximum, a minimum, a sum), reads at `(i, j)` the fold of the body, from the initial value's one
  element, over the entries `(i, j, k)` of that row.
-/
import Idealize.ShloMosaic.Lib.ValueIdx
import Idealize.ShloMosaic.PureOps.Reduce

noncomputable section

namespace Idealize.ShloMosaic.ValueIdx

open Idealize.ShloMosaic

variable {α : Type}

/-- The entry `(i, j, k)` is the index `(i, j)` with the coordinate `k` put back on the reduced last axis. -/
theorem lift_last3 {a b c : ℕ} (h : (⟨3, ![a, b, c]⟩ : Shape).Reduces [2] ⟨2, ![a, b]⟩) (i : Fin a) (j : Fin b)
    (k : Fin c) : h.lift (ix2 i j) k = ix3 i j k := by
  funext ax
  match ax with
  | ⟨0, _⟩ => rfl
  | ⟨1, _⟩ => rfl
  | ⟨2, _⟩ => rfl

/-- A host reduction over the last axis of `[a, b, c]` with a commutative and associative body `f`, at `(i, j)`: the
    fold of `f`, from the initial value's element, over the entries `(i, j, k)`. -/
theorem hostReduce_last3 {a b c : ℕ} {u : Shape} (f : α → α → α) [Std.Commutative f] [Std.Associative f]
    (x : (⟨3, ![a, b, c]⟩ : Shape).Idx → α) (init : u.Idx → α)
    (h' : (⟨3, ![a, b, c]⟩ : Shape).ReducesTo [2] ⟨2, ![a, b]⟩)
    (h : (⟨3, ![a, b, c]⟩ : Shape).Reduces [2] ⟨2, ![a, b]⟩) (hu : 0 < u.numel) (i : Fin a) (j : Fin b) :
    Host.reduce f x init h' hu (ix2 i j)
      = (Finset.univ : Finset (Fin c)).fold f (init (Shape.Idx.first hu)) (fun k => x (ix3 i j k)) := by
  rw [Host.reduce_eq_fold_single f x init h' h hu]
  exact congrArg (Finset.fold f (init (Shape.Idx.first hu)) · Finset.univ)
    (funext fun k => congrArg x (lift_last3 h i j k))

end Idealize.ShloMosaic.ValueIdx

end
-- ==== Proof.Val.Ref.lean ====
/-
  The reference program's result, read one operation at a time, is the attention function `Cert.Spec.G` of its six
  argument arrays.

  The program projects key, query and value (three contractions over the 1024 input features), contracts the projected
  query against the projected key over the 2048 projected features, divides by 32, replaces the entries outside the
  band j ≤ i + 1 by −∞, takes the softmax of each row (row maximum, subtraction, exponential, row sum, quotient) and
  contracts the weights against the projected value.  Each stage is read at an index built from its coordinates; the
  row maximum is a fold of maxima from −∞, and the maximum of that fold with −∞ is the fold itself.
-/
import proofs.«171499_j10831907521163_2_alg».proof.Defs
import proofs.«171499_j10831907521163_2_alg».proof.Proof.Gen.ReferenceIdeal
import proofs.«171499_j10831907521163_2_alg».proof.Proof.Gen.Pre_finite_inputs
import proofs.«171499_j10831907521163_2_alg».proof.Proof.Gen.ReferenceIdeal.Run
import proofs.«171499_j10831907521163_2_alg».proof.Proof.Gen.ReferenceIdeal.Read
import proofs.«171499_j10831907521163_2_alg».proof.Proof.Val.Spec
import proofs.«171499_j10831907521163_2_alg».proof.Proof.LibHostRows3
import proofs.«171499_j10831907521163_2_alg».proof.Proof.LibRealValued
import Idealize.ShloMosaic.Lib.ValueIdx
import Idealize.ShloMosaic.Lib.Pipeline.Value
import Idealize.ShloMosaic.Lib.ValueLayout

noncomputable section

namespace Cert.ReferenceIdeal.RefValue

open Idealize.ShloMosaic Idealize.ShloMosaic.ValueIdx Cert.ReferenceIdeal Cert.ReferenceIdeal.Gen Cert.ReferenceIdeal.Read Cert.Spec

/-! ## The band: two 32-bit words compared as signed integers -/

/-- A position below 2049, written as a 32-bit word, is itself as a signed integer. -/
theorem toInt_ofNat_small (n : ℕ) (hn : n < 2049) : (BitVec.ofNat 32 n).toInt = (n : ℤ) := by
  rw [BitVec.toInt_eq_toNat_cond, BitVec.toNat_ofNat]
  have h : n % 2 ^ 32 = n := Nat.mod_eq_of_lt (by omega)
  rw [h]
  split <;> omega

/-- The signed comparison of the word of `j` with the word of `i` plus one is the comparison `j ≤ i + 1` of the
    positions. -/
theorem band_word (i j : Fin 2048) :
    IntOp.cmpi .sle (BitVec.ofNat 32 j.val) (IntOp.addi (BitVec.ofNat 32 i.val) 1#32) = 1 ↔ j.val ≤ i.val + 1 := by
  have hi := i.isLt
  have hj := j.isLt
  have e : IntOp.addi (BitVec.ofNat 32 i.val) 1#32 = BitVec.ofNat 32 (i.val + 1) := by
    unfold IntOp.addi
    exact (BitVec.ofNat_add (n := 32) i.val 1).symm
  have hs : (BitVec.ofNat 32 j.val).sle (BitVec.ofNat 32 (i.val + 1)) = decide (j.val ≤ i.val + 1) := by
    unfold BitVec.sle
    rw [toInt_ofNat_small _ (show j.val < 2049 by omega), toInt_ofNat_small _ (show i.val + 1 < 2049 by omega)]
    exact decide_eq_decide.mpr (by omega)
  rw [e]
  show BitVec.ofBool ((BitVec.ofNat 32 j.val).sle (BitVec.ofNat 32 (i.val + 1))) = 1 ↔ _
  rw [hs]
  by_cases h : j.val ≤ i.val + 1 <;> simp [h]

/-- The selection on that comparison is the choice on `j ≤ i + 1`. -/
theorem select_band {α : Type} (i j : Fin 2048) (a c : α) :
    Scalar.select (IntOp.cmpi .sle (BitVec.ofNat 32 j.val) (IntOp.addi (BitVec.ofNat 32 i.val) 1#32)) a c
      = if j.val ≤ i.val + 1 then a else c := by
  unfold Scalar.select
  by_cases h : j.val ≤ i.val + 1
  · rw [if_pos ((band_word i j).mpr h), if_pos h]
  · rw [if_neg (fun hh => h ((band_word i j).mp hh)), if_neg h]

/-! ## The argument arrays as functions of their coordinates -/

/-- A rank-3 argument array as a function of its three coordinates. -/
abbrev arr3 (x : (⟨S8x2048x1024, .f32⟩ : BufTy).Contents (Elt Ideal)) : Fin 8 → Fin 2048 → Fin 1024 → EReal :=
  fun b t e => x (ix3 b t e)

/-- A weight matrix as a function of its two coordinates. -/
abbrev arr2 (x : (⟨S2048x1024, .f32⟩ : BufTy).Contents (Elt Ideal)) : Fin 2048 → Fin 1024 → EReal :=
  fun h e => x (ix2 h e)

/-! ## The indices the contractions and the row sum read, by coordinates -/

theorem lidx_v0 (b : Fin 8) (t h : Fin 2048) (e : Fin 1024) : lidx_main_v0 (ix3 b t h) e = ix3 b t e := by
  funext a; match a with | ⟨0, _⟩ => rfl | ⟨1, _⟩ => rfl | ⟨2, _⟩ => rfl
theorem ridx_v0 (b : Fin 8) (t h : Fin 2048) (e : Fin 1024) : ridx_main_v0 (ix3 b t h) e = ix2 h e := by
  funext a; match a with | ⟨0, _⟩ => rfl | ⟨1, _⟩ => rfl
theorem lidx_v1 (b : Fin 8) (t h : Fin 2048) (e : Fin 1024) : lidx_main_v1 (ix3 b t h) e = ix3 b t e := by
  funext a; match a with | ⟨0, _⟩ => rfl | ⟨1, _⟩ => rfl | ⟨2, _⟩ => rfl
theorem ridx_v1 (b : Fin 8) (t h : Fin 2048) (e : Fin 1024) : ridx_main_v1 (ix3 b t h) e = ix2 h e := by
  funext a; match a with | ⟨0, _⟩ => rfl | ⟨1, _⟩ => rfl
theorem lidx_v2 (b : Fin 8) (t h : Fin 2048) (e : Fin 1024) : lidx_main_v2 (ix3 b t h) e = ix3 b t e := by
  funext a; match a with | ⟨0, _⟩ => rfl | ⟨1, _⟩ => rfl | ⟨2, _⟩ => rfl
theorem ridx_v2 (b : Fin 8) (t h : Fin 2048) (e : Fin 1024) : ridx_main_v2 (ix3 b t h) e = ix2 h e := by
  funext a; match a with | ⟨0, _⟩ => rfl | ⟨1, _⟩ => rfl
theorem lidx_v3 (b : Fin 8) (i j k : Fin 2048) : lidx_main_v3 (ix3 b i j) k = ix3 b i k := by
  funext a; match a with | ⟨0, _⟩ => rfl | ⟨1, _⟩ => rfl | ⟨2, _⟩ => rfl
theorem ridx_v3 (b : Fin 8) (i j k : Fin 2048) : ridx_main_v3 (ix3 b i j) k = ix3 b j k := by
  funext a; match a with | ⟨0, _⟩ => rfl | ⟨1, _⟩ => rfl | ⟨2, _⟩ => rfl
theorem lidx_v28 (b : Fin 8) (i h k : Fin 2048) : lidx_main_v28 (ix3 b i h) k = ix3 b i k := by
  funext a; match a with | ⟨0, _⟩ => rfl | ⟨1, _⟩ => rfl | ⟨2, _⟩ => rfl
theorem ridx_v28 (b : Fin 8) (i h k : Fin 2048) : ridx_main_v28 (ix3 b i h) k = ix3 b k h := by
  funext a; match a with | ⟨0, _⟩ => rfl | ⟨1, _⟩ => rfl | ⟨2, _⟩ => rfl
theorem idx_v24 (b : Fin 8) (i k : Fin 2048) : idx_main_v24 (ix2 b i) k = ix3 b i k := by
  funext a; match a with | ⟨0, _⟩ => rfl | ⟨1, _⟩ => rfl | ⟨2, _⟩ => rfl
theorem idx_v21 (b : Fin 8) (i j : Fin 2048) : idx_main_v20 (idx_main_v21 (ix3 b i j)) = ix2 b i := by
  funext a; match a with | ⟨0, _⟩ => rfl | ⟨1, _⟩ => rfl
theorem idx_v26 (b : Fin 8) (i j : Fin 2048) : idx_main_v25 (idx_main_v26 (ix3 b i j)) = ix2 b i := by
  funext a; match a with | ⟨0, _⟩ => rfl | ⟨1, _⟩ => rfl

/-! ## The stages -/

section
variable (x0 x1 x2 : (⟨S8x2048x1024, .f32⟩ : BufTy).Contents (Elt Ideal))
  (x3 x4 x5 : (⟨S2048x1024, .f32⟩ : BufTy).Contents (Elt Ideal))

/-- The projected key. -/
theorem v0_at (b : Fin 8) (t h : Fin 2048) :
    val_main_v0 (F := Ideal) x0 x3 (ix3 b t h) = projE (arr3 x0) (arr2 x3) b t h := by
  rw [val_main_v0_apply]
  exact Finset.sum_congr rfl fun e _ => by rw [lidx_v0, ridx_v0]

/-- The projected query. -/
theorem v1_at (b : Fin 8) (t h : Fin 2048) :
    val_main_v1 (F := Ideal) x1 x4 (ix3 b t h) = projE (arr3 x1) (arr2 x4) b t h := by
  rw [val_main_v1_apply]
  exact Finset.sum_congr rfl fun e _ => by rw [lidx_v1, ridx_v1]

/-- The projected value. -/
theorem v2_at (b : Fin 8) (t h : Fin 2048) :
    val_main_v2 (F := Ideal) x2 x5 (ix3 b t h) = projE (arr3 x2) (arr2 x5) b t h := by
  rw [val_main_v2_apply]
  exact Finset.sum_congr rfl fun e _ => by rw [lidx_v2, ridx_v2]

/-- The band mask at (b, i, j): the comparison of the two position words. -/
theorem mask_at (b : Fin 8) (i j : Fin 2048) :
    val_main_call0_v1 (F := Ideal) (ix3 b i j)
      = IntOp.cmpi .sle (BitVec.ofNat 32 j.val) (IntOp.addi (BitVec.ofNat 32 i.val) 1#32) := by
  rw [val_main_call0_v1_apply, val_main_v15_apply, val_main_v14_apply, val_main_v12_apply, val_main_v9_apply,
    val_main_v8_apply, val_main_v13_apply, val_main_v11_apply, val_main_v7_apply, val_main_v6_apply,
    val_main_v10_apply, val_main_c_apply]

/-- The scaled, masked score. -/
theorem v16_at (b : Fin 8) (i j : Fin 2048) :
    val_main_v16 (F := Ideal) x0 x1 x3 x4 (ix3 b i j)
      = scoreE (projE (arr3 x1) (arr2 x4)) (projE (arr3 x0) (arr2 x3)) b i j := by
  rw [val_main_v16_apply, mask_at, val_main_v5_apply, val_main_v4_apply, val_main_cst_apply, val_main_v3_apply,
    val_main_call0_v2_apply, val_main_call0_v0_apply, val_main_cst_0_apply, select_band]
  unfold scoreE
  simp only [Ideal.hostDivf_def, Ideal.ofBits_def, Cert.Pool.neg_inf_pattern]
  refine if_congr Iff.rfl (congrArg (Ideal.div · _) (Finset.sum_congr rfl fun k _ => ?_)) rfl
  rw [lidx_v3, ridx_v3, v1_at, v0_at]
end

section
variable (x0 x1 x2 : (⟨S8x2048x1024, .f32⟩ : BufTy).Contents (Elt Ideal))
  (x3 x4 x5 : (⟨S2048x1024, .f32⟩ : BufTy).Contents (Elt Ideal))

/-- The scores of the projected query against the projected key. -/
abbrev scores : Fin 8 → Fin 2048 → Fin 2048 → EReal :=
  scoreE (projE (arr3 x1) (arr2 x4)) (projE (arr3 x0) (arr2 x3))

/-- The row maximum: the fold of maxima from −∞ over the row of scores. -/
theorem v17_at (b : Fin 8) (i : Fin 2048) :
    val_main_v17 (F := Ideal) x0 x1 x3 x4 (ix2 b i)
      = (Finset.univ : Finset (Fin 2048)).fold max ⊥ (fun j => scores x0 x1 x3 x4 b i j) := by
  unfold val_main_v17
  refine (hostReduce_last3 (α := EReal) (max : EReal → EReal → EReal) (val_main_v16 (F := Ideal) x0 x1 x3 x4)
    (val_main_cst_1 (F := Ideal)) reducesTo_S8x2048x2048_S8x2048_d2 (by decide) h_S_ b i).trans ?_
  rw [val_main_cst_1_apply, Ideal.ofBits_def, Cert.Pool.neg_inf_pattern]
  exact congrArg (Finset.fold max ⊥ · Finset.univ) (funext fun j => v16_at x0 x1 x3 x4 b i j)

/-- The row maximum broadcast along the row: the maximum with −∞ changes nothing. -/
theorem v21_at (b : Fin 8) (i j : Fin 2048) :
    val_main_v21 (F := Ideal) x0 x1 x3 x4 (ix3 b i j)
      = (Finset.univ : Finset (Fin 2048)).fold max ⊥ (fun j' => scores x0 x1 x3 x4 b i j') := by
  rw [val_main_v21_apply, val_main_v20_apply, idx_v21, val_main_v19_apply, val_main_v18_apply, val_main_cst_2_apply,
    v17_at, Ideal.maximumf_def, Ideal.ofBits_def, Cert.Pool.neg_inf_pattern]
  exact max_eq_right bot_le

/-- The unnormalised weight. -/
theorem v23_at (b : Fin 8) (i j : Fin 2048) :
    val_main_v23 (F := Ideal) x0 x1 x3 x4 (ix3 b i j) = wgtE (scores x0 x1 x3 x4) b i j := by
  rw [val_main_v23_apply, val_main_v22_apply, v16_at, v21_at, Ideal.hostUnary_exp_def, Ideal.subf_def]
  rfl

/-- The row's denominator broadcast along the row. -/
theorem v26_at (b : Fin 8) (i j : Fin 2048) :
    val_main_v26 (F := Ideal) x0 x1 x3 x4 (ix3 b i j) = ∑ j' : Fin 2048, wgtE (scores x0 x1 x3 x4) b i j' := by
  rw [val_main_v26_apply, val_main_v25_apply, idx_v26, val_main_v24_apply, val_main_cst_3_apply, Ideal.ofBits_def,
    Ideal.ofBits_zero_f32, zero_add]
  exact Finset.sum_congr rfl fun k _ => by rw [idx_v24, v23_at]

/-- The normalised weight. -/
theorem v27_at (b : Fin 8) (i j : Fin 2048) :
    val_main_v27 (F := Ideal) x0 x1 x3 x4 (ix3 b i j)
      = Ideal.div (wgtE (scores x0 x1 x3 x4) b i j) (∑ j' : Fin 2048, wgtE (scores x0 x1 x3 x4) b i j') := by
  rw [val_main_v27_apply, v23_at, v26_at, Ideal.hostDivf_def]

/-- The result at (b, i, h), with the arrays as functions of their coordinates. -/
theorem v28_at (b : Fin 8) (i h : Fin 2048) :
    val_main_v28 (F := Ideal) x0 x1 x2 x3 x4 x5 (ix3 b i h)
      = G (arr3 x0) (arr3 x1) (arr3 x2) (arr2 x3) (arr2 x4) (arr2 x5) b i h := by
  rw [val_main_v28_apply]
  unfold G attnE
  exact Finset.sum_congr rfl fun k _ => by rw [lidx_v28, ridx_v28, v27_at, v2_at]

end

/-- THE REFERENCE IS `G`: the program's result at (b, i, h) is the attention function of its six arguments, in the
    program's argument order (key, query, value, key weights, query weights, value weights). -/
theorem ref_eq_G (x0 x1 x2 : (⟨S8x2048x1024, .f32⟩ : BufTy).Contents (Elt Ideal))
    (x3 x4 x5 : (⟨S2048x1024, .f32⟩ : BufTy).Contents (Elt Ideal)) (b : Fin 8) (i h : Fin 2048) :
    Cert.ReferenceIdeal.Read.val_main_v28 (F := Ideal) x0 x1 x2 x3 x4 x5 (ix3 b i h)
      = Cert.Spec.G (fun b t e => x0 (ix3 b t e)) (fun b t e => x1 (ix3 b t e)) (fun b t e => x2 (ix3 b t e))
          (fun h e => x3 (ix2 h e)) (fun h e => x4 (ix2 h e)) (fun h e => x5 (ix2 h e)) b i h :=
  v28_at x0 x1 x2 x3 x4 x5 b i h

/-! ## The run -/

open Idealize.ShloMosaic.TcCoe Idealize.SL.Sem

/-- The reference's run, its result buffer named by the last stage of the six argument buffers: every weakly fair
    execution ends with the result at that term and the arguments unchanged. -/
theorem run_G (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev nD,
        r.2.mem ((c.tc : Thread nD τ).loc main_v28)
          = val_main_v28 (F := Ideal) (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)) :=
  (θ_run Cert.ReferenceIdeal.defs _ _).mono (fun _ h c => ⟨(h c).1.trans (val_main_v28_eq m' c), (h c).2⟩)
    (Cert.ReferenceIdeal.Value.run (F := Ideal) m' ρ')

/-- The reference runs to the end and leaves its arguments unchanged. -/
theorem frame_ref : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate: a causal flash-attention kernel (three projection launches and one attention launch that walks
  the key tiles with a running maximum, denominator and weighted sum) against the plain softmax-attention reference.

  * The two kernel programs run to the end, fault nowhere and leave their arguments unchanged: each launch's body
    obligation at every grid point, the four launches and the host reshapes between them chained into one run.
  * The reference's run is its generated one.
  * The idealized kernel differs from the printed one in one named constant, the large negative value that fills the
    mask and resets the running maximum, read as −∞.
  * At the extended reals, from finite inputs, both idealized programs end with the same array: the kernel's result is
    the row-by-row recurrence's quotient, the reference's is the softmax-weighted sum, and the two are one function
    (a softmax does not depend on its shift; masked positions weigh 0; the 1/32 moves out of the dot product).
-/
import proofs.«171499_j10831907521163_2_alg».proof.Defs
import proofs.«171499_j10831907521163_2_alg».proof.Proof.Gen.Kernel
import proofs.«171499_j10831907521163_2_alg».proof.Proof.Gen.KernelIdeal
import proofs.«171499_j10831907521163_2_alg».proof.Proof.Gen.ReferenceIdeal
import proofs.«171499_j10831907521163_2_alg».proof.Proof.Gen.Pre_finite_inputs
import proofs.«171499_j10831907521163_2_alg».proof.Proof.K.Run
import proofs.«171499_j10831907521163_2_alg».proof.Proof.KI.Run
import proofs.«171499_j10831907521163_2_alg».proof.Proof.Val.KernelVal
import proofs.«171499_j10831907521163_2_alg».proof.Proof.Val.Ref
import Idealize.ShloMosaic.PureOps.IdealRules
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The two preservation entries are one fact: the named large negative value denotes −∞. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- Both idealized programs end at the attention function of the arguments. -/
theorem algebraic : Cert.algebraic_KernelIdeal_ReferenceIdeal := by
  intro m ρ m' ρ' hpre hagree
  refine ⟨fun c => Cert.KernelIdeal.HandVal.resultG m c, ?_, ?_⟩
  · exact (θ_run Cert.KernelIdeal.defs _ _).mono
      (fun r h c => ⟨(h c).1.trans (Cert.KernelIdeal.HandVal.kernel_value m ρ c (hpre c)), (h c).2⟩)
      (Cert.KernelIdeal.Hand.run_named (F := Ideal) m ρ)
  · refine (θ_run Cert.ReferenceIdeal.defs _ _).mono (fun r h c => ⟨(h c).1.trans ?_, (h c).2⟩)
      (Cert.ReferenceIdeal.RefValue.run_G m' ρ')
    obtain ⟨a0, a1, a2, a3, a4, a5⟩ := hagree c
    rw [a0, a1, a2, a3, a4, a5]
    funext idx
    refine (congrArg _ (eq_ix3 idx)).trans ?_
    exact Cert.ReferenceIdeal.RefValue.ref_eq_G _ _ _ _ _ _ _ _ _

theorem claim : Cert.Claim :=
  ⟨Cert.Kernel.Gen.facts, Cert.KernelIdeal.Gen.facts, Cert.ReferenceIdeal.Gen.facts, Cert.Pre_finite_inputs.Gen.facts,
   frame_k, frame_ki, Cert.ReferenceIdeal.RefValue.frame_ref, preserves, algebraic⟩

end Cert.Proof

end
